-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S512x100000 : Shape := ⟨2, ![512, 100000]⟩
abbrev S3200000 : Shape := ⟨1, ![3200000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S96x64 : Shape := ⟨2, ![96, 64]⟩
abbrev S64 : Shape := ⟨1, ![64]⟩
abbrev S64x16 : Shape := ⟨2, ![64, 16]⟩
abbrev S16x1 : Shape := ⟨2, ![16, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S16 .f32) (main_arg16 : FVec F S16x1 .f32) (main_arg17 : FVec F S1 .f32) (main_v48 : IVec S_ 1) (main_v49 : FVec F S64x16 .f32) (main_v50 : FVec F S64x16 .f32) : IVec S_ 1 :=
  let main_v51 : IVec S64x16 1 := cmpf .olt main_v49 main_v50
  let main_c_19 : IVec S_ 1 := constantI S_ 1 1#1
  let main_v52 : IVec S_ 1 := (fun x v => Host.reduce IntOp.andi x v reducesTo_S64x16_S_d0_1 h_S_) main_v51 main_c_19
  let main_v53 : IVec S_ 1 := andi main_v48 main_v52
  let main_v54 : FVec F S16 .f32 := Host.absf main_arg15
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x1 .f32 := Host.absf main_arg16
  let main_cst_22 : FVec F S_ .f32 := constant S_ .f32 0x7F800000#32
  let main_v60 : FVec F S16x1 .f32 := broadcastInDim S16x1 ![] bcast_S_S16x1 main_cst_22
  let main_v61 : IVec S16x1 1 := cmpf .olt main_v59 main_v60
  let main_c_23 : IVec S_ 1 := constantI S_ 1 1#1
  let main_v62 : IVec S_ 1 := (fun x v => Host.reduce IntOp.andi x v reducesTo_S16x1_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg11 : FVec F S16 .f32) (main_arg12 : FVec F S96x64 .f32) (main_arg13 : FVec F S64 .f32) (main_arg14 : FVec F S64x16 .f32) (main_arg15 : FVec F S16 .f32) (main_arg16 : FVec F S16x1 .f32) (main_arg17 : FVec F S1 .f32) (main_v33 : IVec S_ 1) : IVec S_ 1 :=
  let main_v34 : FVec F S16 .f32 := Host.absf main_arg11
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S96x64 .f32 := Host.absf main_arg12
  let main_cst_14 : FVec F S_ .f32 := constant S_ .f32 0x7F800000#32
  let main_v40 : FVec F S96x64 .f32 := broadcastInDim S96x64 ![] bcast_S_S96x64 main_cst_14
  let main_v41 : IVec S96x64 1 := cmpf .olt main_v39 main_v40
  let main_c_15 : IVec S_ 1 := constantI S_ 1 1#1
  let main_v42 : IVec S_ 1 := (fun x v => Host.reduce IntOp.andi x v reducesTo_S96x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x16 .f32 := Host.absf main_arg14
  let main_cst_18 : FVec F S_ .f32 := constant S_ .f32 0x7F800000#32
  let main_v50 : FVec F S64x16 .f32 := broadcastInDim S64x16 ![] bcast_S_S64x16 main_cst_18
  fn_part3 (F := F) main_arg15 main_arg16 main_arg17 main_v48 main_v49 main_v50

def fn_part1 {F : FTy → Type} [FloatOps F] (main_arg8 : FVec F S64x32 .f32) (main_arg9 : FVec F S32 .f32) (main_arg10 : FVec F S32x16 .f32) (main_arg11 : FVec F S16 .f32) (main_arg12 : FVec F S96x64 .f32) (main_arg13 : FVec F S64 .f32) (main_arg14 : FVec F S64x16 .f32) (main_arg15 : FVec F S16 .f32) (main_arg16 : FVec F S16x1 .f32) (main_arg17 : FVec F S1 .f32) (main_v13 : IVec S_ 1) (main_v16 : IVec S512x100000 1) : IVec S_ 1 :=
  let main_c_5 : IVec S_ 1 := constantI S_ 1 1#1
  let main_v17 : IVec S_ 1 := (fun x v => Host.reduce IntOp.andi x v reducesTo_S512x100000_S_d0_1 h_S_) main_v16 main_c_5
  let main_v18 : IVec S_ 1 := andi main_v13 main_v17
  let main_v19 : FVec F S64x32 .f32 := Host.absf main_arg8
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg9
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg10
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S100000x64 .f32) (main_arg1 : FVec F S100000x64 .f32) (main_arg2 : FVec F S512x100000 .f32) (main_arg3 : FVec F S512x100000 .f32) (main_arg4 : IVec S3200000 32) (main_arg5 : IVec S3200000 32) (main_arg6 : IVec S3200000 32) (main_arg7 : IVec S3200000 32) (main_arg8 : FVec F S64x32 .f32) (main_arg9 : FVec F S32 .f32) (main_arg10 : FVec F S32x16 .f32) (main_arg11 : FVec F S16 .f32) (main_arg12 : FVec F S96x64 .f32) (main_arg13 : FVec F S64 .f32) (main_arg14 : FVec F S64x16 .f32) (main_arg15 : FVec F S16 .f32) (main_arg16 : FVec F S16x1 .f32) (main_arg17 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S512x100000 .f32 := Host.absf main_arg2
  let main_cst_2 : FVec F S_ .f32 := constant S_ .f32 0x7F800000#32
  let main_v10 : FVec F S512x100000 .f32 := broadcastInDim S512x100000 ![] bcast_S_S512x100000 main_cst_2
  let main_v11 : IVec S512x100000 1 := cmpf .olt main_v9 main_v10
  let main_c_3 : IVec S_ 1 := constantI S_ 1 1#1
  let main_v12 : IVec S_ 1 := (fun x v => Host.reduce IntOp.andi x v reducesTo_S512x100000_S_d0_1 h_S_) main_v11 main_c_3
  let main_v13 : IVec S_ 1 := andi main_v8 main_v12
  let main_v14 : FVec F S512x100000 .f32 := Host.absf main_arg3
  let main_cst_4 : FVec F S_ .f32 := constant S_ .f32 0x7F800000#32
  let main_v15 : FVec F S512x100000 .f32 := broadcastInDim S512x100000 ![] bcast_S_S512x100000 main_cst_4
  let main_v16 : IVec S512x100000 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000x64 : Shape := ⟨2, ![100000, 64]⟩
abbrev S512x100000 : Shape := ⟨2, ![512, 100000]⟩
abbrev S3200000 : Shape := ⟨1, ![3200000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S96x64 : Shape := ⟨2, ![96, 64]⟩
abbrev S64 : Shape := ⟨1, ![64]⟩
abbrev S64x16 : Shape := ⟨2, ![64, 16]⟩
abbrev S16x1 : Shape := ⟨2, ![16, 1]⟩
abbrev S1 : Shape := ⟨1, ![1]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x32 : Shape := ⟨2, ![100000, 32]⟩
abbrev S5000x64 : Shape := ⟨2, ![5000, 64]⟩
abbrev S5000x1 : Shape := ⟨2, ![5000, 1]⟩
abbrev S5000x32 : Shape := ⟨2, ![5000, 32]⟩
abbrev S3200000x32 : Shape := ⟨2, ![3200000, 32]⟩
abbrev S1x32 : Shape := ⟨2, ![1, 32]⟩
abbrev S100000x16 : Shape := ⟨2, ![100000, 16]⟩
abbrev S5000x16 : Shape := ⟨2, ![5000, 16]⟩
abbrev S3200000x16 : Shape := ⟨2, ![3200000, 16]⟩
abbrev S1x16 : Shape := ⟨2, ![1, 16]⟩
abbrev S100000x48 : Shape := ⟨2, ![100000, 48]⟩
abbrev S512x48 : Shape := ⟨2, ![512, 48]⟩
abbrev S16x100000 : Shape := ⟨2, ![16, 100000]⟩
abbrev S16x48 : Shape := ⟨2, ![16, 48]⟩
abbrev S512x96 : Shape := ⟨2, ![512, 96]⟩
abbrev S1x64 : Shape := ⟨2, ![1, 64]⟩
abbrev S1x1 : Shape := ⟨2, ![1, 1]⟩
abbrev S512x1 : Shape := ⟨2, ![512, 1]⟩
abbrev S512x64 : Shape := ⟨2, ![512, 64]⟩
abbrev S512x16 : Shape := ⟨2, ![512, 16]⟩

abbrev nBuf : Space → Nat
  | .hbm => 155
  | .vmem => 46
  | .smem => 0
  | _ => 0

abbrev hbmTy0_0 (i : Nat) : BufTy := match i % 128 with
  | 0 => ⟨S100000x64, .f32⟩
  | 1 => ⟨S100000x64, .f32⟩
  | 2 => ⟨S512x100000, .f32⟩
  | 3 => ⟨S512x100000, .f32⟩
  | 4 => ⟨S3200000, .i32⟩
  | 5 => ⟨S3200000, .i32⟩
  | 6 => ⟨S3200000, .i32⟩
  | 7 => ⟨S3200000, .i32⟩
  | 8 => ⟨S64x32, .f32⟩
  | 9 => ⟨S32, .f32⟩
  | 10 => ⟨S32x16, .f32⟩
  | 11 => ⟨S16, .f32⟩
  | 12 => ⟨S96x64, .f32⟩
  | 13 => ⟨S64, .f32⟩
  | 14 => ⟨S64x16, .f32⟩
  | 15 => ⟨S16, .f32⟩
  | 16 => ⟨S16x1, .f32⟩
  | 17 => ⟨S1, .f32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S100000x1, .f32⟩
  | 29 => ⟨S_, .f32⟩
  | 30 => ⟨S3200000, .f32⟩
  | 31 => ⟨S_, .f32⟩
  | 32 => ⟨S100000, .f32⟩
  | 33 => ⟨S3200000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S100000x1, .f32⟩
  | 40 => ⟨S_, .f32⟩
  | 41 => ⟨S3200000, .f32⟩
  | 42 => ⟨S_, .f32⟩
  | 43 => ⟨S100000, .f32⟩
  | 44 => ⟨S3200000x1, .i32⟩
  | 45 => ⟨S100000, .f32⟩
  | 46 => ⟨S_, .f32⟩
  | 47 => ⟨S100000, .f32⟩
  | 48 => ⟨S100000, .f32⟩
  | 49 => ⟨S100000, .f32⟩
  | 50 => ⟨S100000x1, .f32⟩
  | 51 => ⟨S_, .f32⟩
  | 52 => ⟨S3200000, .f32⟩
  | 53 => ⟨S_, .f32⟩
  | 54 => ⟨S100000, .f32⟩
  | 55 => ⟨S3200000x1, .i32⟩
  | 56 => ⟨S100000, .f32⟩
  | 57 => ⟨S_, .f32⟩
  | 58 => ⟨S100000, .f32⟩
  | 59 => ⟨S100000, .f32⟩
  | 60 => ⟨S100000, .f32⟩
  | 61 => ⟨S100000x1, .f32⟩
  | 62 => ⟨S100000x32, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000x32, .f32⟩
  | 72 => ⟨S_, .f32⟩
  | 73 => ⟨S100000x32, .f32⟩
  | 74 => ⟨S3200000x1, .i32⟩
  | 75 => ⟨S100000x32, .f32⟩
  | 76 => ⟨S100000x32, .f32⟩
  | 77 => ⟨S100000x32, .f32⟩
  | 78 => ⟨S1x32, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S100000x32, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000x32, .f32⟩
  | 94 => ⟨S_, .f32⟩
  | 95 => ⟨S100000x32, .f32⟩
  | 96 => ⟨S3200000x1, .i32⟩
  | 97 => ⟨S100000x32, .f32⟩
  | 98 => ⟨S100000x32, .f32⟩
  | 99 => ⟨S100000x32, .f32⟩
  | 100 => ⟨S1x32, .f32⟩
  | 101 => ⟨S100000x32, .f32⟩
  | 102 => ⟨S100000x32, .f32⟩
  | 103 => ⟨S_, .f32⟩
  | 104 => ⟨S100000x32, .f32⟩
  | 105 => ⟨S100000x32, .f32⟩
  | 106 => ⟨S100000x16, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x16, .f32⟩
  | 116 => ⟨S_, .f32⟩
  | 117 => ⟨S100000x16, .f32⟩
  | 118 => ⟨S3200000x1, .i32⟩
  | 119 => ⟨S100000x16, .f32⟩
  | 120 => ⟨S100000x16, .f32⟩
  | 121 => ⟨S100000x16, .f32⟩
  | 122 => ⟨S1x16, .f32⟩
  | 123 => ⟨S100000x16, .f32⟩
  | 124 => ⟨S100000x16, .f32⟩
  | 125 => ⟨S100000x16, .f32⟩
  | 126 => ⟨S_, .i32⟩
  | 127 => ⟨S3200000, .i32⟩
  | _ => ⟨S100000x64, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000x16, .f32⟩
  | 7 => ⟨S_, .f32⟩
  | 8 => ⟨S100000x16, .f32⟩
  | 9 => ⟨S3200000x1, .i32⟩
  | 10 => ⟨S100000x16, .f32⟩
  | 11 => ⟨S100000x16, .f32⟩
  | 12 => ⟨S100000x16, .f32⟩
  | 13 => ⟨S1x16, .f32⟩
  | 14 => ⟨S100000x16, .f32⟩
  | 15 => ⟨S100000x16, .f32⟩
  | 16 => ⟨S100000x48, .f32⟩
  | 17 => ⟨S100000x48, .bf16⟩
  | 18 => ⟨S100000x48, .f32⟩
  | 19 => ⟨S100000x48, .bf16⟩
  | 20 => ⟨S512x48, .f32⟩
  | 21 => ⟨S512x48, .f32⟩
  | 22 => ⟨S512x96, .f32⟩
  | 23 => ⟨S1x64, .f32⟩
  | 24 => ⟨S1x16, .f32⟩
  | 25 => ⟨S1x1, .f32⟩
  | 26 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x32, .f32⟩
  | .local _ .vmem, ⟨5, _⟩ => ⟨S5000x32, .f32⟩
  | .local _ .vmem, ⟨6, _⟩ => ⟨S5000x32, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x1, .f32⟩
  | .local _ .vmem, ⟨17, _⟩ => ⟨S5000x1, .f32⟩
  | .local _ .vmem, ⟨18, _⟩ => ⟨S32x16, .f32⟩
  | .local _ .vmem, ⟨19, _⟩ => ⟨S5000x16, .f32⟩
  | .local _ .vmem, ⟨20, _⟩ => ⟨S5000x16, .f32⟩
  | .local _ .vmem, ⟨21, _⟩ => ⟨S5000x32, .f32⟩
  | .local _ .vmem, ⟨22, _⟩ => ⟨S5000x32, .f32⟩
  | .local _ .vmem, ⟨23, _⟩ => ⟨S5000x1, .f32⟩
  | .local _ .vmem, ⟨24, _⟩ => ⟨S5000x1, .f32⟩
  | .local _ .vmem, ⟨25, _⟩ => ⟨S32x16, .f32⟩
  | .local _ .vmem, ⟨26, _⟩ => ⟨S5000x16, .f32⟩
  | .local _ .vmem, ⟨27, _⟩ => ⟨S5000x16, .f32⟩
  | .local _ .vmem, ⟨28, _⟩ => ⟨S16x100000, .f32⟩
  | .local _ .vmem, ⟨29, _⟩ => ⟨S16x100000, .f32⟩
  | .local _ .vmem, ⟨30, _⟩ => ⟨S100000x48, .bf16⟩
  | .local _ .vmem, ⟨31, _⟩ => ⟨S16x48, .f32⟩
  | .local _ .vmem, ⟨32, _⟩ => ⟨S16x48, .f32⟩
  | .local _ .vmem, ⟨33, _⟩ => ⟨S16x100000, .f32⟩
  | .local _ .vmem, ⟨34, _⟩ => ⟨S16x100000, .f32⟩
  | .local _ .vmem, ⟨35, _⟩ => ⟨S100000x48, .bf16⟩
  | .local _ .vmem, ⟨36, _⟩ => ⟨S16x48, .f32⟩
  | .local _ .vmem, ⟨37, _⟩ => ⟨S16x48, .f32⟩
  | .local _ .vmem, ⟨38, _⟩ => ⟨S512x96, .f32⟩
  | .local _ .vmem, ⟨39, _⟩ => ⟨S96x64, .f32⟩
  | .local _ .vmem, ⟨40, _⟩ => ⟨S1x64, .f32⟩
  | .local _ .vmem, ⟨41, _⟩ => ⟨S64x16, .f32⟩
  | .local _ .vmem, ⟨42, _⟩ => ⟨S1x16, .f32⟩
  | .local _ .vmem, ⟨43, _⟩ => ⟨S16x1, .f32⟩
  | .local _ .vmem, ⟨44, _⟩ => ⟨S1x1, .f32⟩
  | .local _ .vmem, ⟨45, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_cst_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_4 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_5 : Ref sig .tc := ⟨.hbm, 40, rfl⟩
abbrev main_v16 : Ref sig .tc := ⟨.hbm, 41, rfl⟩
abbrev main_cst_6 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_7 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_8 : Ref sig .tc := ⟨.hbm, 51, rfl⟩
abbrev main_v24 : Ref sig .tc := ⟨.hbm, 52, rfl⟩
abbrev main_cst_9 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_10 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c : Ref sig .tc := ⟨.hbm, 63, rfl⟩
abbrev main_v33 : Ref sig .tc := ⟨.hbm, 64, rfl⟩
abbrev main_v34 : Ref sig .tc := ⟨.hbm, 65, rfl⟩
abbrev main_c_11 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_12 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call0_cst : Ref sig .tc := ⟨.hbm, 81, rfl⟩
abbrev main_call0_v0 : Ref sig .tc := ⟨.hbm, 82, rfl⟩
abbrev main_v48 : Ref sig .tc := ⟨.hbm, 83, rfl⟩
abbrev main_v49 : Ref sig .tc := ⟨.hbm, 84, rfl⟩
abbrev main_c_13 : Ref sig .tc := ⟨.hbm, 85, rfl⟩
abbrev main_v50 : Ref sig .tc := ⟨.hbm, 86, rfl⟩
abbrev main_v51 : Ref sig .tc := ⟨.hbm, 87, rfl⟩
abbrev main_c_14 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_15 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_call1_cst : Ref sig .tc := ⟨.hbm, 103, rfl⟩
abbrev main_call1_v0 : Ref sig .tc := ⟨.hbm, 104, rfl⟩
abbrev main_v65 : Ref sig .tc := ⟨.hbm, 105, rfl⟩
abbrev main_v66 : Ref sig .tc := ⟨.hbm, 106, rfl⟩
abbrev main_c_16 : Ref sig .tc := ⟨.hbm, 107, rfl⟩
abbrev main_v67 : Ref sig .tc := ⟨.hbm, 108, rfl⟩
abbrev main_v68 : Ref sig .tc := ⟨.hbm, 109, rfl⟩
abbrev main_c_17 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_18 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_19 : Ref sig .tc := ⟨.hbm, 126, rfl⟩
abbrev main_v83 : Ref sig .tc := ⟨.hbm, 127, rfl⟩
abbrev main_v84 : Ref sig .tc := ⟨.hbm, 128, rfl⟩
abbrev main_c_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_21 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg5_0 : Ref sig .tc := ⟨.vmem, 43, rfl⟩
abbrev cc6_stg6_0 : Ref sig .tc := ⟨.vmem, 44, rfl⟩
abbrev cc6_stg7_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem1_0 : DmaSem sig := 39
abbrev cc6_sem2_0 : DmaSem sig := 40
abbrev cc6_sem3_0 : DmaSem sig := 41
abbrev cc6_sem4_0 : DmaSem sig := 42
abbrev cc6_sem5_0 : DmaSem sig := 43
abbrev cc6_sem6_0 : DmaSem sig := 44
abbrev cc6_sem7_0 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16x100000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S100000x48 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S16x48 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16x100000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S100000x48 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S16x48 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x96 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S96x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S16x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  broadcasts_S5000x1_S5000x32 : S5000x1.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x32_S100000x16_S100000x48_d1 : Shape.Concatenates [S100000x32, S100000x16] S100000x48 1
  inb_S16x100000_S16x100000_0_0 : ∀ a, (![0, 0] : Fin 2 → Nat) a + S16x100000.size a ≤ S16x100000.size a
  h_S16x100000 : 0 < S16x100000.numel
  inb_S100000x48_S100000x48_0_0 : ∀ a, (![0, 0] : Fin 2 → Nat) a + S100000x48.size a ≤ S100000x48.size a
  h_S100000x48 : 0 < S100000x48.numel
  shapeCasts_S100000x48_S100000x48 : S100000x48.ShapeCasts S100000x48
  inb_S16x48_S16x48_0_0 : ∀ a, (![0, 0] : Fin 2 → Nat) a + S16x48.size a ≤ S16x48.size a
  h_S16x48 : 0 < S16x48.numel
  concatenates_S512x48_S512x48_S512x96_d1 : Shape.Concatenates [S512x48, S512x48] S512x96 1
  shapeCasts_S64_S1x64 : S64.ShapeCasts S1x64
  shapeCasts_S16_S1x16 : S16.ShapeCasts S1x16
  shapeCasts_S1_S1x1 : S1.ShapeCasts S1x1
  inb_S512x96_S512x96_0_0 : ∀ a, (![0, 0] : Fin 2 → Nat) a + S512x96.size a ≤ S512x96.size a
  h_S512x96 : 0 < S512x96.numel
  shapeCasts_S512x96_S512x96 : S512x96.ShapeCasts S512x96
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S3200000x1_S3200000_n_0_0_1_wf : ScatterDims.WF S100000 S3200000x1 S3200000 [] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S16x100000_S100000x48_S16x48_1_0_0_1_n_n_wf : DotDims.WF S16x100000 S100000x48 S16x48 [1] [0] [0] [1] [] []
  dot_S512x96_S96x64_S512x64_1_0_0_1_n_n_wf : DotDims.WF S512x96 S96x64 S512x64 [1] [0] [0] [1] [] []
  dot_S512x64_S64x16_S512x16_1_0_0_1_n_n_wf : DotDims.WF S512x64 S64x16 S512x16 [1] [0] [0] [1] [] []
  dot_S512x16_S16x1_S512x1_1_0_0_1_n_n_wf : DotDims.WF S512x16 S16x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x16.size a ≤ S32x16.size a
  hwx3_2 : ∀ i : grid3.Coords, EltTy.bits .f32 = 32 ∨ (Rect.block (s := S32x16) S32x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S100000x16.size a
  hwx3_3 : ∀ i : grid3.Coords, EltTy.bits .f32 = 32 ∨ (Rect.block (s := S100000x16) S5000x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16x100000.size a ≤ S512x100000.size a
  hwx4_0 : ∀ i : grid4.Coords, EltTy.bits .f32 = 32 ∨ (Rect.block (s := S512x100000) S16x100000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S100000x48.size a ≤ S100000x48.size a
  hwx4_1 : ∀ i : grid4.Coords, EltTy.bits .bf16 = 32 ∨ (Rect.block (s := S100000x48) S100000x48.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16x48.size a ≤ S512x48.size a
  hwx4_2 : ∀ i : grid4.Coords, EltTy.bits .f32 = 32 ∨ (Rect.block (s := S512x48) S16x48.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16x100000.size a ≤ S512x100000.size a
  hwx5_0 : ∀ i : grid5.Coords, EltTy.bits .f32 = 32 ∨ (Rect.block (s := S512x100000) S16x100000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S100000x48.size a ≤ S100000x48.size a
  hwx5_1 : ∀ i : grid5.Coords, EltTy.bits .bf16 = 32 ∨ (Rect.block (s := S100000x48) S100000x48.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S16x48.size a ≤ S512x48.size a
  hwx5_2 : ∀ i : grid5.Coords, EltTy.bits .f32 = 32 ∨ (Rect.block (s := S512x48) S16x48.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x96.size a ≤ S512x96.size a
  hwx6_0 : ∀ i : grid6.Coords, EltTy.bits .f32 = 32 ∨ (Rect.block (s := S512x96) S512x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x64.size a ≤ S96x64.size a
  hwx6_1 : ∀ i : grid6.Coords, EltTy.bits .f32 = 32 ∨ (Rect.block (s := S96x64) S96x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x16.size a ≤ S64x16.size a
  hwx6_3 : ∀ i : grid6.Coords, EltTy.bits .f32 = 32 ∨ (Rect.block (s := S64x16) S64x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x16.size a ≤ S1x16.size a
  hwx6_4 : ∀ i : grid6.Coords, EltTy.bits .f32 = 32 ∨ (Rect.block (s := S1x16) S1x16.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S16x1.size a ≤ S16x1.size a
  hwx6_5 : ∀ i : grid6.Coords, EltTy.bits .f32 = 32 ∨ (Rect.block (s := S16x1) S16x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x1.size a ≤ S512x1.size a
  hwx6_7 : ∀ i : grid6.Coords, EltTy.bits .f32 = 32 ∨ (Rect.block (s := S512x1) S512x1.size (cc6_transform_7 i) (hinb6_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S16x100000_S100000x48_S16x48_1_0_0_1_n_n : DotDims S16x100000 S100000x48 S16x48 where
  lhsContracting := [1]
  rhsContracting := [0]
  lhsNonContracting := [0]
  rhsNonContracting := [1]
  lhsBatch := []
  rhsBatch := []
  wf := dot_S16x100000_S100000x48_S16x48_1_0_0_1_n_n_wf
def dot_S512x96_S96x64_S512x64_1_0_0_1_n_n : DotDims S512x96 S96x64 S512x64 where
  lhsContracting := [1]
  rhsContracting := [0]
  lhsNonContracting := [0]
  rhsNonContracting := [1]
  lhsBatch := []
  rhsBatch := []
  wf := dot_S512x96_S96x64_S512x64_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S32x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S5000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S16x100000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S100000x48.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102) S16x48.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg3) S16x100000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S100000x48.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S16x48.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v104) S512x96.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S96x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S64x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v106) S1x16.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg16) S16x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v107) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v108) S512x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x64 : Shape := ⟨2, ![100000, 64]⟩
abbrev S512x100000 : Shape := ⟨2, ![512, 100000]⟩
abbrev S3200000 : Shape := ⟨1, ![3200000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S96x64 : Shape := ⟨2, ![96, 64]⟩
abbrev S64 : Shape := ⟨1, ![64]⟩
abbrev S64x16 : Shape := ⟨2, ![64, 16]⟩
abbrev S16x1 : Shape := ⟨2, ![16, 1]⟩
abbrev S1 : Shape := ⟨1, ![1]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x32 : Shape := ⟨2, ![100000, 32]⟩
abbrev S3200000x32 : Shape := ⟨2, ![3200000, 32]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩
abbrev S512x32 : Shape := ⟨2, ![512, 32]⟩
abbrev S512x16 : Shape := ⟨2, ![512, 16]⟩
abbrev S512x96 : Shape := ⟨2, ![512, 96]⟩
abbrev S512x64 : Shape := ⟨2, ![512, 64]⟩
abbrev S1x64 : Shape := ⟨2, ![1, 64]⟩
abbrev S512x1 : Shape := ⟨2, ![512, 1]⟩
abbrev S1x1 : Shape := ⟨2, ![1, 1]⟩

abbrev nBuf : Space → Nat
  | .hbm => 179
  | .vmem => 0
  | .smem => 0
  | _ => 0

abbrev hbmTy0_0 (i : Nat) : BufTy := match i % 128 with
  | 0 => ⟨S100000x64, .f32⟩
  | 1 => ⟨S100000x64, .f32⟩
  | 2 => ⟨S512x100000, .f32⟩
  | 3 => ⟨S512x100000, .f32⟩
  | 4 => ⟨S3200000, .i32⟩
  | 5 => ⟨S3200000, .i32⟩
  | 6 => ⟨S3200000, .i32⟩
  | 7 => ⟨S3200000, .i32⟩
  | 8 => ⟨S64x32, .f32⟩
  | 9 => ⟨S32, .f32⟩
  | 10 => ⟨S32x16, .f32⟩
  | 11 => ⟨S16, .f32⟩
  | 12 => ⟨S96x64, .f32⟩
  | 13 => ⟨S64, .f32⟩
  | 14 => ⟨S64x16, .f32⟩
  | 15 => ⟨S16, .f32⟩
  | 16 => ⟨S16x1, .f32⟩
  | 17 => ⟨S1, .f32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .f32⟩
  | 29 => ⟨S3200000, .f32⟩
  | 30 => ⟨S_, .f32⟩
  | 31 => ⟨S100000, .f32⟩
  | 32 => ⟨S3200000x1, .i32⟩
  | 33 => ⟨S100000, .f32⟩
  | 34 => ⟨S_, .f32⟩
  | 35 => ⟨S100000, .f32⟩
  | 36 => ⟨S100000, .f32⟩
  | 37 => ⟨S100000, .f32⟩
  | 38 => ⟨S_, .f32⟩
  | 39 => ⟨S3200000, .f32⟩
  | 40 => ⟨S_, .f32⟩
  | 41 => ⟨S100000, .f32⟩
  | 42 => ⟨S3200000x1, .i32⟩
  | 43 => ⟨S100000, .f32⟩
  | 44 => ⟨S_, .f32⟩
  | 45 => ⟨S100000, .f32⟩
  | 46 => ⟨S100000, .f32⟩
  | 47 => ⟨S100000, .f32⟩
  | 48 => ⟨S_, .f32⟩
  | 49 => ⟨S3200000, .f32⟩
  | 50 => ⟨S_, .f32⟩
  | 51 => ⟨S100000, .f32⟩
  | 52 => ⟨S3200000x1, .i32⟩
  | 53 => ⟨S100000, .f32⟩
  | 54 => ⟨S_, .f32⟩
  | 55 => ⟨S100000, .f32⟩
  | 56 => ⟨S100000, .f32⟩
  | 57 => ⟨S100000, .f32⟩
  | 58 => ⟨S100000x1, .f32⟩
  | 59 => ⟨S100000x64, .f32⟩
  | 60 => ⟨S100000x64, .f32⟩
  | 61 => ⟨S100000x32, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000x32, .f32⟩
  | 71 => ⟨S_, .f32⟩
  | 72 => ⟨S100000x32, .f32⟩
  | 73 => ⟨S3200000x1, .i32⟩
  | 74 => ⟨S100000x32, .f32⟩
  | 75 => ⟨S100000x1, .f32⟩
  | 76 => ⟨S100000x32, .f32⟩
  | 77 => ⟨S100000x32, .f32⟩
  | 78 => ⟨S1x32, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S100000x1, .f32⟩
  | 85 => ⟨S100000x32, .f32⟩
  | 86 => ⟨S100000x32, .f32⟩
  | 87 => ⟨S100000x16, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x16, .f32⟩
  | 97 => ⟨S_, .f32⟩
  | 98 => ⟨S100000x16, .f32⟩
  | 99 => ⟨S3200000x1, .i32⟩
  | 100 => ⟨S100000x16, .f32⟩
  | 101 => ⟨S100000x1, .f32⟩
  | 102 => ⟨S100000x16, .f32⟩
  | 103 => ⟨S100000x16, .f32⟩
  | 104 => ⟨S1x16, .f32⟩
  | 105 => ⟨S100000x16, .f32⟩
  | 106 => ⟨S100000x16, .f32⟩
  | 107 => ⟨S100000x1, .f32⟩
  | 108 => ⟨S100000x64, .f32⟩
  | 109 => ⟨S100000x64, .f32⟩
  | 110 => ⟨S100000x32, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000x32, .f32⟩
  | 120 => ⟨S_, .f32⟩
  | 121 => ⟨S100000x32, .f32⟩
  | 122 => ⟨S3200000x1, .i32⟩
  | 123 => ⟨S100000x32, .f32⟩
  | 124 => ⟨S100000x1, .f32⟩
  | 125 => ⟨S100000x32, .f32⟩
  | 126 => ⟨S100000x32, .f32⟩
  | 127 => ⟨S1x32, .f32⟩
  | _ => ⟨S100000x64, .f32⟩

abbrev hbmTy0_1 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S100000x1, .f32⟩
  | 6 => ⟨S100000x32, .f32⟩
  | 7 => ⟨S100000x32, .f32⟩
  | 8 => ⟨S100000x16, .f32⟩
  | 9 => ⟨S_, .i32⟩
  | 10 => ⟨S3200000, .i32⟩
  | 11 => ⟨S3200000, .i1⟩
  | 12 => ⟨S_, .i32⟩
  | 13 => ⟨S3200000, .i32⟩
  | 14 => ⟨S3200000, .i32⟩
  | 15 => ⟨S3200000, .i32⟩
  | 16 => ⟨S3200000x1, .i32⟩
  | 17 => ⟨S3200000x16, .f32⟩
  | 18 => ⟨S_, .f32⟩
  | 19 => ⟨S100000x16, .f32⟩
  | 20 => ⟨S3200000x1, .i32⟩
  | 21 => ⟨S100000x16, .f32⟩
  | 22 => ⟨S100000x1, .f32⟩
  | 23 => ⟨S100000x16, .f32⟩
  | 24 => ⟨S100000x16, .f32⟩
  | 25 => ⟨S1x16, .f32⟩
  | 26 => ⟨S100000x16, .f32⟩
  | 27 => ⟨S100000x16, .f32⟩
  | 28 => ⟨S512x32, .f32⟩
  | 29 => ⟨S512x16, .f32⟩
  | 30 => ⟨S512x32, .f32⟩
  | 31 => ⟨S512x16, .f32⟩
  | 32 => ⟨S512x96, .f32⟩
  | 33 => ⟨S512x64, .f32⟩
  | 34 => ⟨S1x64, .f32⟩
  | 35 => ⟨S512x64, .f32⟩
  | 36 => ⟨S512x64, .f32⟩
  | 37 => ⟨S_, .f32⟩
  | 38 => ⟨S512x64, .f32⟩
  | 39 => ⟨S512x64, .f32⟩
  | 40 => ⟨S512x16, .f32⟩
  | 41 => ⟨S1x16, .f32⟩
  | 42 => ⟨S512x16, .f32⟩
  | 43 => ⟨S512x16, .f32⟩
  | 44 => ⟨S_, .f32⟩
  | 45 => ⟨S512x16, .f32⟩
  | 46 => ⟨S512x16, .f32⟩
  | 47 => ⟨S512x1, .f32⟩
  | 48 => ⟨S1x1, .f32⟩
  | 49 => ⟨S512x1, .f32⟩
  | 50 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_cst_3 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_4 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_5 : Ref sig .tc := ⟨.hbm, 38, rfl⟩
abbrev main_v14 : Ref sig .tc := ⟨.hbm, 39, rfl⟩
abbrev main_cst_6 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_7 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_8 : Ref sig .tc := ⟨.hbm, 48, rfl⟩
abbrev main_v21 : Ref sig .tc := ⟨.hbm, 49, rfl⟩
abbrev main_cst_9 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_10 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c : Ref sig .tc := ⟨.hbm, 62, rfl⟩
abbrev main_v32 : Ref sig .tc := ⟨.hbm, 63, rfl⟩
abbrev main_v33 : Ref sig .tc := ⟨.hbm, 64, rfl⟩
abbrev main_c_11 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_12 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call0_cst : Ref sig .tc := ⟨.hbm, 81, rfl⟩
abbrev main_call0_v0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_13 : Ref sig .tc := ⟨.hbm, 88, rfl⟩
abbrev main_v53 : Ref sig .tc := ⟨.hbm, 89, rfl⟩
abbrev main_v54 : Ref sig .tc := ⟨.hbm, 90, rfl⟩
abbrev main_c_14 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_18 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_call1_cst : Ref sig .tc := ⟨.hbm, 130, rfl⟩
abbrev main_call1_v0 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_19 : Ref sig .tc := ⟨.hbm, 137, rfl⟩
abbrev main_v94 : Ref sig .tc := ⟨.hbm, 138, rfl⟩
abbrev main_v95 : Ref sig .tc := ⟨.hbm, 139, rfl⟩
abbrev main_c_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_call2_cst : Ref sig .tc := ⟨.hbm, 165, rfl⟩
abbrev main_call2_v0 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_call3_cst : Ref sig .tc := ⟨.hbm, 172, rfl⟩
abbrev main_call3_v0 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S512x32_S512x16_S512x32_S512x16_S512x96_d1 : Shape.Concatenates [S512x32, S512x16, S512x32, S512x16] S512x96 1
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S3200000x1_S3200000_n_0_0_1_wf : ScatterDims.WF S100000 S3200000x1 S3200000 [] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S512x100000_S100000x32_S512x32_1_0_0_1_n_n_wf : DotDims.WF S512x100000 S100000x32 S512x32 [1] [0] [0] [1] [] []
  dot_S512x100000_S100000x16_S512x16_1_0_0_1_n_n_wf : DotDims.WF S512x100000 S100000x16 S512x16 [1] [0] [0] [1] [] []
  dot_S512x96_S96x64_S512x64_1_0_0_1_n_n_wf : DotDims.WF S512x96 S96x64 S512x64 [1] [0] [0] [1] [] []
  dot_S512x64_S64x16_S512x16_1_0_0_1_n_n_wf : DotDims.WF S512x64 S64x16 S512x16 [1] [0] [0] [1] [] []
  dot_S512x16_S16x1_S512x1_1_0_0_1_n_n_wf : DotDims.WF S512x16 S16x1 S512x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S512x100000_S100000x32_S512x32_1_0_0_1_n_n : DotDims S512x100000 S100000x32 S512x32 where
  lhsContracting := [1]
  rhsContracting := [0]
  lhsNonContracting := [0]
  rhsNonContracting := [1]
  lhsBatch := []
  rhsBatch := []
  wf := dot_S512x100000_S100000x32_S512x32_1_0_0_1_n_n_wf
def dot_S512x100000_S100000x16_S512x16_1_0_0_1_n_n : DotDims S512x100000 S100000x16 S512x16 where
  lhsContracting := [1]
  rhsContracting := [0]
  lhsNonContracting := [0]
  rhsNonContracting := [1]
  lhsBatch := []
  rhsBatch := []
  wf := dot_S512x100000_S100000x16_S512x16_1_0_0_1_n_n_wf
def dot_S512x96_S96x64_S512x64_1_0_0_1_n_n : DotDims S512x96 S96x64 S512x64 where
  lhsContracting := [1]
  rhsContracting := [0]
  lhsNonContracting := [0]
  rhsNonContracting := [1]
  lhsBatch := []
  rhsBatch := []
  wf := dot_S512x96_S96x64_S512x64_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf

class Facts : Prop extends Facts₀ where

variable [Facts]
-- ==== Proof.KRun.lean ====
/-
  The idealized kernel's program runs to its end, and its result buffer then holds what the last boundary of the run
  holds there: the fold of the host stretches and of the seven regions' write-backs, read at the result. The argument
  arrays end as launched. (The run itself is the frame's run; only the final state is read at one more buffer.)
-/
import proofs.«115691_j25890062860848_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and every argument array as launched. -/
theorem run_value : θ_run defs (onTc (τ := τ) (main (F := F))) ⟨m, fun _ => 0, ρ⟩ (fun r => ∀ c : Dev nD,
      r.2.mem ((c.tc : Thread nD τ).loc main_v108) = W15 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v108 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c)⟩)

end Cert.Gcn.KRun

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«115691_j25890062860848_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«115691_j25890062860848_2_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.LibGcnLayout.lean ====
/-
  Small pieces of a graph-convolution network over the extended reals, each as a function of whole arrays, with the
  spellings a vector unit and a host give them. A vector laid out as one column or as one row (by a re-lay or by a
  broadcast: the same function). A matrix plus a one-row vector repeated down the rows. Two matrices joined side by
  side along the columns, and four; the product of a matrix with two matrices joined side by side is the two products
  joined side by side, because the column an entry sits in does not depend on the summation index.
-/
import proofs.«115691_j25890062860848_2_alg».proof.Proof.LibMatProd
import proofs.«115691_j25890062860848_2_alg».proof.Proof.LibRowScale
import proofs.«115691_j25890062860848_2_alg».proof.Proof.LibBiasRelu

noncomputable section

namespace Cert.LibGcnLayout

open Idealize.ShloMosaic Idealize.ShloMosaic.ValueIdx Cert.LibPlainDot Cert.LibMatProd Cert.LibRowScale Cert.LibBiasRelu

/-- A vector as a one-column matrix: entry (i, 0) is v i. -/
def col {a : ℕ} {α : Type} (v : (⟨1, ![a]⟩ : Shape).Idx → α) : (⟨2, ![a, 1]⟩ : Shape).Idx → α :=
  fun j => v (ix1 (n := a) (j 0))

/-- A vector as a one-row matrix: entry (0, i) is v i. -/
def row {a : ℕ} {α : Type} (v : (⟨1, ![a]⟩ : Shape).Idx → α) : (⟨2, ![1, a]⟩ : Shape).Idx → α :=
  fun j => v (ix1 (n := a) (j 1))

theorem col_apply {a : ℕ} {α : Type} (v : (⟨1, ![a]⟩ : Shape).Idx → α) (i : Fin a) (u : Fin 1) : col v (ix2 i u) = v (ix1 i) := rfl
theorem row_apply {a : ℕ} {α : Type} (v : (⟨1, ![a]⟩ : Shape).Idx → α) (u : Fin 1) (i : Fin a) : row v (ix2 u i) = v (ix1 i) := rfl

/-- A vector broadcast into one column is the column. -/
theorem bcast_col {a : ℕ} {α : Type} (v : (⟨1, ![a]⟩ : Shape).Idx → α)
    (hb : (⟨1, ![a]⟩ : Shape).BroadcastsInDim ⟨2, ![a, 1]⟩ ![0]) :
    broadcastInDim ⟨2, ![a, 1]⟩ ![0] hb v = col v := by
  funext j
  obtain ⟨i, u, rfl⟩ : ∃ (i : Fin a) (u : Fin 1), j = ix2 i u := ⟨j 0, j 1, eq_ix2 j⟩
  rw [col_apply]
  exact broadcastInDim_apply _ hb v _ (ix1 i) (fun ax => match ax with
    | ⟨0, _⟩ => by
      show i.val = if a = 1 then 0 else i.val
      split
      · have := i.isLt; omega
      · rfl)

/-- A vector re-laid as one column is the column. -/
theorem cast_col {a : ℕ} {α : Type} (v : (⟨1, ![a]⟩ : Shape).Idx → α) (hc : (⟨1, ![a]⟩ : Shape).ShapeCasts ⟨2, ![a, 1]⟩) :
    shapeCast ⟨2, ![a, 1]⟩ v hc = col v := by
  funext j
  obtain ⟨i, u, rfl⟩ : ∃ (i : Fin a) (u : Fin 1), j = ix2 i u := ⟨j 0, j 1, eq_ix2 j⟩
  rw [col_apply]
  exact shapeCast_apply v hc _ _ (by
    have hu : u.val = 0 := by omega
    rw [Shape.rowMajor_val_two, Shape.rowMajor_val_one]
    show i.val = i.val * 1 + u.val
    rw [hu, Nat.mul_one, Nat.add_zero])

/-- A vector broadcast into one row is the row. -/
theorem bcast_row {a : ℕ} {α : Type} (v : (⟨1, ![a]⟩ : Shape).Idx → α)
    (hb : (⟨1, ![a]⟩ : Shape).BroadcastsInDim ⟨2, ![1, a]⟩ ![1]) :
    broadcastInDim ⟨2, ![1, a]⟩ ![1] hb v = row v := by
  funext j
  obtain ⟨u, i, rfl⟩ : ∃ (u : Fin 1) (i : Fin a), j = ix2 u i := ⟨j 0, j 1, eq_ix2 j⟩
  rw [row_apply]
  exact broadcastInDim_apply _ hb v _ (ix1 i) (fun ax => match ax with
    | ⟨0, _⟩ => by
      show i.val = if a = 1 then 0 else i.val
      split
      · have := i.isLt; omega
      · rfl)

/-- A vector re-laid as one row is the row. -/
theorem cast_row {a : ℕ} {α : Type} (v : (⟨1, ![a]⟩ : Shape).Idx → α) (hc : (⟨1, ![a]⟩ : Shape).ShapeCasts ⟨2, ![1, a]⟩) :
    shapeCast ⟨2, ![1, a]⟩ v hc = row v := by
  funext j
  obtain ⟨u, i, rfl⟩ : ∃ (u : Fin 1) (i : Fin a), j = ix2 u i := ⟨j 0, j 1, eq_ix2 j⟩
  rw [row_apply]
  exact shapeCast_apply v hc _ _ (by
    have hu : u.val = 0 := by omega
    rw [Shape.rowMajor_val_two, Shape.rowMajor_val_one]
    show i.val = u.val * a + i.val
    rw [hu, Nat.zero_mul, Nat.zero_add])

/-- Entry (p, q) of a matrix plus a one-row vector repeated down the rows: a (p, q) + b (0, q). -/
def rowBias {M N : ℕ} (a : FVec Ideal ⟨2, ![M, N]⟩ .f32) (b : FVec Ideal ⟨2, ![1, N]⟩ .f32) : FVec Ideal ⟨2, ![M, N]⟩ .f32 :=
  fun i => a i + b (ix2 (n0 := 1) (n1 := N) (0 : Fin 1) (i 1))

theorem rowBias_apply {M N : ℕ} (a : FVec Ideal ⟨2, ![M, N]⟩ .f32) (b : FVec Ideal ⟨2, ![1, N]⟩ .f32) (p : Fin M) (q : Fin N) :
    rowBias a b (ix2 p q) = a (ix2 p q) + b (ix2 (0 : Fin 1) q) := rfl

/-- The host's spelling: the row broadcast down the rows, added. -/
theorem rowBias_host {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1]) :
    addf a (broadcastInDim ⟨2, ![M, N]⟩ ![0, 1] hbc b) = rowBias a b := by
  funext j
  obtain ⟨p, q, rfl⟩ : ∃ (p : Fin M) (q : Fin N), j = ix2 p q := ⟨j 0, j 1, eq_ix2 j⟩
  rw [addf_apply, bcast_1b_ab_apply, rowBias_apply]

/-- The vector unit's spelling: the row through an identity re-lay, repeated down the rows, added. -/
theorem rowBias_vector {M N : ℕ} (a : FVec Ideal ⟨2, ![M, N]⟩ .f32) (b : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ b h2) hb) = rowBias a b := by
  funext j
  obtain ⟨p, q, rfl⟩ : ∃ (p : Fin M) (q : Fin N), j = ix2 p q := ⟨j 0, j 1, eq_ix2 j⟩
  rw [shapeCast_self, addf_apply, broadcastTo_1b_ab_apply, rowBias_apply]

/-- The vector unit's spelling of a matrix plus a row clamped below at zero, the matrix as it stands. -/
theorem biasRelu_vector {M N : ℕ} (a : FVec Ideal ⟨2, ![M, N]⟩ .f32) (b : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    maximumf (addf a (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, maximumf_apply, addf_apply, broadcastTo_1b_ab_apply, biasRelu_apply]
  rfl

/-- Two matrices of equal height joined side by side: column q is a's column q when q is below a's width, and b's
    column q less a's width otherwise. -/
def catCols {M n1 n2 n : ℕ} (e : n = n1 + n2) (a : FVec Ideal ⟨2, ![M, n1]⟩ .f32) (b : FVec Ideal ⟨2, ![M, n2]⟩ .f32) :
    FVec Ideal ⟨2, ![M, n]⟩ .f32 :=
  fun i => if h : (i 1).val < n1 then a (ix2 (n0 := M) (i 0) ⟨(i 1).val, h⟩)
    else b (ix2 (n0 := M) (i 0) ⟨(i 1).val - n1, by have := idx2_lt1 i; omega⟩)

theorem catCols_left {M n1 n2 n : ℕ} (e : n = n1 + n2) (a : FVec Ideal ⟨2, ![M, n1]⟩ .f32) (b : FVec Ideal ⟨2, ![M, n2]⟩ .f32)
    (p : Fin M) (q : Fin n) (h : q.val < n1) : catCols e a b (ix2 p q) = a (ix2 p ⟨q.val, h⟩) := by
  show (if h : q.val < n1 then _ else _) = _
  rw [dif_pos h]
  rfl

theorem catCols_right {M n1 n2 n : ℕ} (e : n = n1 + n2) (a : FVec Ideal ⟨2, ![M, n1]⟩ .f32) (b : FVec Ideal ⟨2, ![M, n2]⟩ .f32)
    (p : Fin M) (q : Fin n) (h : ¬ q.val < n1) :
    catCols e a b (ix2 p q) = b (ix2 p ⟨q.val - n1, by have := q.isLt; omega⟩) := by
  show (if h : q.val < n1 then _ else _) = _
  rw [dif_neg h]
  rfl

/-- A two-piece concatenation along the columns is the two matrices joined side by side. -/
theorem concat2 {M n1 n2 n : ℕ} (e : n = n1 + n2) (a : FVec Ideal ⟨2, ![M, n1]⟩ .f32) (b : FVec Ideal ⟨2, ![M, n2]⟩ .f32)
    (h : Shape.Concatenates [(⟨2, ![M, n1]⟩ : Shape), ⟨2, ![M, n2]⟩] ⟨2, ![M, n]⟩ 1) :
    concatenate ⟨2, ![M, n]⟩ 1 [⟨⟨2, ![M, n1]⟩, a⟩, ⟨⟨2, ![M, n2]⟩, b⟩] h = catCols e a b := by
  funext j
  obtain ⟨p, q, rfl⟩ : ∃ (p : Fin M) (q : Fin n), j = ix2 p q := ⟨j 0, j 1, eq_ix2 j⟩
  by_cases hq : q.val < n1
  · rw [catCols_left e a b p q hq]
    exact concatenate_pair_apply_left (1 : Fin 2) a b h (ix2 p q) rfl (ix2 p ⟨q.val, hq⟩)
      (fun ax => match ax with | ⟨0, _⟩ => rfl | ⟨1, _⟩ => rfl)
  · rw [catCols_right e a b p q hq]
    refine concatenate_pair_apply_right (1 : Fin 2) a b h (ix2 p q) rfl rfl (ix2 p ⟨q.val - n1, by have := q.isLt; omega⟩)
      (fun ax hax => match ax, hax with | ⟨0, _⟩, _ => rfl | ⟨1, _⟩, hax => absurd rfl hax) ?_
    show q.val - n1 + n1 = q.val
    omega

/-- The product of a matrix with two matrices joined side by side is the two products joined side by side. -/
theorem matProd_catCols {M K n1 n2 n : ℕ} (e : n = n1 + n2) (x : FVec Ideal ⟨2, ![M, K]⟩ .f32)
    (a : FVec Ideal ⟨2, ![K, n1]⟩ .f32) (b : FVec Ideal ⟨2, ![K, n2]⟩ .f32) :
    matProd x (catCols e a b) = catCols e (matProd x a) (matProd x b) := by
  funext j
  obtain ⟨p, q, rfl⟩ : ∃ (p : Fin M) (q : Fin n), j = ix2 p q := ⟨j 0, j 1, eq_ix2 j⟩
  rw [matProd_apply]
  by_cases hq : q.val < n1
  · rw [catCols_left e _ _ p q hq, matProd_apply]
    exact Finset.sum_congr rfl fun k _ => by rw [catCols_left e a b k q hq]
  · rw [catCols_right e _ _ p q hq, matProd_apply]
    exact Finset.sum_congr rfl fun k _ => by rw [catCols_right e a b k q hq]

end Cert.LibGcnLayout

end
-- ==== Proof.GcnSpec.lean ====
/-
  What the network computes, as one function of its eighteen argument arrays over the extended reals.

  A graph convolution scales each node's features by the node's out-degree factor, multiplies by the weights, sums
  the result over the edges into each edge's head node, scales each node's sum by its in-degree factor and adds the
  bias (the first layer clamps below at zero). The degree factor of an index array and the sum over the edges enter
  as functions (`nrm`, `ag32`, `ag16`): both programs apply the same ones, so the specification never opens them.
  Each graph's node features after both layers are pooled by a matrix product with the graph's membership matrix; the
  four pooled matrices are joined side by side and pass through three dense layers.
-/
import proofs.«115691_j25890062860848_2_alg».proof.Proof.LibGcnLayout

noncomputable section

namespace Cert.Gcn

open Idealize.ShloMosaic Idealize.ShloMosaic.ValueIdx Cert.LibMatProd Cert.LibRowScale Cert.LibBiasRelu Cert.LibGcnLayout

/-- The index arrays' shape (one entry per edge) and the per-node vector's. -/
abbrev SE : Shape := ⟨1, ![3200000]⟩
abbrev SN : Shape := ⟨1, ![100000]⟩

variable (nrm : IVec SE 32 → FVec Ideal SN .f32)
  (ag32 : FVec Ideal ⟨2, ![100000, 32]⟩ .f32 → IVec SE 32 → IVec SE 32 → FVec Ideal ⟨2, ![100000, 32]⟩ .f32)
  (ag16 : FVec Ideal ⟨2, ![100000, 16]⟩ .f32 → IVec SE 32 → IVec SE 32 → FVec Ideal ⟨2, ![100000, 16]⟩ .f32)

/-- The features scaled by the out-degree factor, times the weights: what is sent along the edges. -/
def msg {K N : ℕ} (x : FVec Ideal ⟨2, ![100000, K]⟩ .f32) (w : FVec Ideal ⟨2, ![K, N]⟩ .f32) (src : IVec SE 32) :
    FVec Ideal ⟨2, ![100000, N]⟩ .f32 :=
  matProd (rowScale x (col (nrm src))) w

/-- The first layer: aggregate, scale by the in-degree factor, add the bias, clamp below at zero. -/
def conv1 (x : FVec Ideal ⟨2, ![100000, 64]⟩ .f32) (w : FVec Ideal ⟨2, ![64, 32]⟩ .f32) (b : FVec Ideal ⟨1, ![32]⟩ .f32)
    (src dst : IVec SE 32) : FVec Ideal ⟨2, ![100000, 32]⟩ .f32 :=
  biasRelu (rowScale (ag32 (msg nrm x w src) src dst) (col (nrm dst))) (row b)

/-- The second layer: the same without the clamp. -/
def conv2 (h : FVec Ideal ⟨2, ![100000, 32]⟩ .f32) (w : FVec Ideal ⟨2, ![32, 16]⟩ .f32) (b : FVec Ideal ⟨1, ![16]⟩ .f32)
    (src dst : IVec SE 32) : FVec Ideal ⟨2, ![100000, 16]⟩ .f32 :=
  rowBias (rowScale (ag16 (msg nrm h w src) src dst) (col (nrm dst))) (row b)

/-- Three dense layers, the first two clamped below at zero. -/
def head (d : FVec Ideal ⟨2, ![512, 96]⟩ .f32) (w1 : FVec Ideal ⟨2, ![96, 64]⟩ .f32) (b1 : FVec Ideal ⟨1, ![64]⟩ .f32)
    (w2 : FVec Ideal ⟨2, ![64, 16]⟩ .f32) (b2 : FVec Ideal ⟨1, ![16]⟩ .f32)
    (w3 : FVec Ideal ⟨2, ![16, 1]⟩ .f32) (b3 : FVec Ideal ⟨1, ![1]⟩ .f32) : FVec Ideal ⟨2, ![512, 1]⟩ .f32 :=
  rowBias (matProd (biasRelu (matProd (biasRelu (matProd d w1) (row b1)) w2) (row b2)) w3) (row b3)

/-- One graph's pooled features: the membership matrix times the first layer's output beside the same times the
    second layer's. -/
def pooled (lm : FVec Ideal ⟨2, ![512, 100000]⟩ .f32) (h1 : FVec Ideal ⟨2, ![100000, 32]⟩ .f32)
    (h2 : FVec Ideal ⟨2, ![100000, 16]⟩ .f32) : FVec Ideal ⟨2, ![512, 48]⟩ .f32 :=
  catCols (n := 48) rfl (matProd lm h1) (matProd lm h2)

/-- The whole network. -/
def G (x0 x1 : FVec Ideal ⟨2, ![100000, 64]⟩ .f32) (lm0 lm1 : FVec Ideal ⟨2, ![512, 100000]⟩ .f32)
    (s0 d0 s1 d1 : IVec SE 32)
    (w1 : FVec Ideal ⟨2, ![64, 32]⟩ .f32) (b1 : FVec Ideal ⟨1, ![32]⟩ .f32)
    (w2 : FVec Ideal ⟨2, ![32, 16]⟩ .f32) (b2 : FVec Ideal ⟨1, ![16]⟩ .f32)
    (f1w : FVec Ideal ⟨2, ![96, 64]⟩ .f32) (f1b : FVec Ideal ⟨1, ![64]⟩ .f32)
    (f2w : FVec Ideal ⟨2, ![64, 16]⟩ .f32) (f2b : FVec Ideal ⟨1, ![16]⟩ .f32)
    (f3w : FVec Ideal ⟨2, ![16, 1]⟩ .f32) (f3b : FVec Ideal ⟨1, ![1]⟩ .f32) : FVec Ideal ⟨2, ![512, 1]⟩ .f32 :=
  head (catCols (n := 96) rfl
      (pooled lm0 (conv1 nrm ag32 x0 w1 b1 s0 d0) (conv2 nrm ag16 (conv1 nrm ag32 x0 w1 b1 s0 d0) w2 b2 s0 d0))
      (pooled lm1 (conv1 nrm ag32 x1 w1 b1 s1 d1) (conv2 nrm ag16 (conv1 nrm ag32 x1 w1 b1 s1 d1) w2 b2 s1 d1)))
    f1w f1b f2w f2b f3w f3b

end Cert.Gcn

end
-- ==== Proof.KDefs.lean ====
/-
  The degree factor of an index array and the sum over the edges, as the idealized kernel's program spells them on the
  host: the count of each node's occurrences in the index array (a scatter-add of ones into zeros), raised to at least
  one, its reciprocal square root; and a gather of the rows at the edges' tails (a negative index wrapped once by the
  row count) scatter-added into zeros at the edges' heads.
-/
import proofs.«115691_j25890062860848_2_alg».proof.Proof.Gen.KernelIdeal
import proofs.«115691_j25890062860848_2_alg».proof.Proof.GcnSpec

noncomputable section

namespace Cert.Gcn.K

open Cert.KernelIdeal Cert.KernelIdeal.Facts₀ Idealize.ShloMosaic Cert.Gcn

/-- The degree factor of the nodes with respect to one index array. -/
def nrm : IVec SE 32 → FVec Ideal SN .f32 := fun idx =>
  Host.rsqrt (F := Ideal) (maximumf
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 idx)
      (broadcastInDim S3200000 ![] bcast_S_S3200000 (constant (F := Ideal) S_ .f32 0x3F800000#32)))
    (broadcastInDim S100000 ![] bcast_S_S100000 (constant (F := Ideal) S_ .f32 0x3F800000#32)))

/-- The edges' tail indices, a negative one wrapped once by the number of nodes, as a one-column array. -/
def tails (src : IVec SE 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The 32-wide rows at the edges' tails summed into the edges' heads. -/
def ag32 (h : FVec Ideal ⟨2, ![100000, 32]⟩ .f32) (src dst : IVec SE 32) : FVec Ideal ⟨2, ![100000, 32]⟩ .f32 :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst)
    (Host.gather gather_S100000x32_S3200000x1_S3200000x32_1_0_n_n_0_1_132 h (tails src))

/-- The 16-wide rows at the edges' tails summed into the edges' heads. -/
def ag16 (h : FVec Ideal ⟨2, ![100000, 16]⟩ .f32) (src dst : IVec SE 32) : FVec Ideal ⟨2, ![100000, 16]⟩ .f32 :=
  Host.scatterAdd (F := Ideal) scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 dst)
    (Host.gather gather_S100000x16_S3200000x1_S3200000x16_1_0_n_n_0_1_116 h (tails src))

end Cert.Gcn.K

end
-- ==== Proof.KChainA.lean ====
/-
  The idealized kernel's run passes through sixteen boundaries: before and after each stretch of host operations and
  each of the seven tiled regions. Two facts carry a buffer's contents from one boundary to the next: a region changes
  only its output array, and the first stretch of host operations leaves the arguments as launched and computes the
  four degree factors (of the two graphs' tail and head index arrays), each re-laid as one column.
-/
import proofs.«115691_j25890062860848_2_alg».proof.Proof.Gen.KernelIdeal.Frame
import proofs.«115691_j25890062860848_2_alg».proof.Proof.KDefs

import Idealize.ShloMosaic.Lib.StableHlo.Run

set_option maxRecDepth 16384

noncomputable section

namespace Cert.Gcn.K

open Cert.KernelIdeal Cert.KernelIdeal.Gen Idealize.ShloMosaic Idealize.ShloMosaic.TcCoe Idealize.ShloMosaic.StableHlo Idealize.SL.Sem
open Idealize.ShloMosaic.ValueIdx Cert.LibMatProd Cert.LibRowScale Cert.LibBiasRelu Cert.LibGcnLayout Cert.Gcn

variable (m : (ℓ : Loc nD τ sig) → Buf (Elt Ideal) ℓ) (ρ : Dev nD → PrngReg) (c : Dev nD)

/-! ## A region changes only its output array

Every buffer other than a region's output array holds after the region what it held before: an input array is read,
never written, and any other buffer is not touched. -/

theorem thru0 (b : Ref sig .tc) (hb : b ≠ main_v32) :
    W2 (F := Ideal) m ρ c (Proc.devRef .tc b) = W1 (F := Ideal) m ρ c (Proc.devRef .tc b) := by
  by_cases h : ∃ w, Pipeline.arrRef spec0 w = b
  · obtain ⟨w, rfl⟩ := h
    have hin : (cfg0.win w).isOut = false := by
      revert hb; revert w; decide
    exact (W2_arr m ρ c w).trans (((dat0 (V1 m ρ) c).arrAt_in w hin _).trans (A_eq0 (V1 m ρ) c w))
  · exact W2_of_ne m ρ c b (fun w e => h ⟨w, e⟩)

theorem thru1 (b : Ref sig .tc) (hb : b ≠ main_v49) :
    W5 (F := Ideal) m ρ c (Proc.devRef .tc b) = W4 (F := Ideal) m ρ c (Proc.devRef .tc b) := by
  by_cases h : ∃ w, Pipeline.arrRef spec1 w = b
  · obtain ⟨w, rfl⟩ := h
    have hin : (cfg1.win w).isOut = false := by
      revert hb; revert w; decide
    exact (W5_arr m ρ c w).trans (((dat1 (V4 m ρ) c).arrAt_in w hin _).trans (A_eq1 (V4 m ρ) c w))
  · exact W5_of_ne m ρ c b (fun w e => h ⟨w, e⟩)

theorem thru2 (b : Ref sig .tc) (hb : b ≠ main_v66) :
    W8 (F := Ideal) m ρ c (Proc.devRef .tc b) = W7 (F := Ideal) m ρ c (Proc.devRef .tc b) := by
  by_cases h : ∃ w, Pipeline.arrRef spec2 w = b
  · obtain ⟨w, rfl⟩ := h
    have hin : (cfg2.win w).isOut = false := by
      revert hb; revert w; decide
    exact (W8_arr m ρ c w).trans (((dat2 (V7 m ρ) c).arrAt_in w hin _).trans (A_eq2 (V7 m ρ) c w))
  · exact W8_of_ne m ρ c b (fun w e => h ⟨w, e⟩)

theorem thru3 (b : Ref sig .tc) (hb : b ≠ main_v82) :
    W10 (F := Ideal) m ρ c (Proc.devRef .tc b) = W9 (F := Ideal) m ρ c (Proc.devRef .tc b) := by
  by_cases h : ∃ w, Pipeline.arrRef spec3 w = b
  · obtain ⟨w, rfl⟩ := h
    have hin : (cfg3.win w).isOut = false := by
      revert hb; revert w; decide
    exact (W10_arr m ρ c w).trans (((dat3 (V9 m ρ) c).arrAt_in w hin _).trans (A_eq3 (V9 m ρ) c w))
  · exact W10_of_ne m ρ c b (fun w e => h ⟨w, e⟩)

theorem thru4 (b : Ref sig .tc) (hb : b ≠ main_v102) :
    W12 (F := Ideal) m ρ c (Proc.devRef .tc b) = W11 (F := Ideal) m ρ c (Proc.devRef .tc b) := by
  by_cases h : ∃ w, Pipeline.arrRef spec4 w = b
  · obtain ⟨w, rfl⟩ := h
    have hin : (cfg4.win w).isOut = false := by
      revert hb; revert w; decide
    exact (W12_arr m ρ c w).trans (((dat4 (V11 m ρ) c).arrAt_in w hin _).trans (A_eq4 (V11 m ρ) c w))
  · exact W12_of_ne m ρ c b (fun w e => h ⟨w, e⟩)

theorem thru5 (b : Ref sig .tc) (hb : b ≠ main_v103) :
    W13 (F := Ideal) m ρ c (Proc.devRef .tc b) = W12 (F := Ideal) m ρ c (Proc.devRef .tc b) := by
  by_cases h : ∃ w, Pipeline.arrRef spec5 w = b
  · obtain ⟨w, rfl⟩ := h
    have hin : (cfg5.win w).isOut = false := by
      revert hb; revert w; decide
    exact (W13_arr m ρ c w).trans (((dat5 (V12 m ρ) c).arrAt_in w hin _).trans (A_eq5 (V12 m ρ) c w))
  · exact W13_of_ne m ρ c b (fun w e => h ⟨w, e⟩)

theorem thru6 (b : Ref sig .tc) (hb : b ≠ main_v108) :
    W15 (F := Ideal) m ρ c (Proc.devRef .tc b) = W14 (F := Ideal) m ρ c (Proc.devRef .tc b) := by
  by_cases h : ∃ w, Pipeline.arrRef spec6 w = b
  · obtain ⟨w, rfl⟩ := h
    have hin : (cfg6.win w).isOut = false := by
      revert hb; revert w; decide
    exact (W15_arr m ρ c w).trans (((dat6 (V14 m ρ) c).arrAt_in w hin _).trans (A_eq6 (V14 m ρ) c w))
  · exact W15_of_ne m ρ c b (fun w e => h ⟨w, e⟩)

/-! ## Before the first region

The four degree factors, each re-laid as one column, and the arguments as launched. -/

/-- Unfolds the boundaries between host stretches and reads a stretch's fold at one buffer. -/
macro "hops" : tactic => `(tactic| (dsimp only [W1, W3, W4, W6, W7, W9, W11, W14, hostOps0, hostOps1, hostOps1_1, hostOps2, hostOps2_1, hostOps3, hostOps4, hostOps6]; after_results))

theorem w1_v7 : W1 (F := Ideal) m ρ c (Proc.devRef .tc main_v7) = col (K.nrm (m ((c : Thread nD τ).loc main_arg4))) := by
  hops
  exact cast_col (K.nrm (m ((c : Thread nD τ).loc main_arg4))) _

theorem w1_v15 : W1 (F := Ideal) m ρ c (Proc.devRef .tc main_v15) = col (K.nrm (m ((c : Thread nD τ).loc main_arg5))) := by
  hops
  exact cast_col (K.nrm (m ((c : Thread nD τ).loc main_arg5))) _

theorem w1_v23 : W1 (F := Ideal) m ρ c (Proc.devRef .tc main_v23) = col (K.nrm (m ((c : Thread nD τ).loc main_arg6))) := by
  hops
  exact cast_col (K.nrm (m ((c : Thread nD τ).loc main_arg6))) _

theorem w1_v31 : W1 (F := Ideal) m ρ c (Proc.devRef .tc main_v31) = col (K.nrm (m ((c : Thread nD τ).loc main_arg7))) := by
  hops
  exact cast_col (K.nrm (m ((c : Thread nD τ).loc main_arg7))) _

theorem w1_arg0 : W1 (F := Ideal) m ρ c (Proc.devRef .tc main_arg0) = m ((c : Thread nD τ).loc main_arg0) := by
  hops

theorem w1_arg1 : W1 (F := Ideal) m ρ c (Proc.devRef .tc main_arg1) = m ((c : Thread nD τ).loc main_arg1) := by
  hops

theorem w1_arg2 : W1 (F := Ideal) m ρ c (Proc.devRef .tc main_arg2) = m ((c : Thread nD τ).loc main_arg2) := by
  hops

theorem w1_arg3 : W1 (F := Ideal) m ρ c (Proc.devRef .tc main_arg3) = m ((c : Thread nD τ).loc main_arg3) := by
  hops

theorem w1_arg4 : W1 (F := Ideal) m ρ c (Proc.devRef .tc main_arg4) = m ((c : Thread nD τ).loc main_arg4) := by
  hops

theorem w1_arg5 : W1 (F := Ideal) m ρ c (Proc.devRef .tc main_arg5) = m ((c : Thread nD τ).loc main_arg5) := by
  hops

theorem w1_arg6 : W1 (F := Ideal) m ρ c (Proc.devRef .tc main_arg6) = m ((c : Thread nD τ).loc main_arg6) := by
  hops

theorem w1_arg7 : W1 (F := Ideal) m ρ c (Proc.devRef .tc main_arg7) = m ((c : Thread nD τ).loc main_arg7) := by
  hops

theorem w1_arg8 : W1 (F := Ideal) m ρ c (Proc.devRef .tc main_arg8) = m ((c : Thread nD τ).loc main_arg8) := by
  hops

theorem w1_arg9 : W1 (F := Ideal) m ρ c (Proc.devRef .tc main_arg9) = m ((c : Thread nD τ).loc main_arg9) := by
  hops

theorem w1_arg10 : W1 (F := Ideal) m ρ c (Proc.devRef .tc main_arg10) = m ((c : Thread nD τ).loc main_arg10) := by
  hops

theorem w1_arg11 : W1 (F := Ideal) m ρ c (Proc.devRef .tc main_arg11) = m ((c : Thread nD τ).loc main_arg11) := by
  hops

theorem w1_arg12 : W1 (F := Ideal) m ρ c (Proc.devRef .tc main_arg12) = m ((c : Thread nD τ).loc main_arg12) := by
  hops

theorem w1_arg13 : W1 (F := Ideal) m ρ c (Proc.devRef .tc main_arg13) = m ((c : Thread nD τ).loc main_arg13) := by
  hops

theorem w1_arg14 : W1 (F := Ideal) m ρ c (Proc.devRef .tc main_arg14) = m ((c : Thread nD τ).loc main_arg14) := by
  hops

theorem w1_arg15 : W1 (F := Ideal) m ρ c (Proc.devRef .tc main_arg15) = m ((c : Thread nD τ).loc main_arg15) := by
  hops

theorem w1_arg16 : W1 (F := Ideal) m ρ c (Proc.devRef .tc main_arg16) = m ((c : Thread nD τ).loc main_arg16) := by
  hops

theorem w1_arg17 : W1 (F := Ideal) m ρ c (Proc.devRef .tc main_arg17) = m ((c : Thread nD τ).loc main_arg17) := by
  hops

end Cert.Gcn.K

end
-- ==== Proof.LibWriteOnce.lean ====
/-
  A straight line of host operations in which every buffer is written at most once.

  When each operation of a list writes exactly one buffer, no buffer is written by two of them, and every operand of an
  operation is either never written or written earlier in the list, the fold of the operations' results over any starting
  contents is a fixed point at every written buffer: what the line leaves in an operation's result buffer is the operation's
  function of what the line leaves in its operands' buffers, and a buffer the line never writes holds what it held. Stated
  per kind of operation (no operand, one, two, n, three, four), with the side conditions `reference ∉ the buffers written from
  position k on`, which are decided on literal lists. This reads a long straight-line program one operation at a time, with
  no term ever holding the whole composition.
-/
import Idealize.ShloMosaic.Lib.StableHlo.Run

noncomputable section

/-! ## A straight line of operations in which every buffer is written at most once

Every operation of the reference's @main writes one buffer, no buffer is written twice, and every operand is written before
it is read. Then what the line leaves in an operation's result buffer is the operation's function of what the line leaves in
its operands' buffers, and a buffer the line never writes holds what it held. -/

namespace Cert.RefSSA

open Idealize.ShloMosaic Idealize.ShloMosaic.StableHlo

variable {τ : Topo} {sig : RefSig} {Val : EltTy → Type}

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Position by position, the operation writes exactly the listed reference. -/
abbrev Writes (l : List (HloOp τ sig Val)) (wl : List (Ref sig .tc)) : Prop :=
  List.Forall₂ (fun op r => op.writes = {Proc.devRef (τ := τ) .tc r}) l wl

theorem writes_mem {l : List (HloOp τ sig Val)} {wl : List (Ref sig .tc)} (h : Writes l wl) {op : HloOp τ sig Val} (hop : op ∈ l) :
    ∃ r ∈ wl, op.writes = {Proc.devRef (τ := τ) .tc r} := by
  induction h with
  | nil => cases hop
  | @cons o r l' wl' hw _ ih =>
    rcases List.mem_cons.mp hop with rfl | hop
    · exact ⟨r, List.mem_cons.mpr (Or.inl rfl), hw⟩
    · obtain ⟨r', hr', e⟩ := ih hop
      exact ⟨r', List.mem_cons.mpr (Or.inr hr'), e⟩

/-- A reference that is not listed keeps its contents. -/
theorem after_keep {l : List (HloOp τ sig Val)} {wl : List (Ref sig .tc)} (h : Writes l wl) {r : Ref sig .tc} (hr : r ∉ wl)
    (V : Valuation τ sig Val) : after l V (Proc.devRef .tc r) = V (Proc.devRef .tc r) := by
  refine after_of_forall_not_mem l V fun op hop hb => ?_
  obtain ⟨r', hr', e⟩ := writes_mem h hop
  rw [e, Finset.mem_singleton] at hb
  exact hr (by rw [Proc.devRef_injective _ hb]; exact hr')

theorem after_take_drop (l : List (HloOp τ sig Val)) (k : ℕ) (V : Valuation τ sig Val) :
    after l V = after (l.drop k) (after (l.take k) V) := by
  rw [← after_app, List.take_append_drop]

theorem after_at {l : List (HloOp τ sig Val)} {k : ℕ} {op : HloOp τ sig Val} (hop : l[k]? = some op) (V : Valuation τ sig Val) :
    after l V = after (l.drop (k + 1)) (op.result (after (l.take k) V)) := by
  obtain ⟨hk, e⟩ := List.getElem?_eq_some_iff.mp hop
  rw [after_take_drop l k V, List.drop_eq_getElem_cons hk, e, after_cons]

section
variable {l : List (HloOp τ sig Val)} {wl : List (Ref sig .tc)} (h : Writes l wl) (V : Valuation τ sig Val) (k : ℕ)
include h

/-- An operand not written from position k on holds, at the end, what it held before position k. -/
theorem operand_eq {a : Ref sig .tc} (ha : a ∉ wl.drop k) :
    after l V (Proc.devRef .tc a) = after (l.take k) V (Proc.devRef .tc a) := by
  rw [after_take_drop l k V]
  exact after_keep (List.forall₂_drop k h) ha _

/-- The result of the operation at position k, not written afterwards, holds at the end what that operation left. -/
theorem result_eq {op : HloOp τ sig Val} (hop : l[k]? = some op) {y : Ref sig .tc} (hy : y ∉ wl.drop (k + 1)) :
    after l V (Proc.devRef .tc y) = op.result (after (l.take k) V) (Proc.devRef .tc y) := by
  rw [after_at hop V]
  exact after_keep (List.forall₂_drop (k + 1) h) hy _

theorem ssa_nullary {y : Ref sig .tc} {v : y.ty.Contents Val} {hy}
    (hop : l[k]? = some (nullary y v hy)) (hy' : y ∉ wl.drop (k + 1)) :
    after l V (Proc.devRef .tc y) = v := by
  rw [result_eq h V k hop hy', nullary_result]

theorem ssa_unary {x y : Ref sig .tc} {f : x.ty.Contents Val → y.ty.Contents Val} {hx hy}
    (hop : l[k]? = some (unary x y f hx hy)) (hy' : y ∉ wl.drop (k + 1)) (hx' : x ∉ wl.drop k)
    (vx : x.ty.Contents Val) (ex : after l V (Proc.devRef .tc x) = vx) :
    after l V (Proc.devRef .tc y) = f vx := by
  rw [result_eq h V k hop hy', unary_result, ← operand_eq h V k hx', ex]

theorem ssa_binary {a b y : Ref sig .tc} {f : a.ty.Contents Val → b.ty.Contents Val → y.ty.Contents Val} {ha hb hy}
    (hop : l[k]? = some (binary a b y f ha hb hy)) (hy' : y ∉ wl.drop (k + 1)) (ha' : a ∉ wl.drop k) (hb' : b ∉ wl.drop k)
    (va : a.ty.Contents Val) (vb : b.ty.Contents Val)
    (ea : after l V (Proc.devRef .tc a) = va) (eb : after l V (Proc.devRef .tc b) = vb) :
    after l V (Proc.devRef .tc y) = f va vb := by
  rw [result_eq h V k hop hy', binary_result, ← operand_eq h V k ha', ← operand_eq h V k hb', ea, eb]

theorem ssa_nary {n : ℕ} {xs : Fin n → Ref sig .tc} {y : Ref sig .tc}
    {f : ((i : Fin n) → (xs i).ty.Contents Val) → y.ty.Contents Val} {hxs hy}
    (hop : l[k]? = some (nary xs y f hxs hy)) (hy' : y ∉ wl.drop (k + 1)) (hx' : ∀ i, xs i ∉ wl.drop k)
    (vs : (i : Fin n) → (xs i).ty.Contents Val) (es : ∀ i, after l V (Proc.devRef .tc (xs i)) = vs i) :
    after l V (Proc.devRef .tc y) = f vs := by
  rw [result_eq h V k hop hy', nary_result]
  exact congrArg f (funext fun i => by rw [← operand_eq h V k (hx' i), es i])

theorem ssa_nary4 {x0 x1 x2 x3 y : Ref sig .tc}
    {f : ((i : Fin 4) → ((![x0, x1, x2, x3] : Fin 4 → Ref sig .tc) i).ty.Contents Val) → y.ty.Contents Val} {hxs hy}
    (hop : l[k]? = some (nary ![x0, x1, x2, x3] y f hxs hy)) (hy' : y ∉ wl.drop (k + 1))
    (h0 : x0 ∉ wl.drop k) (h1 : x1 ∉ wl.drop k) (h2 : x2 ∉ wl.drop k) (h3 : x3 ∉ wl.drop k)
    (v0 : x0.ty.Contents Val) (v1 : x1.ty.Contents Val) (v2 : x2.ty.Contents Val) (v3 : x3.ty.Contents Val)
    (e0 : after l V (Proc.devRef .tc x0) = v0) (e1 : after l V (Proc.devRef .tc x1) = v1)
    (e2 : after l V (Proc.devRef .tc x2) = v2) (e3 : after l V (Proc.devRef .tc x3) = v3) :
    after l V (Proc.devRef .tc y) = f (Fin.cons v0 (Fin.cons v1 (Fin.cons v2 (Fin.cons v3 (fun i => i.elim0))))) :=
  ssa_nary h V k hop hy' (fun i => by fin_cases i; exacts [h0, h1, h2, h3]) _ (fun i => by fin_cases i; exacts [e0, e1, e2, e3])

theorem ssa_nary3 {x0 x1 x2 y : Ref sig .tc}
    {f : ((i : Fin 3) → ((![x0, x1, x2] : Fin 3 → Ref sig .tc) i).ty.Contents Val) → y.ty.Contents Val} {hxs hy}
    (hop : l[k]? = some (nary ![x0, x1, x2] y f hxs hy)) (hy' : y ∉ wl.drop (k + 1))
    (h0 : x0 ∉ wl.drop k) (h1 : x1 ∉ wl.drop k) (h2 : x2 ∉ wl.drop k)
    (v0 : x0.ty.Contents Val) (v1 : x1.ty.Contents Val) (v2 : x2.ty.Contents Val)
    (e0 : after l V (Proc.devRef .tc x0) = v0) (e1 : after l V (Proc.devRef .tc x1) = v1)
    (e2 : after l V (Proc.devRef .tc x2) = v2) :
    after l V (Proc.devRef .tc y) = f (Fin.cons v0 (Fin.cons v1 (Fin.cons v2 (fun i => i.elim0)))) :=
  ssa_nary h V k hop hy' (fun i => by fin_cases i; exacts [h0, h1, h2]) _ (fun i => by fin_cases i; exacts [e0, e1, e2])

end

end Cert.RefSSA

end
-- ==== Proof.KKeep.lean ====
/-
  Which buffers each stretch of host operations of the idealized kernel's program writes: one per operation. A buffer
  that is not on a stretch's list holds after the stretch what it held before.
-/
import proofs.«115691_j25890062860848_2_alg».proof.Proof.Gen.KernelIdeal.Frame
import proofs.«115691_j25890062860848_2_alg».proof.Proof.LibWriteOnce

set_option maxRecDepth 16384

noncomputable section

namespace Cert.Gcn.K

open Cert.KernelIdeal Cert.KernelIdeal.Gen Idealize.ShloMosaic Idealize.ShloMosaic.TcCoe Idealize.ShloMosaic.StableHlo Idealize.SL.Sem Cert.RefSSA

variable {F : FTy → Type} [FloatOps F]
variable (m : (ℓ : Loc nD τ sig) → Buf (Elt F) ℓ) (ρ : Dev nD → PrngReg) (c : Dev nD)

/-! ## A host stretch changes only the buffers it writes

Each stretch of host operations between two regions writes a fixed list of buffers, one per operation; every other
buffer holds after the stretch what it held before. -/

/-- The buffers the stretch writes, in order. -/
abbrev wl0 : List (Ref sig .tc) := [main_cst, main_v0, main_cst_0, main_v1, main_v2, main_v3, main_cst_1, main_v4, main_v5, main_v6, main_v7, main_cst_2, main_v8, main_cst_3, main_v9, main_v10, main_v11, main_cst_4, main_v12, main_v13, main_v14, main_v15, main_cst_5, main_v16, main_cst_6, main_v17, main_v18, main_v19, main_cst_7, main_v20, main_v21, main_v22, main_v23, main_cst_8, main_v24, main_cst_9, main_v25, main_v26, main_v27, main_cst_10, main_v28, main_v29, main_v30, main_v31]

theorem writes0 : Writes (τ := τ) (hostOps0 (F := F)) wl0 := by
  unfold hostOps0 wl0
  repeat (first | exact List.Forall₂.nil | refine List.Forall₂.cons rfl ?_)

theorem keep0 (b : Ref sig .tc) (hb : b ∉ wl0) :
    W1 (F := F) m ρ c (Proc.devRef .tc b) = W0 (F := F) m ρ c (Proc.devRef .tc b) :=
  after_keep (writes0) hb _

/-- The buffers the stretch writes, in order. -/
abbrev wl1 : List (Ref sig .tc) := [main_c, main_v33, main_v34, main_c_11, main_v35, main_v36, main_v37, main_v38, main_v39, main_cst_12, main_v40, main_v41, main_v42, main_v43, main_v44, main_v45, main_v46, main_v47]

theorem writes1 : Writes (τ := τ) (hostOps1 (F := F)) wl1 := by
  unfold hostOps1 wl1
  repeat (first | exact List.Forall₂.nil | refine List.Forall₂.cons rfl ?_)

theorem keep1 (b : Ref sig .tc) (hb : b ∉ wl1) :
    W3 (F := F) m ρ c (Proc.devRef .tc b) = W2 (F := F) m ρ c (Proc.devRef .tc b) :=
  after_keep (writes1) hb _

/-- The buffers the stretch writes, in order. -/
abbrev wl1_1 : List (Ref sig .tc) := [main_call0_cst, main_call0_v0, main_v48]

theorem writes1_1 : Writes (τ := τ) (hostOps1_1 (F := F)) wl1_1 := by
  unfold hostOps1_1 wl1_1
  repeat (first | exact List.Forall₂.nil | refine List.Forall₂.cons rfl ?_)

theorem keep1_1 (b : Ref sig .tc) (hb : b ∉ wl1_1) :
    W4 (F := F) m ρ c (Proc.devRef .tc b) = W3 (F := F) m ρ c (Proc.devRef .tc b) :=
  after_keep (writes1_1) hb _

/-- The buffers the stretch writes, in order. -/
abbrev wl2 : List (Ref sig .tc) := [main_c_13, main_v50, main_v51, main_c_14, main_v52, main_v53, main_v54, main_v55, main_v56, main_cst_15, main_v57, main_v58, main_v59, main_v60, main_v61, main_v62, main_v63, main_v64]

theorem writes2 : Writes (τ := τ) (hostOps2 (F := F)) wl2 := by
  unfold hostOps2 wl2
  repeat (first | exact List.Forall₂.nil | refine List.Forall₂.cons rfl ?_)

theorem keep2 (b : Ref sig .tc) (hb : b ∉ wl2) :
    W6 (F := F) m ρ c (Proc.devRef .tc b) = W5 (F := F) m ρ c (Proc.devRef .tc b) :=
  after_keep (writes2) hb _

/-- The buffers the stretch writes, in order. -/
abbrev wl2_1 : List (Ref sig .tc) := [main_call1_cst, main_call1_v0, main_v65]

theorem writes2_1 : Writes (τ := τ) (hostOps2_1 (F := F)) wl2_1 := by
  unfold hostOps2_1 wl2_1
  repeat (first | exact List.Forall₂.nil | refine List.Forall₂.cons rfl ?_)

theorem keep2_1 (b : Ref sig .tc) (hb : b ∉ wl2_1) :
    W7 (F := F) m ρ c (Proc.devRef .tc b) = W6 (F := F) m ρ c (Proc.devRef .tc b) :=
  after_keep (writes2_1) hb _

/-- The buffers the stretch writes, in order. -/
abbrev wl3 : List (Ref sig .tc) := [main_c_16, main_v67, main_v68, main_c_17, main_v69, main_v70, main_v71, main_v72, main_v73, main_cst_18, main_v74, main_v75, main_v76, main_v77, main_v78, main_v79, main_v80, main_v81]

theorem writes3 : Writes (τ := τ) (hostOps3 (F := F)) wl3 := by
  unfold hostOps3 wl3
  repeat (first | exact List.Forall₂.nil | refine List.Forall₂.cons rfl ?_)

theorem keep3 (b : Ref sig .tc) (hb : b ∉ wl3) :
    W9 (F := F) m ρ c (Proc.devRef .tc b) = W8 (F := F) m ρ c (Proc.devRef .tc b) :=
  after_keep (writes3) hb _

/-- The buffers the stretch writes, in order. -/
abbrev wl4 : List (Ref sig .tc) := [main_c_19, main_v83, main_v84, main_c_20, main_v85, main_v86, main_v87, main_v88, main_v89, main_cst_21, main_v90, main_v91, main_v92, main_v93, main_v94, main_v95, main_v96, main_v97, main_v98, main_v99, main_v100, main_v101]

theorem writes4 : Writes (τ := τ) (hostOps4 (F := F)) wl4 := by
  unfold hostOps4 wl4
  repeat (first | exact List.Forall₂.nil | refine List.Forall₂.cons rfl ?_)

theorem keep4 (b : Ref sig .tc) (hb : b ∉ wl4) :
    W11 (F := F) m ρ c (Proc.devRef .tc b) = W10 (F := F) m ρ c (Proc.devRef .tc b) :=
  after_keep (writes4) hb _

/-- The buffers the stretch writes, in order. -/
abbrev wl6 : List (Ref sig .tc) := [main_v104, main_v105, main_v106, main_v107]

theorem writes6 : Writes (τ := τ) (hostOps6 (F := F)) wl6 := by
  unfold hostOps6 wl6
  repeat (first | exact List.Forall₂.nil | refine List.Forall₂.cons rfl ?_)

theorem keep6 (b : Ref sig .tc) (hb : b ∉ wl6) :
    W14 (F := F) m ρ c (Proc.devRef .tc b) = W13 (F := F) m ρ c (Proc.devRef .tc b) :=
  after_keep (writes6) hb _

end Cert.Gcn.K

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.KRegions03.lean ====
/-
  The first four regions of the idealized kernel, each as one function of whole arrays. Each is a row-tiled
  computation: grid point t takes rows 5000 t, …, 5000 t + 4999 of a feature matrix and of a one-column matrix of
  scale factors, and the whole weight matrix, and writes the same rows of the result: the features scaled row by row,
  times the weights. Since a band of rows of that product is the product of the band, and the twenty bands cover the
  hundred thousand rows, the result array after the region is the product of the whole scaled matrix with the weights.
-/
import proofs.«115691_j25890062860848_2_alg».proof.Proof.Gen.KernelIdeal.Frame
import proofs.«115691_j25890062860848_2_alg».proof.Proof.GcnSpec
import Idealize.ShloMosaic.Lib.Pipeline.Value

set_option maxRecDepth 16384

noncomputable section

namespace Cert.Gcn.K

open Cert.KernelIdeal Cert.KernelIdeal.Gen Idealize.ShloMosaic Idealize.ShloMosaic.TcCoe Idealize.ShloMosaic.ValueIdx Cert.LibMatProd Cert.LibRowScale Cert.LibBiasRelu Cert.LibGcnLayout
open Idealize.ShloMosaic.Pipeline (Dat)

variable (V : (c : Dev nD) → (b : Ref sig .tc) → Buf (Elt Ideal) ((c : Thread nD τ).loc b))

/-- The zero offsets of a body's whole-buffer accesses, as a constant function. -/
theorem zero_off : (![0, 0] : Fin 2 → Nat) = fun _ => 0 := funext fun a => by fin_cases a <;> rfl

/-- The vector unit's product of x with the one-column s (through an identity re-lay) repeated along the rows is x
    scaled row by row. -/
theorem scale_eq {M N : ℕ} (x : FVec Ideal ⟨2, ![M, N]⟩ .f32) (s : FVec Ideal ⟨2, ![M, 1]⟩ .f32)
    (h2 : (⟨2, ![M, 1]⟩ : Shape).ShapeCasts ⟨2, ![M, 1]⟩) (hb : (⟨2, ![M, 1]⟩ : Shape).Broadcasts ⟨2, ![M, N]⟩) :
    mulf x (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, mulf_apply, broadcastTo_col_apply, rowScale_apply]

/-- Rows r, …, r + T − 1 of a row-scaled matrix times weights: when x0 holds those rows of A, x1 those rows of the
    one-column S, and x2 is W, the entry at y of (x0 scaled by x1) times x2 is the entry of (A scaled by S) times W at
    the index whose row is r plus y's row and whose column is y's. -/
theorem scaled_product_rows {M K N T : ℕ} (A : FVec Ideal ⟨2, ![M, K]⟩ .f32) (S : FVec Ideal ⟨2, ![M, 1]⟩ .f32)
    (W : FVec Ideal ⟨2, ![K, N]⟩ .f32) (x0 : FVec Ideal ⟨2, ![T, K]⟩ .f32) (x1 : FVec Ideal ⟨2, ![T, 1]⟩ .f32)
    (x2 : FVec Ideal ⟨2, ![K, N]⟩ .f32) (r : ℕ)
    (h0 : ∀ (p : Fin T) (k : Fin K) (hp : r + p.val < M), x0 (ix2 p k) = A (ix2 ⟨r + p.val, hp⟩ k))
    (h1 : ∀ (p : Fin T) (hp : r + p.val < M), x1 (ix2 p (0 : Fin 1)) = S (ix2 ⟨r + p.val, hp⟩ (0 : Fin 1)))
    (h2 : ∀ z, x2 z = W z)
    (y : (⟨2, ![T, N]⟩ : Shape).Idx) (i : (⟨2, ![M, N]⟩ : Shape).Idx)
    (hi0 : (i 0).val = r + (y 0).val) (hi1 : (i 1).val = (y 1).val) :
    matProd (rowScale x0 x1) x2 y = matProd (rowScale A S) W i :=
  matProd_rows (rowScale A S) W (rowScale x0 x1) x2 r
    (fun p k hp => rowScale_rows A S x0 x1 r h0 h1 (ix2 p k) (ix2 ⟨r + p.val, hp⟩ k) rfl rfl) h2 y i hi0 hi1

/-! ## Region 0: the first graph's features scaled by its out-degree column, times the first layer's weights -/

/-- The body's stored value: its first block scaled row by row by its second, times its third. -/
theorem pay0_eq (x0 : FVec Ideal ⟨2, ![5000, 64]⟩ .f32) (x1 : FVec Ideal ⟨2, ![5000, 1]⟩ .f32)
    (x2 : FVec Ideal ⟨2, ![64, 32]⟩ .f32) : k0_pay1 (F := Ideal) x0 x1 x2 = matProd (rowScale x0 x1) x2 := by
  unfold k0_pay1
  dsimp only
  rw [scale_eq]
  exact matmul_eq _ rfl rfl rfl rfl rfl rfl _ _ _

/-- The printed index maps over the grid: point t's blocks of the first, second and last windows are block row t, the
    third window's block is the whole weight matrix. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point t is rows 5000 t, …, 5000 t + 4999 of its array. -/
theorem blk0_0 (c : Dev nD) (t : Fin cfg0.N) (p : Fin 5000) (k : Fin 64) (hp : 5000 * t.val + p.val < 100000) :
    (iblk0 V c 0 t : FVec Ideal ⟨2, ![5000, 64]⟩ .f32) (ix2 p k)
      = (V c main_arg0 : S100000x64.Idx → EReal) (ix2 ⟨5000 * t.val + p.val, hp⟩ k) := by
  obtain ⟨e0, e1, -⟩ := idx_facts0 t
  unfold iblk0
  rw [View.read_apply]
  show (V c main_arg0 : S100000x64.Idx → EReal) _ = _
  refine congrArg (V c main_arg0 : S100000x64.Idx → EReal) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- The second window's block at point t is rows 5000 t, …, 5000 t + 4999 of its one-column array. -/
theorem blk0_1 (c : Dev nD) (t : Fin cfg0.N) (p : Fin 5000) (hp : 5000 * t.val + p.val < 100000) :
    (iblk0 V c 1 t : FVec Ideal ⟨2, ![5000, 1]⟩ .f32) (ix2 p (0 : Fin 1))
      = (V c main_v7 : S100000x1.Idx → EReal) (ix2 ⟨5000 * t.val + p.val, hp⟩ (0 : Fin 1)) := by
  obtain ⟨-, -, e0, e1, -⟩ := idx_facts0 t
  unfold iblk0
  rw [View.read_apply]
  show (V c main_v7 : S100000x1.Idx → EReal) _ = _
  refine congrArg (V c main_v7 : S100000x1.Idx → EReal) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 1 + 1 * (0 : Fin 1).val = (0 : Fin 1).val; rw [e1]; rfl

/-- The third window's block at every point is its whole array. -/
theorem blk0_2 (c : Dev nD) (t : Fin cfg0.N) (z : S64x32.Idx) :
    (iblk0 V c 2 t : FVec Ideal ⟨2, ![64, 32]⟩ .f32) z = (V c main_arg8 : S64x32.Idx → EReal) z := by
  obtain ⟨-, -, -, -, e0, e1, -⟩ := idx_facts0 t
  unfold iblk0
  rw [View.read_apply]
  show (V c main_arg8 : S64x32.Idx → EReal) _ = _
  refine congrArg (V c main_arg8 : S64x32.Idx → EReal) (funext fun a => Fin.ext ?_)
  match a with
  | ⟨0, _⟩ => show win0_2.index t (0 : Fin 2) * 64 + 1 * (z 0).val = (z 0).val; rw [e0]; omega
  | ⟨1, _⟩ => show win0_2.index t (1 : Fin 2) * 32 + 1 * (z 1).val = (z 1).val; rw [e1]; omega

/-- What point t writes back is block t of the product of the scaled features with the weights. -/
theorem flushed0_eq (c : Dev nD) (t : Fin cfg0.N) :
    (dat0 (F := Ideal) V c).flushed 3 t = ((cfg0.win 3).blk t).view.read (Elt Ideal)
      (matProd (rowScale (V c main_arg0 : S100000x64.Idx → EReal) (V c main_v7 : S100000x1.Idx → EReal))
        (V c main_arg8 : S64x32.Idx → EReal)) := by
  show (cfg0.win 3).cut (grid0.coords t) ((dat0 (F := Ideal) V c).after 3 t) = _
  rw [after0_3]
  unfold out0_3
  rw [View.canon_unit_zero zero_off]
  simp only [View.ld_unit_zero (S := S5000x64) zero_off, View.ld_unit_zero (S := S5000x1) zero_off,
    View.ld_unit_zero (S := S64x32) zero_off]
  rw [pay0_eq]
  obtain ⟨-, -, -, -, -, -, e0, e1⟩ := idx_facts0 t
  have ht : t.val < 20 := t.isLt
  funext y
  rw [View.read_apply]
  have hy0 : (y 0).val < 5000 := (y 0).isLt
  refine scaled_product_rows (V c main_arg0 : S100000x64.Idx → EReal) (V c main_v7 : S100000x1.Idx → EReal)
    (V c main_arg8 : S64x32.Idx → EReal) (iblk0 V c 0 t) (iblk0 V c 1 t) (iblk0 V c 2 t) (5000 * t.val)
    (fun p k hp => blk0_0 V c t p k hp) (fun p hp => blk0_1 V c t p hp) (fun z => blk0_2 V c t z) _ _ ?_ ?_
  · show win0_3.index t (0 : Fin 2) * 5000 + 1 * (y 0).val = 5000 * t.val + (y 0).val; rw [e0]; omega
  · show win0_3.index t (1 : Fin 2) * 32 + 1 * (y 1).val = (y 1).val; rw [e1]; omega

/-- Every row lies in the block of the point that is the row's quotient by 5000. -/
theorem cover0 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, -, -, e0, e1⟩ := idx_facts0 t
  refine ⟨t, flush0_3 t, ?_⟩
  show i ∈ ((View.whole main_v32).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 32 ≤ (i 1).val ∧ (i 1).val < win0_3.index t (1 : Fin 2) * 32 + 32
    rw [e1]; omega

/-- After the region its result array is the product of the scaled features with the weights. -/
theorem final0 (c : Dev nD) : (dat0 (F := Ideal) V c).arrAt 3 cfg0.N
    = matProd (rowScale (V c main_arg0 : S100000x64.Idx → EReal) (V c main_v7 : S100000x1.Idx → EReal))
        (V c main_arg8 : S64x32.Idx → EReal) :=
  (dat0 (F := Ideal) V c).arrAt_eq_of_cover 3 _ (fun t _ => flushed0_eq V c t) cover0

/-! ## Region 1: the second graph's features scaled by its out-degree column, times the first layer's weights -/

/-- The body's stored value: its first block scaled row by row by its second, times its third. -/
theorem pay1_eq (x0 : FVec Ideal ⟨2, ![5000, 64]⟩ .f32) (x1 : FVec Ideal ⟨2, ![5000, 1]⟩ .f32)
    (x2 : FVec Ideal ⟨2, ![64, 32]⟩ .f32) : k1_pay1 (F := Ideal) x0 x1 x2 = matProd (rowScale x0 x1) x2 := by
  unfold k1_pay1
  dsimp only
  rw [scale_eq]
  exact matmul_eq _ rfl rfl rfl rfl rfl rfl _ _ _

/-- The printed index maps over the grid: point t's blocks of the first, second and last windows are block row t, the
    third window's block is the whole weight matrix. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at point t is rows 5000 t, …, 5000 t + 4999 of its array. -/
theorem blk1_0 (c : Dev nD) (t : Fin cfg1.N) (p : Fin 5000) (k : Fin 64) (hp : 5000 * t.val + p.val < 100000) :
    (iblk1 V c 0 t : FVec Ideal ⟨2, ![5000, 64]⟩ .f32) (ix2 p k)
      = (V c main_arg1 : S100000x64.Idx → EReal) (ix2 ⟨5000 * t.val + p.val, hp⟩ k) := by
  obtain ⟨e0, e1, -⟩ := idx_facts1 t
  unfold iblk1
  rw [View.read_apply]
  show (V c main_arg1 : S100000x64.Idx → EReal) _ = _
  refine congrArg (V c main_arg1 : S100000x64.Idx → EReal) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- The second window's block at point t is rows 5000 t, …, 5000 t + 4999 of its one-column array. -/
theorem blk1_1 (c : Dev nD) (t : Fin cfg1.N) (p : Fin 5000) (hp : 5000 * t.val + p.val < 100000) :
    (iblk1 V c 1 t : FVec Ideal ⟨2, ![5000, 1]⟩ .f32) (ix2 p (0 : Fin 1))
      = (V c main_v23 : S100000x1.Idx → EReal) (ix2 ⟨5000 * t.val + p.val, hp⟩ (0 : Fin 1)) := by
  obtain ⟨-, -, e0, e1, -⟩ := idx_facts1 t
  unfold iblk1
  rw [View.read_apply]
  show (V c main_v23 : S100000x1.Idx → EReal) _ = _
  refine congrArg (V c main_v23 : S100000x1.Idx → EReal) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 1 + 1 * (0 : Fin 1).val = (0 : Fin 1).val; rw [e1]; rfl

/-- The third window's block at every point is its whole array. -/
theorem blk1_2 (c : Dev nD) (t : Fin cfg1.N) (z : S64x32.Idx) :
    (iblk1 V c 2 t : FVec Ideal ⟨2, ![64, 32]⟩ .f32) z = (V c main_arg8 : S64x32.Idx → EReal) z := by
  obtain ⟨-, -, -, -, e0, e1, -⟩ := idx_facts1 t
  unfold iblk1
  rw [View.read_apply]
  show (V c main_arg8 : S64x32.Idx → EReal) _ = _
  refine congrArg (V c main_arg8 : S64x32.Idx → EReal) (funext fun a => Fin.ext ?_)
  match a with
  | ⟨0, _⟩ => show win1_2.index t (0 : Fin 2) * 64 + 1 * (z 0).val = (z 0).val; rw [e0]; omega
  | ⟨1, _⟩ => show win1_2.index t (1 : Fin 2) * 32 + 1 * (z 1).val = (z 1).val; rw [e1]; omega

/-- What point t writes back is block t of the product of the scaled features with the weights. -/
theorem flushed1_eq (c : Dev nD) (t : Fin cfg1.N) :
    (dat1 (F := Ideal) V c).flushed 3 t = ((cfg1.win 3).blk t).view.read (Elt Ideal)
      (matProd (rowScale (V c main_arg1 : S100000x64.Idx → EReal) (V c main_v23 : S100000x1.Idx → EReal))
        (V c main_arg8 : S64x32.Idx → EReal)) := by
  show (cfg1.win 3).cut (grid1.coords t) ((dat1 (F := Ideal) V c).after 3 t) = _
  rw [after1_3]
  unfold out1_3
  rw [View.canon_unit_zero zero_off]
  simp only [View.ld_unit_zero (S := S5000x64) zero_off, View.ld_unit_zero (S := S5000x1) zero_off,
    View.ld_unit_zero (S := S64x32) zero_off]
  rw [pay1_eq]
  obtain ⟨-, -, -, -, -, -, e0, e1⟩ := idx_facts1 t
  have ht : t.val < 20 := t.isLt
  funext y
  rw [View.read_apply]
  have hy0 : (y 0).val < 5000 := (y 0).isLt
  refine scaled_product_rows (V c main_arg1 : S100000x64.Idx → EReal) (V c main_v23 : S100000x1.Idx → EReal)
    (V c main_arg8 : S64x32.Idx → EReal) (iblk1 V c 0 t) (iblk1 V c 1 t) (iblk1 V c 2 t) (5000 * t.val)
    (fun p k hp => blk1_0 V c t p k hp) (fun p hp => blk1_1 V c t p hp) (fun z => blk1_2 V c t z) _ _ ?_ ?_
  · show win1_3.index t (0 : Fin 2) * 5000 + 1 * (y 0).val = 5000 * t.val + (y 0).val; rw [e0]; omega
  · show win1_3.index t (1 : Fin 2) * 32 + 1 * (y 1).val = (y 1).val; rw [e1]; omega

/-- Every row lies in the block of the point that is the row's quotient by 5000. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ : ∃ t : Fin cfg1.N, t.val = (i 0).val / 5000 :=
    ⟨⟨(i 0).val / 5000, by show (i 0).val / 5000 < 20; omega⟩, rfl⟩
  obtain ⟨-, -, -, -, -, -, e0, e1⟩ := idx_facts1 t
  refine ⟨t, flush1_3 t, ?_⟩
  show i ∈ ((View.whole main_v49).slice (win1_3.rect t)).set
  rw [View.set_slice_whole, Rect.mem_set_unit]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 32 ≤ (i 1).val ∧ (i 1).val < win1_3.index t (1 : Fin 2) * 32 + 32
    rw [e1]; omega

/-- After the region its result array is the product of the scaled features with the weights. -/
theorem final1 (c : Dev nD) : (dat1 (F := Ideal) V c).arrAt 3 cfg1.N
    = matProd (rowScale (V c main_arg1 : S100000x64.Idx → EReal) (V c main_v23 : S100000x1.Idx → EReal))
        (V c main_arg8 : S64x32.Idx → EReal) :=
  (dat1 (F := Ideal) V c).arrAt_eq_of_cover 3 _ (fun t _ => flushed1_eq V c t) cover1

/-! ## Region 2: the first graph's hidden features scaled by its out-degree column, times the second layer's weights -/

/-- The body's stored value: its first block scaled row by row by its second, times its third. -/
theorem pay2_eq (x0 : FVec Ideal ⟨2, ![5000, 32]⟩ .f32) (x1 : FVec Ideal ⟨2, ![5000, 1]⟩ .f32)
    (x2 : FVec Ideal ⟨2, ![32, 16]⟩ .f32) : k2_pay1 (F := Ideal) x0 x1 x2 = matProd (rowScale x0 x1) x2 := by
  unfold k2_pay1
  dsimp only
  rw [mul_broadcastTo_eq]
  exact matmul_eq _ rfl rfl rfl rfl rfl rfl _ _ _

/-- The printed index maps over the grid: point t's blocks of the first, second and last windows are block row t, the
    third window's block is the whole weight matrix. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first window's block at point t is rows 5000 t, …, 5000 t + 4999 of its array. -/
theorem blk2_0 (c : Dev nD) (t : Fin cfg2.N) (p : Fin 5000) (k : Fin 32) (hp : 5000 * t.val + p.val < 100000) :
    (iblk2 V c 0 t : FVec Ideal ⟨2, ![5000, 32]⟩ .f32) (ix2 p k)
      = (V c main_v48 : S100000x32.Idx → EReal) (ix2 ⟨5000 * t.val + p.val, hp⟩ k) := by
  obtain ⟨e0, e1, -⟩ := idx_facts2 t
  unfold iblk2
  rw [View.read_apply]
  show (V c main_v48 : S100000x32.Idx → EReal) _ = _
  refine congrArg (V c main_v48 : S100000x32.Idx → EReal) (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 32 + 1 * k.val = k.val; rw [e1]; omega

/-- The second window's block at point t is rows 5000 t, …, 5000 t + 4999 of its one-column array. -/
theorem blk2_1 (c : Dev nD) (t : Fin cfg2.N) (p : Fin 5000) (hp : 5000 * t.val + p.val < 100000) :
    (iblk2 V c 1 t : FVec Ideal ⟨2, ![5000, 1]⟩ .f32) (ix2 p (0 : Fin 1))
      = (V c main_v7 : S100000x1.Idx → EReal) (ix2 ⟨5000 * t.val + p.val, hp⟩ (0 : Fin 1)) := by
  obtain ⟨-, -, e0, e1, -⟩ := idx_facts2 t
  unfold iblk2
  rw [View.read_apply]
  show (V c main_v7 : S100000x1.Idx → EReal) _ = _
  refine congrArg (V c main_v7 : S100000x1.Idx → EReal) (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 1 + 1 * (0 : Fin 1).val = (0 : Fin 1).val; rw [e1]; rfl

/-- The third window's block at every point is its whole array. -/
theorem blk2_2 (c : Dev nD) (t : Fin cfg2.N) (z : S32x16.Idx) :
    (iblk2 V c 2 t : FVec Ideal ⟨2, ![32, 16]⟩ .f32) z = (V c main_arg10 : S32x16.Idx → EReal) z := by
  obtain ⟨-, -, -, -, e0, e1, -⟩ := idx_facts2 t
  unfold iblk2
  rw [View.read_apply]
  show (V c main_arg10 : S32x16.Idx → EReal) _ = _
  refine congrArg (V c main_arg10 : S32x16.Idx → EReal) (funext fun a => Fin.ext ?_)
  match a with
  | ⟨0, _⟩ => show win2_2.index t (0 : Fin 2) * 32 + 1 * (z 0).val = (z 0).val; rw [e0]; omega
  | ⟨1, _⟩ => show win2_2.index t (1 : Fin 2) * 16 + 1 * (z 1).val = (z 1).val; rw [e1]; omega

/-- What point t writes back is block t of the product of the scaled features with the weights. -/
theorem flushed2_eq (c : Dev nD) (t : Fin cfg2.N) :
    (dat2 (F := Ideal) V c).flushed 3 t = ((cfg2.win 3).blk t).view.read (Elt Ideal)
      (matProd (rowScale (V c main_v48 : S100000x32.Idx → EReal) (V c main_v7 : S100000x1.Idx → EReal))
        (V c main_arg10 : S32x16.Idx → EReal)) := by
  show (cfg2.win 3).cut (grid2.coords t) ((dat2 (F := Ideal) V c).after 3 t) = _
  rw [after2_3]
  unfold out2_3
  rw [View.canon_unit_zero zero_off]
  simp only [View.ld_unit_zero (S := S5000x32) zero_off, View.ld_unit_zero (S := S5000x1) zero_off,
    View.ld_unit_zero (S := S32x16) zero_off]
  rw [pay2_eq]
  obtain ⟨-, -, -, -, -, -, e0, e1⟩ := idx_facts2 t
  have ht : t.val < 20 := t.isLt
  funext y
  rw [View.read_apply]
  have hy0 : (y 0).val < 5000 := (y 0).isLt
  refine scaled_product_rows (V c main_v48 : S100000x32.Idx → EReal) (V c main_v7 : S100000x1.Idx → EReal)
    (V c main_arg10 : S32x16.Idx → EReal) (iblk2 V c 0 t) (iblk2 V c 1 t) (iblk2 V c 2 t) (5000 * t.val)
    (fun p k hp => blk2_0 V c t p k hp) (fun p hp => blk2_1 V c t p hp) (fun z => blk2_2 V c t z) _ _ ?_ ?_
  · show win2_3.index t (0 : Fin 2) * 5000 + 1 * (y 0).val = 5000 * t.val + (y 0).val; rw [e0]; omega
  · show win2_3.index t (1 : Fin 2) * 16 + 1 * (y 1).val = (y 1).val; rw [e1]; omega

/-- Every row lies in the block of the point that is the row's quotient by 5000. -/
theorem cover2 (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ : ∃ t : Fin cfg2.N, t.val = (i 0).val / 5000 :=
    ⟨⟨(i 0).val / 5000, by show (i 0).val / 5000 < 20; omega⟩, rfl⟩
  obtain ⟨-, -, -, -, -, -, e0, e1⟩ := idx_facts2 t
  refine ⟨t, flush2_3 t, ?_⟩
  show i ∈ ((View.whole main_v66).slice (win2_3.rect t)).set
  rw [View.set_slice_whole, Rect.mem_set_unit]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 16 ≤ (i 1).val ∧ (i 1).val < win2_3.index t (1 : Fin 2) * 16 + 16
    rw [e1]; omega

/-- After the region its result array is the product of the scaled features with the weights. -/
theorem final2 (c : Dev nD) : (dat2 (F := Ideal) V c).arrAt 3 cfg2.N
    = matProd (rowScale (V c main_v48 : S100000x32.Idx → EReal) (V c main_v7 : S100000x1.Idx → EReal))
        (V c main_arg10 : S32x16.Idx → EReal) :=
  (dat2 (F := Ideal) V c).arrAt_eq_of_cover 3 _ (fun t _ => flushed2_eq V c t) cover2

/-! ## Region 3: the second graph's hidden features scaled by its out-degree column, times the second layer's weights -/

/-- The body's stored value: its first block scaled row by row by its second, times its third. -/
theorem pay3_eq (x0 : FVec Ideal ⟨2, ![5000, 32]⟩ .f32) (x1 : FVec Ideal ⟨2, ![5000, 1]⟩ .f32)
    (x2 : FVec Ideal ⟨2, ![32, 16]⟩ .f32) : k3_pay1 (F := Ideal) x0 x1 x2 = matProd (rowScale x0 x1) x2 := by
  unfold k3_pay1
  dsimp only
  rw [mul_broadcastTo_eq]
  exact matmul_eq _ rfl rfl rfl rfl rfl rfl _ _ _

/-- The printed index maps over the grid: point t's blocks of the first, second and last windows are block row t, the
    third window's block is the whole weight matrix. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The first window's block at point t is rows 5000 t, …, 5000 t + 4999 of its array. -/
theorem blk3_0 (c : Dev nD) (t : Fin cfg3.N) (p : Fin 5000) (k : Fin 32) (hp : 5000 * t.val + p.val < 100000) :
    (iblk3 V c 0 t : FVec Ideal ⟨2, ![5000, 32]⟩ .f32) (ix2 p k)
      = (V c main_v65 : S100000x32.Idx → EReal) (ix2 ⟨5000 * t.val + p.val, hp⟩ k) := by
  obtain ⟨e0, e1, -⟩ := idx_facts3 t
  unfold iblk3
  rw [View.read_apply]
  show (V c main_v65 : S100000x32.Idx → EReal) _ = _
  refine congrArg (V c main_v65 : S100000x32.Idx → EReal) (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 32 + 1 * k.val = k.val; rw [e1]; omega

/-- The second window's block at point t is rows 5000 t, …, 5000 t + 4999 of its one-column array. -/
theorem blk3_1 (c : Dev nD) (t : Fin cfg3.N) (p : Fin 5000) (hp : 5000 * t.val + p.val < 100000) :
    (iblk3 V c 1 t : FVec Ideal ⟨2, ![5000, 1]⟩ .f32) (ix2 p (0 : Fin 1))
      = (V c main_v23 : S100000x1.Idx → EReal) (ix2 ⟨5000 * t.val + p.val, hp⟩ (0 : Fin 1)) := by
  obtain ⟨-, -, e0, e1, -⟩ := idx_facts3 t
  unfold iblk3
  rw [View.read_apply]
  show (V c main_v23 : S100000x1.Idx → EReal) _ = _
  refine congrArg (V c main_v23 : S100000x1.Idx → EReal) (funext fun a => Fin.ext ?_)
  match a with
  | ⟨0, _⟩ => show win3_1.index t (0 : Fin 2) * 5000 + 1 * p.val = 5000 * t.val + p.val; rw [e0]; omega
  | ⟨1, _⟩ => show win3_1.index t (1 : Fin 2) * 1 + 1 * (0 : Fin 1).val = (0 : Fin 1).val; rw [e1]; rfl

/-- The third window's block at every point is its whole array. -/
theorem blk3_2 (c : Dev nD) (t : Fin cfg3.N) (z : S32x16.Idx) :
    (iblk3 V c 2 t : FVec Ideal ⟨2, ![32, 16]⟩ .f32) z = (V c main_arg10 : S32x16.Idx → EReal) z := by
  obtain ⟨-, -, -, -, e0, e1, -⟩ := idx_facts3 t
  unfold iblk3
  rw [View.read_apply]
  show (V c main_arg10 : S32x16.Idx → EReal) _ = _
  refine congrArg (V c main_arg10 : S32x16.Idx → EReal) (funext fun a => Fin.ext ?_)
  match a with
  | ⟨0, _⟩ => show win3_2.index t (0 : Fin 2) * 32 + 1 * (z 0).val = (z 0).val; rw [e0]; omega
  | ⟨1, _⟩ => show win3_2.index t (1 : Fin 2) * 16 + 1 * (z 1).val = (z 1).val; rw [e1]; omega

/-- What point t writes back is block t of the product of the scaled features with the weights. -/
theorem flushed3_eq (c : Dev nD) (t : Fin cfg3.N) :
    (dat3 (F := Ideal) V c).flushed 3 t = ((cfg3.win 3).blk t).view.read (Elt Ideal)
      (matProd (rowScale (V c main_v65 : S100000x32.Idx → EReal) (V c main_v23 : S100000x1.Idx → EReal))
        (V c main_arg10 : S32x16.Idx → EReal)) := by
  show (cfg3.win 3).cut (grid3.coords t) ((dat3 (F := Ideal) V c).after 3 t) = _
  rw [after3_3]
  unfold out3_3
  rw [View.canon_unit_zero zero_off]
  simp only [View.ld_unit_zero (S := S5000x32) zero_off, View.ld_unit_zero (S := S5000x1) zero_off,
    View.ld_unit_zero (S := S32x16) zero_off]
  rw [pay3_eq]
  obtain ⟨-, -, -, -, -, -, e0, e1⟩ := idx_facts3 t
  have ht : t.val < 20 := t.isLt
  funext y
  rw [View.read_apply]
  have hy0 : (y 0).val < 5000 := (y 0).isLt
  refine scaled_product_rows (V c main_v65 : S100000x32.Idx → EReal) (V c main_v23 : S100000x1.Idx → EReal)
    (V c main_arg10 : S32x16.Idx → EReal) (iblk3 V c 0 t) (iblk3 V c 1 t) (iblk3 V c 2 t) (5000 * t.val)
    (fun p k hp => blk3_0 V c t p k hp) (fun p hp => blk3_1 V c t p hp) (fun z => blk3_2 V c t z) _ _ ?_ ?_
  · show win3_3.index t (0 : Fin 2) * 5000 + 1 * (y 0).val = 5000 * t.val + (y 0).val; rw [e0]; omega
  · show win3_3.index t (1 : Fin 2) * 16 + 1 * (y 1).val = (y 1).val; rw [e1]; omega

/-- Every row lies in the block of the point that is the row's quotient by 5000. -/
theorem cover3 (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  obtain ⟨t, ht⟩ : ∃ t : Fin cfg3.N, t.val = (i 0).val / 5000 :=
    ⟨⟨(i 0).val / 5000, by show (i 0).val / 5000 < 20; omega⟩, rfl⟩
  obtain ⟨-, -, -, -, -, -, e0, e1⟩ := idx_facts3 t
  refine ⟨t, flush3_3 t, ?_⟩
  show i ∈ ((View.whole main_v82).slice (win3_3.rect t)).set
  rw [View.set_slice_whole, Rect.mem_set_unit]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 16 ≤ (i 1).val ∧ (i 1).val < win3_3.index t (1 : Fin 2) * 16 + 16
    rw [e1]; omega

/-- After the region its result array is the product of the scaled features with the weights. -/
theorem final3 (c : Dev nD) : (dat3 (F := Ideal) V c).arrAt 3 cfg3.N
    = matProd (rowScale (V c main_v65 : S100000x32.Idx → EReal) (V c main_v23 : S100000x1.Idx → EReal))
        (V c main_arg10 : S32x16.Idx → EReal) :=
  (dat3 (F := Ideal) V c).arrAt_eq_of_cover 3 _ (fun t _ => flushed3_eq V c t) cover3

end Cert.Gcn.K

end
-- ==== Proof.KFold.lean ====
/-
  One graph-convolution layer's host operations after the sum over the edges, folded: the aggregated rows times the
  in-degree column broadcast along the rows, plus the bias vector broadcast into one row and down the rows — clamped
  below at zero against a broadcast zero in the first layer — is the layer's closing function of the aggregated
  rows, the column and the bias.
-/
import proofs.«115691_j25890062860848_2_alg».proof.Proof.KDefs

noncomputable section

namespace Cert.Gcn.K

open Cert.KernelIdeal Cert.KernelIdeal.Facts₀ Idealize.ShloMosaic Idealize.ShloMosaic.ValueIdx
open Cert.LibMatProd Cert.LibRowScale Cert.LibBiasRelu Cert.LibGcnLayout Cert.Gcn

/-- The first layer's closing operations. -/
theorem conv1_fold (h : FVec Ideal ⟨2, ![100000, 32]⟩ .f32) (src dst : IVec SE 32)
    (dn : FVec Ideal ⟨2, ![100000, 1]⟩ .f32) (b : FVec Ideal ⟨1, ![32]⟩ .f32) :
    maximumf (addf (mulf (Host.scatterAdd (F := Ideal) scatter_S100000x32_S3200000x1_S3200000x32_1_0_0_1
          (broadcastInDim S100000x32 ![] bcast_S_S100000x32 (constant (F := Ideal) S_ .f32 0x00000000#32))
          (broadcastInDim S3200000x1 ![0] bcast_S3200000_S3200000x1_0 dst)
          (Host.gather gather_S100000x32_S3200000x1_S3200000x32_1_0_n_n_0_1_132 h
            (broadcastInDim S3200000x1 ![0] bcast_S3200000_S3200000x1_0
              (select (cmpi .slt src (broadcastInDim S3200000 ![] bcast_S_S3200000 (constantI S_ 32 0#32)))
                (addi src (broadcastInDim S3200000 ![] bcast_S_S3200000 (constantI S_ 32 100000#32))) src))))
        (broadcastInDim S100000x32 ![0, 1] bcast_S100000x1_S100000x32_0_1 dn))
        (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32))
    = biasRelu (rowScale (K.ag32 h src dst) dn) (row b) := by
  rw [mul_broadcastInDim_eq, bcast_row, Cert.LibBiasRelu.host_form]
  rfl

/-- The first layer's closing operations before the clamp. -/
theorem pre1_fold (h : FVec Ideal ⟨2, ![100000, 32]⟩ .f32) (src dst : IVec SE 32)
    (dn : FVec Ideal ⟨2, ![100000, 1]⟩ .f32) (b : FVec Ideal ⟨1, ![32]⟩ .f32) :
    addf (mulf (Host.scatterAdd (F := Ideal) scatter_S100000x32_S3200000x1_S3200000x32_1_0_0_1
          (broadcastInDim S100000x32 ![] bcast_S_S100000x32 (constant (F := Ideal) S_ .f32 0x00000000#32))
          (broadcastInDim S3200000x1 ![0] bcast_S3200000_S3200000x1_0 dst)
          (Host.gather gather_S100000x32_S3200000x1_S3200000x32_1_0_n_n_0_1_132 h
            (broadcastInDim S3200000x1 ![0] bcast_S3200000_S3200000x1_0
              (select (cmpi .slt src (broadcastInDim S3200000 ![] bcast_S_S3200000 (constantI S_ 32 0#32)))
                (addi src (broadcastInDim S3200000 ![] bcast_S_S3200000 (constantI S_ 32 100000#32))) src))))
        (broadcastInDim S100000x32 ![0, 1] bcast_S100000x1_S100000x32_0_1 dn))
        (broadcastInDim S100000x32 ![0, 1] bcast_S1x32_S100000x32_0_1 (broadcastInDim S1x32 ![1] bcast_S32_S1x32_1 b))
    = rowBias (rowScale (K.ag32 h src dst) dn) (row b) := by
  rw [mul_broadcastInDim_eq, bcast_row, rowBias_host]
  rfl

/-- A matrix plus a row, clamped below at zero against a broadcast zero. -/
theorem relu_rowBias {M N : ℕ} (a : FVec Ideal ⟨2, ![M, N]⟩ .f32) (b : FVec Ideal ⟨2, ![1, N]⟩ .f32)
    (h0 : (⟨0, ![]⟩ : Shape).BroadcastsInDim ⟨2, ![M, N]⟩ ![]) :
    maximumf (rowBias a b) (broadcastInDim ⟨2, ![M, N]⟩ ![] h0 (constant (F := Ideal) ⟨0, ![]⟩ .f32 0x00000000#32))
      = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, rowBias_apply, biasRelu_apply, hz]

/-- The second layer's closing operations. -/
theorem conv2_fold (h : FVec Ideal ⟨2, ![100000, 16]⟩ .f32) (src dst : IVec SE 32)
    (dn : FVec Ideal ⟨2, ![100000, 1]⟩ .f32) (b : FVec Ideal ⟨1, ![16]⟩ .f32) :
    addf (mulf (Host.scatterAdd (F := Ideal) scatter_S100000x16_S3200000x1_S3200000x16_1_0_0_1
          (broadcastInDim S100000x16 ![] bcast_S_S100000x16 (constant (F := Ideal) S_ .f32 0x00000000#32))
          (broadcastInDim S3200000x1 ![0] bcast_S3200000_S3200000x1_0 dst)
          (Host.gather gather_S100000x16_S3200000x1_S3200000x16_1_0_n_n_0_1_116 h
            (broadcastInDim S3200000x1 ![0] bcast_S3200000_S3200000x1_0
              (select (cmpi .slt src (broadcastInDim S3200000 ![] bcast_S_S3200000 (constantI S_ 32 0#32)))
                (addi src (broadcastInDim S3200000 ![] bcast_S_S3200000 (constantI S_ 32 100000#32))) src))))
        (broadcastInDim S100000x16 ![0, 1] bcast_S100000x1_S100000x16_0_1 dn))
        (broadcastInDim S100000x16 ![0, 1] bcast_S1x16_S100000x16_0_1 (broadcastInDim S1x16 ![1] bcast_S16_S1x16_1 b))
    = rowBias (rowScale (K.ag16 h src dst) dn) (row b) := by
  rw [mul_broadcastInDim_eq, bcast_row, rowBias_host]
  rfl

end Cert.Gcn.K

end
-- ==== Proof.KChainB.lean ====
/-
  The first graph-convolution layer of both graphs in the idealized kernel's run. For each graph: the tiled region leaves
  in its output array the node features scaled by the out-degree factor times the weights; the host stretch after it
  gathers the rows at the edges' tails, sums them into the edges' heads, scales by the in-degree column and adds the
  bias row; and the clamp's three operations leave the larger of that and zero.
-/
import proofs.«115691_j25890062860848_2_alg».proof.Proof.Gen.KernelIdeal.Frame
import proofs.«115691_j25890062860848_2_alg».proof.Proof.KDefs
import proofs.«115691_j25890062860848_2_alg».proof.Proof.KChainA
import proofs.«115691_j25890062860848_2_alg».proof.Proof.KKeep
import proofs.«115691_j25890062860848_2_alg».proof.Proof.LibTypedRef
import proofs.«115691_j25890062860848_2_alg».proof.Proof.KFold
import proofs.«115691_j25890062860848_2_alg».proof.Proof.KRegions03
import Idealize.ShloMosaic.Lib.StableHlo.Run

set_option maxRecDepth 16384

noncomputable section

namespace Cert.Gcn.K

open Cert.KernelIdeal Cert.KernelIdeal.Gen Idealize.ShloMosaic Idealize.ShloMosaic.TcCoe Idealize.ShloMosaic.StableHlo Idealize.SL.Sem
open Cert.KernelIdeal.Facts₀ Idealize.ShloMosaic.ValueIdx Cert.LibMatProd Cert.LibRowScale Cert.LibBiasRelu Cert.LibGcnLayout Cert.Gcn

variable (m : (ℓ : Loc nD τ sig) → Buf (Elt Ideal) ℓ) (ρ : Dev nD → PrngReg) (c : Dev nD)

/-! ## The first layer of both graphs -/

set_option maxHeartbeats 4000000 in
/-- The clamp's stretch: whatever the buffers hold before it, afterwards the layer's buffer holds the larger of what the
    pre-clamp buffer held and zero, entry by entry. -/
theorem relu0 (W : Valuation τ sig (Elt Ideal)) (X : FVec Ideal ⟨2, ![100000, 32]⟩ .f32)
    (h : W (Proc.devRef .tc main_v47) = X) :
    StableHlo.after (hostOps1_1 (F := Ideal)) W (Proc.devRef .tc main_v48)
      = maximumf X (broadcastInDim S100000x32 ![] Gen.bcast_S_S100000x32 (constant (F := Ideal) S_ .f32 0x00000000#32)) := by
  dsimp only [hostOps1_1]
  after_results_simp
  simp only [Cert.Lib.ofBuf_toBuf]
  rw [h]
  rfl

set_option maxHeartbeats 4000000 in
/-- The clamp's stretch: whatever the buffers hold before it, afterwards the layer's buffer holds the larger of what the
    pre-clamp buffer held and zero, entry by entry. -/
theorem relu1 (W : Valuation τ sig (Elt Ideal)) (X : FVec Ideal ⟨2, ![100000, 32]⟩ .f32)
    (h : W (Proc.devRef .tc main_v64) = X) :
    StableHlo.after (hostOps2_1 (F := Ideal)) W (Proc.devRef .tc main_v65)
      = maximumf X (broadcastInDim S100000x32 ![] Gen.bcast_S_S100000x32 (constant (F := Ideal) S_ .f32 0x00000000#32)) := by
  dsimp only [hostOps2_1]
  after_results_simp
  simp only [Cert.Lib.ofBuf_toBuf]
  rw [h]
  rfl

/-- What the solute graph sends along its edges in the first layer. -/
theorem w2_v32 : W2 (F := Ideal) m ρ c (Proc.devRef .tc main_v32) = msg K.nrm (m ((c : Thread nD τ).loc main_arg0)) (m ((c : Thread nD τ).loc main_arg8)) (m ((c : Thread nD τ).loc main_arg4)) := by
  refine (W2_arr m ρ c 3).trans ?_
  refine (final0 (V1 m ρ) c).trans ?_
  show matProd (rowScale (W1 m ρ c (Proc.devRef .tc main_arg0)) (W1 m ρ c (Proc.devRef .tc main_v7))) (W1 m ρ c (Proc.devRef .tc main_arg8)) = _
  rw [w1_arg0, w1_v7, w1_arg8]
  rfl

set_option maxHeartbeats 4000000 in
/-- The solute graph's first layer before the clamp. -/
theorem w3_v47 : W3 (F := Ideal) m ρ c (Proc.devRef .tc main_v47) = (rowBias (rowScale (K.ag32 (msg K.nrm (m ((c : Thread nD τ).loc main_arg0)) (m ((c : Thread nD τ).loc main_arg8)) (m ((c : Thread nD τ).loc main_arg4))) (m ((c : Thread nD τ).loc main_arg4)) (m ((c : Thread nD τ).loc main_arg5))) (col (K.nrm (m ((c : Thread nD τ).loc main_arg5))))) (row (m ((c : Thread nD τ).loc main_arg9)))) := by
  dsimp only [W3, hostOps1]
  after_results_simp
  rw [w2_v32 m ρ c, ((thru0 m ρ c main_arg4 (by decide)).trans (w1_arg4 m ρ c)), ((thru0 m ρ c main_arg5 (by decide)).trans (w1_arg5 m ρ c)),
    ((thru0 m ρ c main_v15 (by decide)).trans (w1_v15 m ρ c)), ((thru0 m ρ c main_arg9 (by decide)).trans (w1_arg9 m ρ c))]
  exact pre1_fold (msg K.nrm (m ((c : Thread nD τ).loc main_arg0)) (m ((c : Thread nD τ).loc main_arg8)) (m ((c : Thread nD τ).loc main_arg4))) (m ((c : Thread nD τ).loc main_arg4)) (m ((c : Thread nD τ).loc main_arg5)) (col (K.nrm (m ((c : Thread nD τ).loc main_arg5)))) (m ((c : Thread nD τ).loc main_arg9))

/-- The solute graph's node features after the first layer. -/
theorem w4_v48 : W4 (F := Ideal) m ρ c (Proc.devRef .tc main_v48) = (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) :=
  (relu0 (W3 m ρ c) _ (w3_v47 m ρ c)).trans (relu_rowBias _ _ _)

/-- What the solvent graph sends along its edges in the first layer. -/
theorem w5_v49 : W5 (F := Ideal) m ρ c (Proc.devRef .tc main_v49) = msg K.nrm (m ((c : Thread nD τ).loc main_arg1)) (m ((c : Thread nD τ).loc main_arg8)) (m ((c : Thread nD τ).loc main_arg6)) := by
  refine (W5_arr m ρ c 3).trans ?_
  refine (final1 (V4 m ρ) c).trans ?_
  show matProd (rowScale (W4 m ρ c (Proc.devRef .tc main_arg1)) (W4 m ρ c (Proc.devRef .tc main_v23))) (W4 m ρ c (Proc.devRef .tc main_arg8)) = _
  rw [(((keep1_1 m ρ c main_arg1 (by decide)).trans ((keep1 m ρ c main_arg1 (by decide)).trans (thru0 m ρ c main_arg1 (by decide)))).trans (w1_arg1 m ρ c)), (((keep1_1 m ρ c main_v23 (by decide)).trans ((keep1 m ρ c main_v23 (by decide)).trans (thru0 m ρ c main_v23 (by decide)))).trans (w1_v23 m ρ c)), (((keep1_1 m ρ c main_arg8 (by decide)).trans ((keep1 m ρ c main_arg8 (by decide)).trans (thru0 m ρ c main_arg8 (by decide)))).trans (w1_arg8 m ρ c))]
  rfl

set_option maxHeartbeats 4000000 in
/-- The solvent graph's first layer before the clamp. -/
theorem w6_v64 : W6 (F := Ideal) m ρ c (Proc.devRef .tc main_v64) = (rowBias (rowScale (K.ag32 (msg K.nrm (m ((c : Thread nD τ).loc main_arg1)) (m ((c : Thread nD τ).loc main_arg8)) (m ((c : Thread nD τ).loc main_arg6))) (m ((c : Thread nD τ).loc main_arg6)) (m ((c : Thread nD τ).loc main_arg7))) (col (K.nrm (m ((c : Thread nD τ).loc main_arg7))))) (row (m ((c : Thread nD τ).loc main_arg9)))) := by
  dsimp only [W6, hostOps2]
  after_results_simp
  rw [w5_v49 m ρ c, (((thru1 m ρ c main_arg6 (by decide)).trans ((keep1_1 m ρ c main_arg6 (by decide)).trans ((keep1 m ρ c main_arg6 (by decide)).trans (thru0 m ρ c main_arg6 (by decide))))).trans (w1_arg6 m ρ c)), (((thru1 m ρ c main_arg7 (by decide)).trans ((keep1_1 m ρ c main_arg7 (by decide)).trans ((keep1 m ρ c main_arg7 (by decide)).trans (thru0 m ρ c main_arg7 (by decide))))).trans (w1_arg7 m ρ c)),
    (((thru1 m ρ c main_v31 (by decide)).trans ((keep1_1 m ρ c main_v31 (by decide)).trans ((keep1 m ρ c main_v31 (by decide)).trans (thru0 m ρ c main_v31 (by decide))))).trans (w1_v31 m ρ c)), (((thru1 m ρ c main_arg9 (by decide)).trans ((keep1_1 m ρ c main_arg9 (by decide)).trans ((keep1 m ρ c main_arg9 (by decide)).trans (thru0 m ρ c main_arg9 (by decide))))).trans (w1_arg9 m ρ c))]
  exact pre1_fold (msg K.nrm (m ((c : Thread nD τ).loc main_arg1)) (m ((c : Thread nD τ).loc main_arg8)) (m ((c : Thread nD τ).loc main_arg6))) (m ((c : Thread nD τ).loc main_arg6)) (m ((c : Thread nD τ).loc main_arg7)) (col (K.nrm (m ((c : Thread nD τ).loc main_arg7)))) (m ((c : Thread nD τ).loc main_arg9))

/-- The solvent graph's node features after the first layer. -/
theorem w7_v65 : W7 (F := Ideal) m ρ c (Proc.devRef .tc main_v65) = (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) :=
  (relu1 (W6 m ρ c) _ (w6_v64 m ρ c)).trans (relu_rowBias _ _ _)

end Cert.Gcn.K

end
-- ==== Proof.KChainC.lean ====
/-
  The second layer of both graphs in the idealized kernel's run, boundary by boundary.

  The run's buffer contents are named at each boundary between a stretch of host operations and a region. A buffer
  holds at a boundary what it held at an earlier one when nothing in between writes it: a region writes only its
  output array, a host stretch only the buffers of its own operations. The second layer's messages are a region's
  output (the first layer's features scaled by the out-degree column, times the weights); the host then sums them
  over the edges, scales by the in-degree column and adds the bias, which is the second layer of the network
  function; and it joins each graph's two layers side by side, narrowing to a shorter float format, which on exact
  values changes nothing.
-/
import proofs.«115691_j25890062860848_2_alg».proof.Proof.Gen.KernelIdeal.Frame
import proofs.«115691_j25890062860848_2_alg».proof.Proof.KDefs
import proofs.«115691_j25890062860848_2_alg».proof.Proof.KChainA
import proofs.«115691_j25890062860848_2_alg».proof.Proof.KKeep
import proofs.«115691_j25890062860848_2_alg».proof.Proof.LibTypedRef
import proofs.«115691_j25890062860848_2_alg».proof.Proof.KRegions03
import proofs.«115691_j25890062860848_2_alg».proof.Proof.KChainB
import Idealize.ShloMosaic.Lib.StableHlo.Run

set_option maxRecDepth 16384

noncomputable section

namespace Cert.Gcn.K

open Cert.KernelIdeal Cert.KernelIdeal.Gen Idealize.ShloMosaic Idealize.ShloMosaic.TcCoe Idealize.ShloMosaic.StableHlo Idealize.SL.Sem
open Idealize.ShloMosaic.ValueIdx Cert.LibMatProd Cert.LibRowScale Cert.LibBiasRelu Cert.LibGcnLayout Cert.Gcn

variable (m : (ℓ : Loc nD τ sig) → Buf (Elt Ideal) ℓ) (ρ : Dev nD → PrngReg) (c : Dev nD)

/-- Reads one buffer after a stretch of host operations as the operations' composed term over the contents before
    the stretch, in one pass. -/
macro "host_read" : tactic => `(tactic| (dsimp only [W1, W3, W4, W6, W7, W9, W11, W14, hostOps0, hostOps1, hostOps1_1, hostOps2, hostOps2_1, hostOps3, hostOps4, hostOps6]; after_results_simp))

/-! ## A buffer nothing writes after the first stretch keeps its contents

The buffers written between the first stretch of host operations and each later boundary, and the carry of any other
buffer's contents from the first boundary to that one. -/

/-- Written after the first stretch and before the third region. -/
abbrev wr7 : List (Ref sig .tc) := main_v32 :: main_v49 :: (wl1 ++ wl1_1 ++ wl2 ++ wl2_1)
/-- … before the stretch after the third region. -/
abbrev wr8 : List (Ref sig .tc) := main_v66 :: wr7
/-- … before the fourth region. -/
abbrev wr9 : List (Ref sig .tc) := wl3 ++ wr8
/-- … before the stretch after the fourth region. -/
abbrev wr10 : List (Ref sig .tc) := main_v82 :: wr9
/-- … before the fifth region. -/
abbrev wr11 : List (Ref sig .tc) := wl4 ++ wr10
/-- … before the sixth region. -/
abbrev wr12 : List (Ref sig .tc) := main_v102 :: wr11
/-- … before the last stretch. -/
abbrev wr13 : List (Ref sig .tc) := main_v103 :: wr12
/-- … before the last region. -/
abbrev wr14 : List (Ref sig .tc) := wl6 ++ wr13

theorem at7 (b : Ref sig .tc) (hb : b ∉ wr7) : W7 (F := Ideal) m ρ c (Proc.devRef .tc b) = W1 (F := Ideal) m ρ c (Proc.devRef .tc b) := by
  have h0 : b ≠ main_v32 := fun e => hb (e ▸ List.Mem.head _)
  have h3 : b ≠ main_v49 := fun e => hb (List.Mem.tail _ (e ▸ List.Mem.head _))
  have hr : b ∉ wl1 ++ wl1_1 ++ wl2 ++ wl2_1 := fun h => hb (List.Mem.tail _ (List.Mem.tail _ h))
  have h5 : b ∉ wl2_1 := fun h => hr (List.mem_append_right _ h)
  have h4 : b ∉ wl2 := fun h => hr (List.mem_append_left _ (List.mem_append_right _ h))
  have h2 : b ∉ wl1_1 := fun h => hr (List.mem_append_left _ (List.mem_append_left _ (List.mem_append_right _ h)))
  have h1 : b ∉ wl1 := fun h => hr (List.mem_append_left _ (List.mem_append_left _ (List.mem_append_left _ h)))
  exact (keep2_1 m ρ c b h5).trans ((keep2 m ρ c b h4).trans ((thru1 m ρ c b h3).trans
    ((keep1_1 m ρ c b h2).trans ((keep1 m ρ c b h1).trans (thru0 m ρ c b h0)))))

theorem at8 (b : Ref sig .tc) (hb : b ∉ wr8) : W8 (F := Ideal) m ρ c (Proc.devRef .tc b) = W1 (F := Ideal) m ρ c (Proc.devRef .tc b) :=
  (thru2 m ρ c b (fun e => hb (e ▸ List.Mem.head _))).trans (at7 m ρ c b (fun h => hb (List.Mem.tail _ h)))

theorem at9 (b : Ref sig .tc) (hb : b ∉ wr9) : W9 (F := Ideal) m ρ c (Proc.devRef .tc b) = W1 (F := Ideal) m ρ c (Proc.devRef .tc b) :=
  (keep3 m ρ c b (fun h => hb (List.mem_append_left _ h))).trans (at8 m ρ c b (fun h => hb (List.mem_append_right _ h)))

theorem at10 (b : Ref sig .tc) (hb : b ∉ wr10) : W10 (F := Ideal) m ρ c (Proc.devRef .tc b) = W1 (F := Ideal) m ρ c (Proc.devRef .tc b) :=
  (thru3 m ρ c b (fun e => hb (e ▸ List.Mem.head _))).trans (at9 m ρ c b (fun h => hb (List.Mem.tail _ h)))

theorem at11 (b : Ref sig .tc) (hb : b ∉ wr11) : W11 (F := Ideal) m ρ c (Proc.devRef .tc b) = W1 (F := Ideal) m ρ c (Proc.devRef .tc b) :=
  (keep4 m ρ c b (fun h => hb (List.mem_append_left _ h))).trans (at10 m ρ c b (fun h => hb (List.mem_append_right _ h)))

theorem at12 (b : Ref sig .tc) (hb : b ∉ wr12) : W12 (F := Ideal) m ρ c (Proc.devRef .tc b) = W1 (F := Ideal) m ρ c (Proc.devRef .tc b) :=
  (thru4 m ρ c b (fun e => hb (e ▸ List.Mem.head _))).trans (at11 m ρ c b (fun h => hb (List.Mem.tail _ h)))

theorem at13 (b : Ref sig .tc) (hb : b ∉ wr13) : W13 (F := Ideal) m ρ c (Proc.devRef .tc b) = W1 (F := Ideal) m ρ c (Proc.devRef .tc b) :=
  (thru5 m ρ c b (fun e => hb (e ▸ List.Mem.head _))).trans (at12 m ρ c b (fun h => hb (List.Mem.tail _ h)))

theorem at14 (b : Ref sig .tc) (hb : b ∉ wr14) : W14 (F := Ideal) m ρ c (Proc.devRef .tc b) = W1 (F := Ideal) m ρ c (Proc.devRef .tc b) :=
  (keep6 m ρ c b (fun h => hb (List.mem_append_left _ h))).trans (at13 m ρ c b (fun h => hb (List.mem_append_right _ h)))

/-! ## Two spellings -/

/-- Narrowing to a shorter float format changes nothing on exact values. -/
theorem narrow_id {s : Shape} (x : FVec Ideal s .f32) (hb : FTy.bf16.bits < FTy.f32.bits) :
    (truncf .bf16 x hb : s.Idx → EReal) = x := rfl

/-- The second layer as the host spells it after a region has produced the messages: the sum over the edges, times
    the in-degree column broadcast along the rows, plus the bias broadcast into one row and down the rows. -/
theorem conv2_kernel (h : FVec Ideal ⟨2, ![100000, 32]⟩ .f32) (w : FVec Ideal ⟨2, ![32, 16]⟩ .f32)
    (b : FVec Ideal ⟨1, ![16]⟩ .f32) (src dst : IVec SE 32)
    (hb : S100000x1.BroadcastsInDim S100000x16 ![0, 1]) (hr : S16.BroadcastsInDim S1x16 ![1])
    (hbc : S1x16.BroadcastsInDim S100000x16 ![0, 1]) :
    addf (mulf (K.ag16 (msg K.nrm h w src) src dst) (broadcastInDim S100000x16 ![0, 1] hb (col (K.nrm dst))))
        (broadcastInDim S100000x16 ![0, 1] hbc (broadcastInDim S1x16 ![1] hr b))
      = conv2 K.nrm K.ag16 h w b src dst := by
  unfold conv2
  rw [mul_broadcastInDim_eq, bcast_row, rowBias_host]

/-! ## The first graph's second layer -/

/-- The first graph's first-layer features, still in place when the third region starts. -/
theorem w7_v48 : W7 (F := Ideal) m ρ c (Proc.devRef .tc main_v48) = (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) :=
  ((keep2_1 m ρ c main_v48 (by decide)).trans ((keep2 m ρ c main_v48 (by decide)).trans
    (thru1 m ρ c main_v48 (by decide)))).trans (w4_v48 m ρ c)

/-- What the first graph sends along its edges in the second layer. -/
theorem w8_v66 : W8 (F := Ideal) m ρ c (Proc.devRef .tc main_v66) = msg K.nrm (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (m ((c : Thread nD τ).loc main_arg10)) (m ((c : Thread nD τ).loc main_arg4)) := by
  refine (W8_arr m ρ c 3).trans ?_
  refine (final2 (V7 m ρ) c).trans ?_
  show matProd (rowScale (W7 m ρ c (Proc.devRef .tc main_v48)) (W7 m ρ c (Proc.devRef .tc main_v7))) (W7 m ρ c (Proc.devRef .tc main_arg10)) = _
  rw [w7_v48 m ρ c, (at7 m ρ c main_v7 (by decide)).trans (w1_v7 m ρ c),
    (at7 m ρ c main_arg10 (by decide)).trans (w1_arg10 m ρ c)]
  rfl

/-- The first graph's node features after the second layer. -/
theorem w9_v81 : W9 (F := Ideal) m ρ c (Proc.devRef .tc main_v81) = (conv2 K.nrm K.ag16 (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (m ((c : Thread nD τ).loc main_arg10)) (m ((c : Thread nD τ).loc main_arg11)) (m ((c : Thread nD τ).loc main_arg4)) (m ((c : Thread nD τ).loc main_arg5))) := by
  host_read
  rw [w8_v66 m ρ c, (at8 m ρ c main_arg5 (by decide)).trans (w1_arg5 m ρ c),
    (at8 m ρ c main_arg4 (by decide)).trans (w1_arg4 m ρ c),
    (at8 m ρ c main_arg11 (by decide)).trans (w1_arg11 m ρ c),
    (at8 m ρ c main_v15 (by decide)).trans (w1_v15 m ρ c)]
  exact conv2_kernel (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (m ((c : Thread nD τ).loc main_arg10)) (m ((c : Thread nD τ).loc main_arg11)) (m ((c : Thread nD τ).loc main_arg4)) (m ((c : Thread nD τ).loc main_arg5)) _ _ _

/-! ## The second graph's second layer -/

/-- The second graph's first-layer features, still in place when the fourth region starts. -/
theorem w9_v65 : W9 (F := Ideal) m ρ c (Proc.devRef .tc main_v65) = (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) :=
  ((keep3 m ρ c main_v65 (by decide)).trans (thru2 m ρ c main_v65 (by decide))).trans (w7_v65 m ρ c)

/-- What the second graph sends along its edges in the second layer. -/
theorem w10_v82 : W10 (F := Ideal) m ρ c (Proc.devRef .tc main_v82) = msg K.nrm (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (m ((c : Thread nD τ).loc main_arg10)) (m ((c : Thread nD τ).loc main_arg6)) := by
  refine (W10_arr m ρ c 3).trans ?_
  refine (final3 (V9 m ρ) c).trans ?_
  show matProd (rowScale (W9 m ρ c (Proc.devRef .tc main_v65)) (W9 m ρ c (Proc.devRef .tc main_v23))) (W9 m ρ c (Proc.devRef .tc main_arg10)) = _
  rw [w9_v65 m ρ c, (at9 m ρ c main_v23 (by decide)).trans (w1_v23 m ρ c),
    (at9 m ρ c main_arg10 (by decide)).trans (w1_arg10 m ρ c)]
  rfl

/-! ## Each graph's two layers side by side -/

/-- The first graph's first-layer features, still in place after the fourth region. -/
theorem w10_v48 : W10 (F := Ideal) m ρ c (Proc.devRef .tc main_v48) = (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) :=
  ((thru3 m ρ c main_v48 (by decide)).trans ((keep3 m ρ c main_v48 (by decide)).trans
    (thru2 m ρ c main_v48 (by decide)))).trans (w7_v48 m ρ c)

/-- The first graph's second-layer features, still in place after the fourth region. -/
theorem w10_v81 : W10 (F := Ideal) m ρ c (Proc.devRef .tc main_v81) = (conv2 K.nrm K.ag16 (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (m ((c : Thread nD τ).loc main_arg10)) (m ((c : Thread nD τ).loc main_arg11)) (m ((c : Thread nD τ).loc main_arg4)) (m ((c : Thread nD τ).loc main_arg5))) :=
  (thru3 m ρ c main_v81 (by decide)).trans (w9_v81 m ρ c)

/-- The second graph's first-layer features, still in place after the fourth region. -/
theorem w10_v65 : W10 (F := Ideal) m ρ c (Proc.devRef .tc main_v65) = (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) :=
  (thru3 m ρ c main_v65 (by decide)).trans (w9_v65 m ρ c)

/-- The second graph's node features after the second layer. -/
theorem w11_v97 : W11 (F := Ideal) m ρ c (Proc.devRef .tc main_v97) = (conv2 K.nrm K.ag16 (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (m ((c : Thread nD τ).loc main_arg10)) (m ((c : Thread nD τ).loc main_arg11)) (m ((c : Thread nD τ).loc main_arg6)) (m ((c : Thread nD τ).loc main_arg7))) := by
  host_read
  rw [w10_v82 m ρ c, (at10 m ρ c main_arg7 (by decide)).trans (w1_arg7 m ρ c),
    (at10 m ρ c main_arg6 (by decide)).trans (w1_arg6 m ρ c),
    (at10 m ρ c main_arg11 (by decide)).trans (w1_arg11 m ρ c),
    (at10 m ρ c main_v31 (by decide)).trans (w1_v31 m ρ c)]
  exact conv2_kernel (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (m ((c : Thread nD τ).loc main_arg10)) (m ((c : Thread nD τ).loc main_arg11)) (m ((c : Thread nD τ).loc main_arg6)) (m ((c : Thread nD τ).loc main_arg7)) _ _ _

/-- The first graph's two layers joined side by side: the stretch's nineteenth operation, whose operands no later
    operation of the stretch writes. -/
theorem w11_v98 : W11 (F := Ideal) m ρ c (Proc.devRef .tc main_v98) = catCols (n := 48) rfl (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (conv2 K.nrm K.ag16 (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (m ((c : Thread nD τ).loc main_arg10)) (m ((c : Thread nD τ).loc main_arg11)) (m ((c : Thread nD τ).loc main_arg4)) (m ((c : Thread nD τ).loc main_arg5))) :=
  (Cert.RefSSA.ssa_binary (writes4 (F := Ideal)) (W10 (F := Ideal) m ρ c) 18 rfl (by decide) (by decide) (by decide)
    (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (conv2 K.nrm K.ag16 (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (m ((c : Thread nD τ).loc main_arg10)) (m ((c : Thread nD τ).loc main_arg11)) (m ((c : Thread nD τ).loc main_arg4)) (m ((c : Thread nD τ).loc main_arg5)))
    ((keep4 m ρ c main_v48 (by decide)).trans (w10_v48 m ρ c))
    ((keep4 m ρ c main_v81 (by decide)).trans (w10_v81 m ρ c))).trans
    (concat2 (n := 48) rfl _ _ _)

/-- The same, narrowed. -/
theorem w11_v99 : W11 (F := Ideal) m ρ c (Proc.devRef .tc main_v99) = catCols (n := 48) rfl (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (conv2 K.nrm K.ag16 (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (m ((c : Thread nD τ).loc main_arg10)) (m ((c : Thread nD τ).loc main_arg11)) (m ((c : Thread nD τ).loc main_arg4)) (m ((c : Thread nD τ).loc main_arg5))) :=
  (Cert.RefSSA.ssa_unary (writes4 (F := Ideal)) (W10 (F := Ideal) m ρ c) 19 rfl (by decide) (by decide)
    (catCols (n := 48) rfl (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (conv2 K.nrm K.ag16 (conv1 K.nrm K.ag32 (m ((c : Thread nD τ).loc main_arg0)) (m ((c : Thread nD τ).loc main_arg8)) (m ((c : Thread nD τ).loc main_arg9)) (m ((c : Thread nD τ).loc main_arg4)) (m ((c : Thread nD τ).loc main_arg5))) (m ((c : Thread nD τ).loc main_arg10)) (m ((c : Thread nD τ).loc main_arg11)) (m ((c : Thread nD τ).loc main_arg4)) (m ((c : Thread nD τ).loc main_arg5)))) (w11_v98 m ρ c)).trans (narrow_id _ _)

/-- The second graph's two layers joined side by side. -/
theorem w11_v100 : W11 (F := Ideal) m ρ c (Proc.devRef .tc main_v100) = catCols (n := 48) rfl (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (conv2 K.nrm K.ag16 (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (m ((c : Thread nD τ).loc main_arg10)) (m ((c : Thread nD τ).loc main_arg11)) (m ((c : Thread nD τ).loc main_arg6)) (m ((c : Thread nD τ).loc main_arg7))) :=
  (Cert.RefSSA.ssa_binary (writes4 (F := Ideal)) (W10 (F := Ideal) m ρ c) 20 rfl (by decide) (by decide) (by decide)
    (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (conv2 K.nrm K.ag16 (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (m ((c : Thread nD τ).loc main_arg10)) (m ((c : Thread nD τ).loc main_arg11)) (m ((c : Thread nD τ).loc main_arg6)) (m ((c : Thread nD τ).loc main_arg7)))
    ((keep4 m ρ c main_v65 (by decide)).trans (w10_v65 m ρ c))
    (w11_v97 m ρ c)).trans
    (concat2 (n := 48) rfl _ _ _)

/-- The same, narrowed. -/
theorem w11_v101 : W11 (F := Ideal) m ρ c (Proc.devRef .tc main_v101) = catCols (n := 48) rfl (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (conv2 K.nrm K.ag16 (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (m ((c : Thread nD τ).loc main_arg10)) (m ((c : Thread nD τ).loc main_arg11)) (m ((c : Thread nD τ).loc main_arg6)) (m ((c : Thread nD τ).loc main_arg7))) :=
  (Cert.RefSSA.ssa_unary (writes4 (F := Ideal)) (W10 (F := Ideal) m ρ c) 21 rfl (by decide) (by decide)
    (catCols (n := 48) rfl (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (conv2 K.nrm K.ag16 (conv1 K.nrm K.ag32 (m ((c : Thread nD τ).loc main_arg1)) (m ((c : Thread nD τ).loc main_arg8)) (m ((c : Thread nD τ).loc main_arg9)) (m ((c : Thread nD τ).loc main_arg6)) (m ((c : Thread nD τ).loc main_arg7))) (m ((c : Thread nD τ).loc main_arg10)) (m ((c : Thread nD τ).loc main_arg11)) (m ((c : Thread nD τ).loc main_arg6)) (m ((c : Thread nD τ).loc main_arg7)))) (w11_v100 m ρ c)).trans (narrow_id _ _)

end Cert.Gcn.K

end
-- ==== Proof.KRegions45.lean ====
/-
  The two pooling regions of the idealized kernel, each as one function of whole arrays. Each is a row-tiled matrix
  product: grid point t takes rows 16 t, …, 16 t + 15 of a graph's membership matrix and the whole matrix of node
  features, and writes the same rows of the result, their product. A band of rows of a product is the product of the
  band, and the thirty-two bands cover the five hundred and twelve rows, so the result array after the region is the
  product of the whole membership matrix with the node features. The node features are held narrowed to bf16, which on
  exact values is the same array.
-/
import proofs.«115691_j25890062860848_2_alg».proof.Proof.Gen.KernelIdeal.Frame
import proofs.«115691_j25890062860848_2_alg».proof.Proof.GcnSpec
import Idealize.ShloMosaic.Lib.Pipeline.Value

set_option maxRecDepth 16384

noncomputable section

namespace Cert.Gcn.K

open Cert.KernelIdeal Cert.KernelIdeal.Gen Idealize.ShloMosaic Idealize.ShloMosaic.TcCoe Idealize.ShloMosaic.ValueIdx Cert.LibMatProd Cert.LibRowScale Cert.LibBiasRelu Cert.LibGcnLayout
open Idealize.ShloMosaic.Pipeline (Dat)

variable (V : (c : Dev nD) → (b : Ref sig .tc) → Buf (Elt Ideal) ((c : Thread nD τ).loc b))

/-- The zero offsets of a body's whole-buffer accesses, as a constant function. -/
theorem zero_off45 : (![0, 0] : Fin 2 → Nat) = fun _ => 0 := funext fun a => by fin_cases a <;> rfl

/-- A matrix unit's product of a first operand narrowed to bf16 with a second operand already held in bf16, accumulated
    into zeros, is the matrix product of the operands: on exact values narrowing is the identity and the zero
    accumulator adds nothing. -/
theorem matmul_bf16_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .bf16) (hb : FTy.bf16.bits < FTy.f32.bits) :
    matmul d none (truncf .bf16 x hb) w (constant ⟨2, ![M, N]⟩ .f32 0x00000000#32)
      = matProd x (w : (⟨2, ![K, N]⟩ : Shape).Idx → EReal) := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact Cert.LibPlainDot.plain_sum d h1 h2 h3 h4 h5 h6 x w p q

/-- Rows r, …, r + T − 1 of a product, as a function: when x holds those rows of X, w is W, and E sends an index y of
    the band to the index of the whole product whose row is r plus y's row and whose column is y's, the product of x
    with w is the product of X with W read through E. -/
theorem band_eq {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (E : (⟨2, ![T, N]⟩ : Shape).Idx → (⟨2, ![M, N]⟩ : Shape).Idx)
    (hE0 : ∀ y, (E y 0).val = r + (y 0).val) (hE1 : ∀ y, (E y 1).val = (y 1).val) :
    matProd x w = fun y => matProd X W (E y) :=
  funext fun y => matProd_rows X W x w r hx hw y (E y) (hE0 y) (hE1 y)

/-! ## Region 4: the first graph's membership matrix times its node features -/

/-- The body's stored value: its first block times its second. -/
theorem pay4_eq (x0 : FVec Ideal ⟨2, ![16, 100000]⟩ .f32) (x1 : FVec Ideal ⟨2, ![100000, 48]⟩ .bf16) :
    k4_pay1 (F := Ideal) x0 x1 = matProd x0 (x1 : (⟨2, ![100000, 48]⟩ : Shape).Idx → EReal) := by
  unfold k4_pay1
  dsimp only
  rw [shapeCast_self]
  exact matmul_bf16_eq _ rfl rfl rfl rfl rfl rfl _ _ _

/-- The printed index maps over the grid: point t's blocks of the first and last windows are block row t, the second
    window's block is the whole feature matrix. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The first window's block at point t is rows 16 t, …, 16 t + 15 of its array. -/
theorem blk4_0 (c : Dev nD) (t : Fin cfg4.N) (p : Fin 16) (k : Fin 100000) (hp : 16 * t.val + p.val < 512) :
    (iblk4 V c 0 t : FVec Ideal ⟨2, ![16, 100000]⟩ .f32) (ix2 p k)
      = (V c main_arg2 : S512x100000.Idx → EReal) (ix2 ⟨16 * t.val + p.val, hp⟩ k) := by
  obtain ⟨e0, e1, -⟩ := idx_facts4 t
  unfold iblk4
  rw [View.read_apply]
  show (V c main_arg2 : S512x100000.Idx → EReal) _ = _
  refine congrArg (V c main_arg2 : S512x100000.Idx → EReal) (funext fun a => Fin.ext ?_)
  match a with
  | ⟨0, _⟩ => show win4_0.index t (0 : Fin 2) * 16 + 1 * p.val = 16 * t.val + p.val; rw [e0]; omega
  | ⟨1, _⟩ => show win4_0.index t (1 : Fin 2) * 100000 + 1 * k.val = k.val; rw [e1]; omega

/-- The second window's block at every point is its whole array. -/
theorem blk4_1 (c : Dev nD) (t : Fin cfg4.N) (z : S100000x48.Idx) :
    (iblk4 V c 1 t : (⟨2, ![100000, 48]⟩ : Shape).Idx → EReal) z = (V c main_v99 : S100000x48.Idx → EReal) z := by
  obtain ⟨-, -, e0, e1, -⟩ := idx_facts4 t
  unfold iblk4
  rw [View.read_apply]
  show (V c main_v99 : S100000x48.Idx → EReal) _ = _
  refine congrArg (V c main_v99 : S100000x48.Idx → EReal) (funext fun a => Fin.ext ?_)
  match a with
  | ⟨0, _⟩ => show win4_1.index t (0 : Fin 2) * 100000 + 1 * (z 0).val = (z 0).val; rw [e0]; omega
  | ⟨1, _⟩ => show win4_1.index t (1 : Fin 2) * 48 + 1 * (z 1).val = (z 1).val; rw [e1]; omega

/-- A function of the result array's index, read where point t's block sits, is what a write-back of that block moves. -/
theorem cut_read4 (t : Fin cfg4.N) (G : S512x48.Idx → EReal) :
    (cfg4.win 2).cut (grid4.coords t) (fun y => G (((cfg4.win 2).blk t).view.emb y))
      = ((cfg4.win 2).blk t).view.read (Elt Ideal) G := rfl

/-- What point t writes back is block t of the product of the membership matrix with the node features. -/
theorem flushed4_eq (c : Dev nD) (t : Fin cfg4.N) :
    (dat4 (F := Ideal) V c).flushed 2 t = ((cfg4.win 2).blk t).view.read (Elt Ideal)
      (matProd (V c main_arg2 : S512x100000.Idx → EReal) (V c main_v99 : S100000x48.Idx → EReal)) := by
  show (cfg4.win 2).cut (grid4.coords t) ((dat4 (F := Ideal) V c).after 2 t) = _
  rw [after4_2]
  unfold out4_2
  rw [View.canon_unit_zero zero_off45]
  simp only [View.ld_unit_zero (S := S16x100000) zero_off45, View.ld_unit_zero (S := S100000x48) zero_off45]
  rw [pay4_eq]
  obtain ⟨-, -, -, -, e0, e1⟩ := idx_facts4 t
  have ht : t.val < 32 := t.isLt
  rw [band_eq (M := 512) (K := 100000) (N := 48) (T := 16)
    (V c main_arg2 : S512x100000.Idx → EReal) (V c main_v99 : S100000x48.Idx → EReal)
    (iblk4 V c 0 t : FVec Ideal ⟨2, ![16, 100000]⟩ .f32) (iblk4 V c 1 t : (⟨2, ![100000, 48]⟩ : Shape).Idx → EReal)
    (16 * t.val) (fun p k hp => blk4_0 V c t p k hp) (fun z => blk4_1 V c t z)
    (fun y => ((cfg4.win 2).blk t).view.emb y)
    (fun y => by
      have hy0 : (y 0).val < 16 := (y 0).isLt
      show win4_2.index t (0 : Fin 2) * 16 + 1 * (y 0).val = 16 * t.val + (y 0).val; rw [e0]; omega)
    (fun y => by show win4_2.index t (1 : Fin 2) * 48 + 1 * (y 1).val = (y 1).val; rw [e1]; omega)]
  exact cut_read4 t _

/-- Every row lies in the block of the point that is the row's quotient by 16. -/
theorem cover4 (i : S512x48.Idx) :
    ∃ t : Fin cfg4.N, (cfg4.win 2).flush t = true ∧ i ∈ ((cfg4.win 2).blk t).view.set := by
  have hi0 : (i 0).val < 512 := (i 0).isLt
  have hi1 : (i 1).val < 48 := (i 1).isLt
  obtain ⟨t, ht⟩ : ∃ t : Fin cfg4.N, t.val = (i 0).val / 16 :=
    ⟨⟨(i 0).val / 16, by show (i 0).val / 16 < 32; omega⟩, rfl⟩
  obtain ⟨-, -, -, -, e0, e1⟩ := idx_facts4 t
  refine ⟨t, flush4_2 t, ?_⟩
  show i ∈ ((View.whole main_v102).slice (win4_2.rect t)).set
  rw [View.set_slice_whole, Rect.mem_set_unit]
  intro a
  match a with
  | ⟨0, _⟩ =>
    show win4_2.index t (0 : Fin 2) * 16 ≤ (i 0).val ∧ (i 0).val < win4_2.index t (0 : Fin 2) * 16 + 16
    rw [e0, ht]; omega
  | ⟨1, _⟩ =>
    show win4_2.index t (1 : Fin 2) * 48 ≤ (i 1).val ∧ (i 1).val < win4_2.index t (1 : Fin 2) * 48 + 48
    rw [e1]; omega

/-- After the region its result array is the product of the membership matrix with the node features. -/
theorem final4 (c : Dev nD) : (dat4 (F := Ideal) V c).arrAt 2 cfg4.N
    = matProd (V c main_arg2 : S512x100000.Idx → EReal) (V c main_v99 : S100000x48.Idx → EReal) :=
  (dat4 (F := Ideal) V c).arrAt_eq_of_cover 2 _ (fun t _ => flushed4_eq V c t) cover4

/-! ## Region 5: the second graph's membership matrix times its node features -/

/-- The body's stored value: its first block times its second. -/
theorem pay5_eq (x0 : FVec Ideal ⟨2, ![16, 100000]⟩ .f32) (x1 : FVec Ideal ⟨2, ![100000, 48]⟩ .bf16) :
    k5_pay1 (F := Ideal) x0 x1 = matProd x0 (x1 : (⟨2, ![100000, 48]⟩ : Shape).Idx → EReal) := by
  unfold k5_pay1
  dsimp only
  rw [shapeCast_self]
  exact matmul_bf16_eq _ rfl rfl rfl rfl rfl rfl _ _ _

/-- The printed index maps over the grid: point t's blocks of the first and last windows are block row t, the second
    window's block is the whole feature matrix. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The first window's block at point t is rows 16 t, …, 16 t + 15 of its array. -/
theorem blk5_0 (c : Dev nD) (t : Fin cfg5.N) (p : Fin 16) (k : Fin 100000) (hp : 16 * t.val + p.val < 512) :
    (iblk5 V c 0 t : FVec Ideal ⟨2, ![16, 100000]⟩ .f32) (ix2 p k)
      = (V c main_arg3 : S512x100000.Idx → EReal) (ix2 ⟨16 * t.val + p.val, hp⟩ k) := by
  obtain ⟨e0, e1, -⟩ := idx_facts5 t
  unfold iblk5
  rw [View.read_apply]
  show (V c main_arg3 : S512x100000.Idx → EReal) _ = _
  refine congrArg (V c main_arg3 : S512x100000.Idx → EReal) (funext fun a => Fin.ext ?_)
  match a with
  | ⟨0, _⟩ => show win5_0.index t (0 : Fin 2) * 16 + 1 * p.val = 16 * t.val + p.val; rw [e0]; omega
  | ⟨1, _⟩ => show win5_0.index t (1 : Fin 2) * 100000 + 1 * k.val = k.val; rw [e1]; omega

/-- The second window's block at every point is its whole array. -/
theorem blk5_1 (c : Dev nD) (t : Fin cfg5.N) (z : S100000x48.Idx) :
    (iblk5 V c 1 t : (⟨2, ![100000, 48]⟩ : Shape).Idx → EReal) z = (V c main_v101 : S100000x48.Idx → EReal) z := by
  obtain ⟨-, -, e0, e1, -⟩ := idx_facts5 t
  unfold iblk5
  rw [View.read_apply]
  show (V c main_v101 : S100000x48.Idx → EReal) _ = _
  refine congrArg (V c main_v101 : S100000x48.Idx → EReal) (funext fun a => Fin.ext ?_)
  match a with
  | ⟨0, _⟩ => show win5_1.index t (0 : Fin 2) * 100000 + 1 * (z 0).val = (z 0).val; rw [e0]; omega
  | ⟨1, _⟩ => show win5_1.index t (1 : Fin 2) * 48 + 1 * (z 1).val = (z 1).val; rw [e1]; omega

/-- A function of the result array's index, read where point t's block sits, is what a write-back of that block moves. -/
theorem cut_read5 (t : Fin cfg5.N) (G : S512x48.Idx → EReal) :
    (cfg5.win 2).cut (grid5.coords t) (fun y => G (((cfg5.win 2).blk t).view.emb y))
      = ((cfg5.win 2).blk t).view.read (Elt Ideal) G := rfl

/-- What point t writes back is block t of the product of the membership matrix with the node features. -/
theorem flushed5_eq (c : Dev nD) (t : Fin cfg5.N) :
    (dat5 (F := Ideal) V c).flushed 2 t = ((cfg5.win 2).blk t).view.read (Elt Ideal)
      (matProd (V c main_arg3 : S512x100000.Idx → EReal) (V c main_v101 : S100000x48.Idx → EReal)) := by
  show (cfg5.win 2).cut (grid5.coords t) ((dat5 (F := Ideal) V c).after 2 t) = _
  rw [after5_2]
  unfold out5_2
  rw [View.canon_unit_zero zero_off45]
  simp only [View.ld_unit_zero (S := S16x100000) zero_off45, View.ld_unit_zero (S := S100000x48) zero_off45]
  rw [pay5_eq]
  obtain ⟨-, -, -, -, e0, e1⟩ := idx_facts5 t
  have ht : t.val < 32 := t.isLt
  rw [band_eq (M := 512) (K := 100000) (N := 48) (T := 16)
    (V c main_arg3 : S512x100000.Idx → EReal) (V c main_v101 : S100000x48.Idx → EReal)
    (iblk5 V c 0 t : FVec Ideal ⟨2, ![16, 100000]⟩ .f32) (iblk5 V c 1 t : (⟨2, ![100000, 48]⟩ : Shape).Idx → EReal)
    (16 * t.val) (fun p k hp => blk5_0 V c t p k hp) (fun z => blk5_1 V c t z)
    (fun y => ((cfg5.win 2).blk t).view.emb y)
    (fun y => by
      have hy0 : (y 0).val < 16 := (y 0).isLt
      show win5_2.index t (0 : Fin 2) * 16 + 1 * (y 0).val = 16 * t.val + (y 0).val; rw [e0]; omega)
    (fun y => by show win5_2.index t (1 : Fin 2) * 48 + 1 * (y 1).val = (y 1).val; rw [e1]; omega)]
  exact cut_read5 t _

/-- Every row lies in the block of the point that is the row's quotient by 16. -/
theorem cover5 (i : S512x48.Idx) :
    ∃ t : Fin cfg5.N, (cfg5.win 2).flush t = true ∧ i ∈ ((cfg5.win 2).blk t).view.set := by
  have hi0 : (i 0).val < 512 := (i 0).isLt
  have hi1 : (i 1).val < 48 := (i 1).isLt
  obtain ⟨t, ht⟩ : ∃ t : Fin cfg5.N, t.val = (i 0).val / 16 :=
    ⟨⟨(i 0).val / 16, by show (i 0).val / 16 < 32; omega⟩, rfl⟩
  obtain ⟨-, -, -, -, e0, e1⟩ := idx_facts5 t
  refine ⟨t, flush5_2 t, ?_⟩
  show i ∈ ((View.whole main_v103).slice (win5_2.rect t)).set
  rw [View.set_slice_whole, Rect.mem_set_unit]
  intro a
  match a with
  | ⟨0, _⟩ =>
    show win5_2.index t (0 : Fin 2) * 16 ≤ (i 0).val ∧ (i 0).val < win5_2.index t (0 : Fin 2) * 16 + 16
    rw [e0, ht]; omega
  | ⟨1, _⟩ =>
    show win5_2.index t (1 : Fin 2) * 48 ≤ (i 1).val ∧ (i 1).val < win5_2.index t (1 : Fin 2) * 48 + 48
    rw [e1]; omega

/-- After the region its result array is the product of the membership matrix with the node features. -/
theorem final5 (c : Dev nD) : (dat5 (F := Ideal) V c).arrAt 2 cfg5.N
    = matProd (V c main_arg3 : S512x100000.Idx → EReal) (V c main_v101 : S100000x48.Idx → EReal) :=
  (dat5 (F := Ideal) V c).arrAt_eq_of_cover 2 _ (fun t _ => flushed5_eq V c t) cover5

end Cert.Gcn.K

end
-- ==== Proof.KRegion6.lean ====
/-
  The last region of the idealized kernel as one function of whole arrays. Its grid has one point, and every window's
  block at that point is its whole array: the pooled features, three weight matrices and three one-row biases. The
  body multiplies by the first weights, adds the first bias down the rows and clamps below at zero, does the same
  with the second weights and bias, multiplies by the third weights and adds the third bias; narrowing a product's
  operands changes nothing on exact values. So the result array after the region is that function of the seven
  arrays as the region finds them.
-/
import proofs.«115691_j25890062860848_2_alg».proof.Proof.Gen.KernelIdeal.Frame
import proofs.«115691_j25890062860848_2_alg».proof.Proof.GcnSpec
import Idealize.ShloMosaic.Lib.Pipeline.Value

set_option maxRecDepth 16384

noncomputable section

namespace Cert.Gcn.K

open Cert.KernelIdeal Cert.KernelIdeal.Gen Idealize.ShloMosaic Idealize.ShloMosaic.TcCoe Idealize.ShloMosaic.ValueIdx Cert.LibMatProd Cert.LibRowScale Cert.LibBiasRelu Cert.LibGcnLayout Cert.Gcn
open Idealize.ShloMosaic.Pipeline (Dat)

variable (V : (c : Dev nD) → (b : Ref sig .tc) → Buf (Elt Ideal) ((c : Thread nD τ).loc b))

/-- The zero offsets of the body's whole-buffer accesses, as a constant function. -/
theorem zero_off6 : (![0, 0] : Fin 2 → Nat) = fun _ => 0 := funext fun a => by fin_cases a <;> rfl

/-- The body's stored value: three dense layers of its first block, the first two clamped below at zero. -/
theorem pay6_eq (x0 : FVec Ideal ⟨2, ![512, 96]⟩ .f32) (x1 : FVec Ideal ⟨2, ![96, 64]⟩ .f32)
    (x2 : FVec Ideal ⟨2, ![1, 64]⟩ .f32) (x3 : FVec Ideal ⟨2, ![64, 16]⟩ .f32) (x4 : FVec Ideal ⟨2, ![1, 16]⟩ .f32)
    (x5 : FVec Ideal ⟨2, ![16, 1]⟩ .f32) (x6 : FVec Ideal ⟨2, ![1, 1]⟩ .f32) :
    k6_pay1 (F := Ideal) x0 x1 x2 x3 x4 x5 x6
      = rowBias (matProd (biasRelu (matProd (biasRelu (matProd x0 x1) x2) x3) x4) x5) x6 := by
  unfold k6_pay1
  dsimp only
  rw [shapeCast_self x0, matmul_eq _ rfl rfl rfl rfl rfl rfl x0 x1, biasRelu_vector (matProd x0 x1) x2,
    matmul_eq _ rfl rfl rfl rfl rfl rfl (biasRelu (matProd x0 x1) x2) x3,
    biasRelu_vector (matProd (biasRelu (matProd x0 x1) x2) x3) x4,
    matmul_eq _ rfl rfl rfl rfl rfl rfl (biasRelu (matProd (biasRelu (matProd x0 x1) x2) x3) x4) x5]
  exact rowBias_vector _ x6 _ _

/-- The printed index maps at the grid's one point: every window's block is block (0, 0). -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- The first window's block at the one point is its whole array. -/
theorem blk6_0 (c : Dev nD) (t : Fin cfg6.N) :
    (iblk6 V c 0 t : FVec Ideal ⟨2, ![512, 96]⟩ .f32) = (V c main_v104 : S512x96.Idx → EReal) := by
  obtain ⟨e0, e1, -⟩ := idx_facts6 t
  funext z
  unfold iblk6
  rw [View.read_apply]
  show (V c main_v104 : S512x96.Idx → EReal) _ = _
  refine congrArg (V c main_v104 : S512x96.Idx → EReal) (funext fun a => Fin.ext ?_)
  match a with
  | ⟨0, _⟩ => show win6_0.index t (0 : Fin 2) * 512 + 1 * (z 0).val = (z 0).val; rw [e0]; omega
  | ⟨1, _⟩ => show win6_0.index t (1 : Fin 2) * 96 + 1 * (z 1).val = (z 1).val; rw [e1]; omega

/-- The second window's block at the one point is its whole array. -/
theorem blk6_1 (c : Dev nD) (t : Fin cfg6.N) :
    (iblk6 V c 1 t : FVec Ideal ⟨2, ![96, 64]⟩ .f32) = (V c main_arg12 : S96x64.Idx → EReal) := by
  obtain ⟨-, -, e0, e1, -⟩ := idx_facts6 t
  funext z
  unfold iblk6
  rw [View.read_apply]
  show (V c main_arg12 : S96x64.Idx → EReal) _ = _
  refine congrArg (V c main_arg12 : S96x64.Idx → EReal) (funext fun a => Fin.ext ?_)
  match a with
  | ⟨0, _⟩ => show win6_1.index t (0 : Fin 2) * 96 + 1 * (z 0).val = (z 0).val; rw [e0]; omega
  | ⟨1, _⟩ => show win6_1.index t (1 : Fin 2) * 64 + 1 * (z 1).val = (z 1).val; rw [e1]; omega

/-- The third window's block at the one point is its whole array. -/
theorem blk6_2 (c : Dev nD) (t : Fin cfg6.N) :
    (iblk6 V c 2 t : FVec Ideal ⟨2, ![1, 64]⟩ .f32) = (V c main_v105 : S1x64.Idx → EReal) := by
  obtain ⟨-, -, -, -, e0, e1, -⟩ := idx_facts6 t
  funext z
  unfold iblk6
  rw [View.read_apply]
  show (V c main_v105 : S1x64.Idx → EReal) _ = _
  refine congrArg (V c main_v105 : S1x64.Idx → EReal) (funext fun a => Fin.ext ?_)
  match a with
  | ⟨0, _⟩ => show win6_2.index t (0 : Fin 2) * 1 + 1 * (z 0).val = (z 0).val; rw [e0]; omega
  | ⟨1, _⟩ => show win6_2.index t (1 : Fin 2) * 64 + 1 * (z 1).val = (z 1).val; rw [e1]; omega

/-- The fourth window's block at the one point is its whole array. -/
theorem blk6_3 (c : Dev nD) (t : Fin cfg6.N) :
    (iblk6 V c 3 t : FVec Ideal ⟨2, ![64, 16]⟩ .f32) = (V c main_arg14 : S64x16.Idx → EReal) := by
  obtain ⟨-, -, -, -, -, -, e0, e1, -⟩ := idx_facts6 t
  funext z
  unfold iblk6
  rw [View.read_apply]
  show (V c main_arg14 : S64x16.Idx → EReal) _ = _
  refine congrArg (V c main_arg14 : S64x16.Idx → EReal) (funext fun a => Fin.ext ?_)
  match a with
  | ⟨0, _⟩ => show win6_3.index t (0 : Fin 2) * 64 + 1 * (z 0).val = (z 0).val; rw [e0]; omega
  | ⟨1, _⟩ => show win6_3.index t (1 : Fin 2) * 16 + 1 * (z 1).val = (z 1).val; rw [e1]; omega

/-- The fifth window's block at the one point is its whole array. -/
theorem blk6_4 (c : Dev nD) (t : Fin cfg6.N) :
    (iblk6 V c 4 t : FVec Ideal ⟨2, ![1, 16]⟩ .f32) = (V c main_v106 : S1x16.Idx → EReal) := by
  obtain ⟨-, -, -, -, -, -, -, -, e0, e1, -⟩ := idx_facts6 t
  funext z
  unfold iblk6
  rw [View.read_apply]
  show (V c main_v106 : S1x16.Idx → EReal) _ = _
  refine congrArg (V c main_v106 : S1x16.Idx → EReal) (funext fun a => Fin.ext ?_)
  match a with
  | ⟨0, _⟩ => show win6_4.index t (0 : Fin 2) * 1 + 1 * (z 0).val = (z 0).val; rw [e0]; omega
  | ⟨1, _⟩ => show win6_4.index t (1 : Fin 2) * 16 + 1 * (z 1).val = (z 1).val; rw [e1]; omega

/-- The sixth window's block at the one point is its whole array. -/
theorem blk6_5 (c : Dev nD) (t : Fin cfg6.N) :
    (iblk6 V c 5 t : FVec Ideal ⟨2, ![16, 1]⟩ .f32) = (V c main_arg16 : S16x1.Idx → EReal) := by
  obtain ⟨-, -, -, -, -, -, -, -, -, -, e0, e1, -⟩ := idx_facts6 t
  funext z
  unfold iblk6
  rw [View.read_apply]
  show (V c main_arg16 : S16x1.Idx → EReal) _ = _
  refine congrArg (V c main_arg16 : S16x1.Idx → EReal) (funext fun a => Fin.ext ?_)
  match a with
  | ⟨0, _⟩ => show win6_5.index t (0 : Fin 2) * 16 + 1 * (z 0).val = (z 0).val; rw [e0]; omega
  | ⟨1, _⟩ => show win6_5.index t (1 : Fin 2) * 1 + 1 * (z 1).val = (z 1).val; rw [e1]; omega

/-- The seventh window's block at the one point is its whole array. -/
theorem blk6_6 (c : Dev nD) (t : Fin cfg6.N) :
    (iblk6 V c 6 t : FVec Ideal ⟨2, ![1, 1]⟩ .f32) = (V c main_v107 : S1x1.Idx → EReal) := by
  obtain ⟨-, -, -, -, -, -, -, -, -, -, -, -, e0, e1, -⟩ := idx_facts6 t
  funext z
  unfold iblk6
  rw [View.read_apply]
  show (V c main_v107 : S1x1.Idx → EReal) _ = _
  refine congrArg (V c main_v107 : S1x1.Idx → EReal) (funext fun a => Fin.ext ?_)
  match a with
  | ⟨0, _⟩ => show win6_6.index t (0 : Fin 2) * 1 + 1 * (z 0).val = (z 0).val; rw [e0]; omega
  | ⟨1, _⟩ => show win6_6.index t (1 : Fin 2) * 1 + 1 * (z 1).val = (z 1).val; rw [e1]; omega

/-- The three dense layers over the seven arrays as the region finds them. -/
def dense6 (c : Dev nD) : FVec Ideal ⟨2, ![512, 1]⟩ .f32 :=
  rowBias (matProd (biasRelu (matProd (biasRelu (matProd (V c main_v104 : S512x96.Idx → EReal) (V c main_arg12 : S96x64.Idx → EReal))
        (V c main_v105 : S1x64.Idx → EReal)) (V c main_arg14 : S64x16.Idx → EReal))
      (V c main_v106 : S1x16.Idx → EReal)) (V c main_arg16 : S16x1.Idx → EReal))
    (V c main_v107 : S1x1.Idx → EReal)

/-- What the one point writes back is the whole of the three dense layers' result. -/
theorem flushed6_eq (c : Dev nD) (t : Fin cfg6.N) :
    (dat6 (F := Ideal) V c).flushed 7 t = ((cfg6.win 7).blk t).view.read (Elt Ideal) (dense6 V c) := by
  show (cfg6.win 7).cut (grid6.coords t) ((dat6 (F := Ideal) V c).after 7 t) = _
  rw [after6_7]
  unfold out6_7
  rw [View.canon_unit_zero zero_off6]
  simp only [View.ld_unit_zero (S := S512x96) zero_off6, View.ld_unit_zero (S := S96x64) zero_off6,
    View.ld_unit_zero (S := S1x64) zero_off6, View.ld_unit_zero (S := S64x16) zero_off6,
    View.ld_unit_zero (S := S1x16) zero_off6, View.ld_unit_zero (S := S16x1) zero_off6,
    View.ld_unit_zero (S := S1x1) zero_off6]
  rw [pay6_eq, blk6_0 V c t, blk6_1 V c t, blk6_2 V c t, blk6_3 V c t, blk6_4 V c t, blk6_5 V c t, blk6_6 V c t]
  obtain ⟨-, -, -, -, -, -, -, -, -, -, -, -, -, -, e0, e1⟩ := idx_facts6 t
  funext y
  rw [View.read_apply]
  show dense6 V c y = dense6 V c _
  refine congrArg (dense6 V c) (funext fun a => Fin.ext ?_)
  match a with
  | ⟨0, _⟩ => show (y 0).val = win6_7.index t (0 : Fin 2) * 512 + 1 * (y 0).val; rw [e0]; omega
  | ⟨1, _⟩ => show (y 1).val = win6_7.index t (1 : Fin 2) * 1 + 1 * (y 1).val; rw [e1]; omega

/-- Every entry of the result array lies in the one point's block. -/
theorem cover6 (i : S512x1.Idx) :
    ∃ t : Fin cfg6.N, (cfg6.win 7).flush t = true ∧ i ∈ ((cfg6.win 7).blk t).view.set := by
  have hi0 : (i 0).val < 512 := (i 0).isLt
  have hi1 : (i 1).val < 1 := (i 1).isLt
  obtain ⟨-, -, -, -, -, -, -, -, -, -, -, -, -, -, e0, e1⟩ := idx_facts6 t6_0
  refine ⟨t6_0, flush6_7 t6_0, ?_⟩
  show i ∈ ((View.whole main_v108).slice (win6_7.rect t6_0)).set
  rw [View.set_slice_whole, Rect.mem_set_unit]
  intro a
  match a with
  | ⟨0, _⟩ =>
    show win6_7.index t6_0 (0 : Fin 2) * 512 ≤ (i 0).val ∧ (i 0).val < win6_7.index t6_0 (0 : Fin 2) * 512 + 512
    rw [e0]; omega
  | ⟨1, _⟩ =>
    show win6_7.index t6_0 (1 : Fin 2) * 1 ≤ (i 1).val ∧ (i 1).val < win6_7.index t6_0 (1 : Fin 2) * 1 + 1
    rw [e1]; omega

/-- After the region its result array is the three dense layers of the pooled features. -/
theorem final6 (c : Dev nD) : (dat6 (F := Ideal) V c).arrAt 7 cfg6.N
    = rowBias (matProd (biasRelu (matProd (biasRelu (matProd (V c main_v104 : S512x96.Idx → EReal) (V c main_arg12 : S96x64.Idx → EReal))
        (V c main_v105 : S1x64.Idx → EReal)) (V c main_arg14 : S64x16.Idx → EReal))
      (V c main_v106 : S1x16.Idx → EReal)) (V c main_arg16 : S16x1.Idx → EReal))
    (V c main_v107 : S1x1.Idx → EReal) :=
  (dat6 (F := Ideal) V c).arrAt_eq_of_cover 7 (dense6 V c) (fun t _ => flushed6_eq V c t) cover6

end Cert.Gcn.K

end
-- ==== Proof.KChainTail.lean ====
/-
  The end of the idealized kernel's run, from the two arrays of node features the pooling regions are entered with.

  Each pooling region multiplies a graph's membership matrix by that graph's node features; nothing between the first
  boundary and these regions writes the membership matrices, so they are the launch arguments. The host then joins the
  two products side by side and re-lays each of the three bias vectors as one row, and the last region applies the
  three dense layers to them: the result array ends holding the dense head of the joined products, with the launch
  arguments as weights and biases. Every buffer is carried back through the regions and host stretches that do not
  write it.
-/
import proofs.«115691_j25890062860848_2_alg».proof.Proof.Gen.KernelIdeal.Frame
import proofs.«115691_j25890062860848_2_alg».proof.Proof.KDefs
import proofs.«115691_j25890062860848_2_alg».proof.Proof.KChainA
import proofs.«115691_j25890062860848_2_alg».proof.Proof.KKeep
import proofs.«115691_j25890062860848_2_alg».proof.Proof.KRegions45
import proofs.«115691_j25890062860848_2_alg».proof.Proof.KRegion6
import Idealize.ShloMosaic.Lib.StableHlo.Run

set_option maxRecDepth 16384

noncomputable section

namespace Cert.Gcn.K

open Cert.KernelIdeal Cert.KernelIdeal.Gen Idealize.ShloMosaic Idealize.ShloMosaic.TcCoe Idealize.ShloMosaic.StableHlo Idealize.SL.Sem
open Idealize.ShloMosaic.ValueIdx Cert.LibMatProd Cert.LibRowScale Cert.LibBiasRelu Cert.LibGcnLayout Cert.Gcn

variable (m : (ℓ : Loc nD τ sig) → Buf (Elt Ideal) ℓ) (ρ : Dev nD → PrngReg) (c : Dev nD)

/-! ## Carrying a buffer back to the first boundary -/

/-- A buffer that neither the first four regions nor the host stretches up to the pooling regions write holds at the
    first pooling region's entry what it held at the first boundary. -/
theorem tl_back11 (b : Ref sig .tc) (h0 : b ≠ main_v32) (h1 : b ∉ wl1) (h1' : b ∉ wl1_1) (h2 : b ≠ main_v49)
    (h3 : b ∉ wl2) (h3' : b ∉ wl2_1) (h4 : b ≠ main_v66) (h5 : b ∉ wl3) (h6 : b ≠ main_v82) (h7 : b ∉ wl4) :
    W11 (F := Ideal) m ρ c (Proc.devRef .tc b) = W1 (F := Ideal) m ρ c (Proc.devRef .tc b) :=
  (keep4 m ρ c b h7).trans ((thru3 m ρ c b h6).trans ((keep3 m ρ c b h5).trans ((thru2 m ρ c b h4).trans
    ((keep2_1 m ρ c b h3').trans ((keep2 m ρ c b h3).trans ((thru1 m ρ c b h2).trans ((keep1_1 m ρ c b h1').trans
      ((keep1 m ρ c b h1).trans (thru0 m ρ c b h0)))))))))

/-- The same up to the second pooling region's exit, for a buffer the pooling regions do not write either. -/
theorem tl_back13 (b : Ref sig .tc) (h0 : b ≠ main_v32) (h1 : b ∉ wl1) (h1' : b ∉ wl1_1) (h2 : b ≠ main_v49)
    (h3 : b ∉ wl2) (h3' : b ∉ wl2_1) (h4 : b ≠ main_v66) (h5 : b ∉ wl3) (h6 : b ≠ main_v82) (h7 : b ∉ wl4)
    (h8 : b ≠ main_v102) (h9 : b ≠ main_v103) :
    W13 (F := Ideal) m ρ c (Proc.devRef .tc b) = W1 (F := Ideal) m ρ c (Proc.devRef .tc b) :=
  (thru5 m ρ c b h9).trans ((thru4 m ρ c b h8).trans (tl_back11 m ρ c b h0 h1 h1' h2 h3 h3' h4 h5 h6 h7))

/-- The same up to the last region's entry, for a buffer the last host stretch does not write either. -/
theorem tl_back14 (b : Ref sig .tc) (h0 : b ≠ main_v32) (h1 : b ∉ wl1) (h1' : b ∉ wl1_1) (h2 : b ≠ main_v49)
    (h3 : b ∉ wl2) (h3' : b ∉ wl2_1) (h4 : b ≠ main_v66) (h5 : b ∉ wl3) (h6 : b ≠ main_v82) (h7 : b ∉ wl4)
    (h8 : b ≠ main_v102) (h9 : b ≠ main_v103) (h10 : b ∉ wl6) :
    W14 (F := Ideal) m ρ c (Proc.devRef .tc b) = W1 (F := Ideal) m ρ c (Proc.devRef .tc b) :=
  (keep6 m ρ c b h10).trans (tl_back13 m ρ c b h0 h1 h1' h2 h3 h3' h4 h5 h6 h7 h8 h9)

/-! ## The launch arguments where the last three regions and the last host stretch read them -/

theorem tl_w11_arg2 : W11 (F := Ideal) m ρ c (Proc.devRef .tc main_arg2) = (m ((c : Thread nD τ).loc main_arg2)) :=
  (tl_back11 m ρ c main_arg2 (by decide) (by decide) (by decide) (by decide) (by decide) (by decide) (by decide)
    (by decide) (by decide) (by decide)).trans (w1_arg2 m ρ c)

theorem tl_w12_arg3 : W12 (F := Ideal) m ρ c (Proc.devRef .tc main_arg3) = (m ((c : Thread nD τ).loc main_arg3)) :=
  (thru4 m ρ c main_arg3 (by decide)).trans ((tl_back11 m ρ c main_arg3 (by decide) (by decide) (by decide) (by decide)
    (by decide) (by decide) (by decide) (by decide) (by decide) (by decide)).trans (w1_arg3 m ρ c))

theorem tl_w13_arg13 : W13 (F := Ideal) m ρ c (Proc.devRef .tc main_arg13) = (m ((c : Thread nD τ).loc main_arg13)) :=
  (tl_back13 m ρ c main_arg13 (by decide) (by decide) (by decide) (by decide) (by decide) (by decide) (by decide)
    (by decide) (by decide) (by decide) (by decide) (by decide)).trans (w1_arg13 m ρ c)

theorem tl_w13_arg15 : W13 (F := Ideal) m ρ c (Proc.devRef .tc main_arg15) = (m ((c : Thread nD τ).loc main_arg15)) :=
  (tl_back13 m ρ c main_arg15 (by decide) (by decide) (by decide) (by decide) (by decide) (by decide) (by decide)
    (by decide) (by decide) (by decide) (by decide) (by decide)).trans (w1_arg15 m ρ c)

theorem tl_w13_arg17 : W13 (F := Ideal) m ρ c (Proc.devRef .tc main_arg17) = (m ((c : Thread nD τ).loc main_arg17)) :=
  (tl_back13 m ρ c main_arg17 (by decide) (by decide) (by decide) (by decide) (by decide) (by decide) (by decide)
    (by decide) (by decide) (by decide) (by decide) (by decide)).trans (w1_arg17 m ρ c)

theorem tl_w14_arg12 : W14 (F := Ideal) m ρ c (Proc.devRef .tc main_arg12) = (m ((c : Thread nD τ).loc main_arg12)) :=
  (tl_back14 m ρ c main_arg12 (by decide) (by decide) (by decide) (by decide) (by decide) (by decide) (by decide)
    (by decide) (by decide) (by decide) (by decide) (by decide) (by decide)).trans (w1_arg12 m ρ c)

theorem tl_w14_arg14 : W14 (F := Ideal) m ρ c (Proc.devRef .tc main_arg14) = (m ((c : Thread nD τ).loc main_arg14)) :=
  (tl_back14 m ρ c main_arg14 (by decide) (by decide) (by decide) (by decide) (by decide) (by decide) (by decide)
    (by decide) (by decide) (by decide) (by decide) (by decide) (by decide)).trans (w1_arg14 m ρ c)

theorem tl_w14_arg16 : W14 (F := Ideal) m ρ c (Proc.devRef .tc main_arg16) = (m ((c : Thread nD τ).loc main_arg16)) :=
  (tl_back14 m ρ c main_arg16 (by decide) (by decide) (by decide) (by decide) (by decide) (by decide) (by decide)
    (by decide) (by decide) (by decide) (by decide) (by decide) (by decide)).trans (w1_arg16 m ρ c)

/-! ## The two poolings -/

/-- The first graph's pooled features: its membership matrix times the node features the region is entered with. -/
theorem tl_w12_v102 (X99 : FVec Ideal ⟨2, ![100000, 48]⟩ .f32) (h99 : W11 (F := Ideal) m ρ c (Proc.devRef .tc main_v99) = X99) :
    W12 (F := Ideal) m ρ c (Proc.devRef .tc main_v102) = matProd (m ((c : Thread nD τ).loc main_arg2)) X99 := by
  refine (W12_arr m ρ c 2).trans ?_
  refine (final4 (V11 m ρ) c).trans ?_
  show matProd (W11 m ρ c (Proc.devRef .tc main_arg2)) (W11 m ρ c (Proc.devRef .tc main_v99)) = _
  rw [tl_w11_arg2 m ρ c, h99]

/-- The second graph's pooled features. -/
theorem tl_w13_v103 (X101 : FVec Ideal ⟨2, ![100000, 48]⟩ .f32) (h101 : W11 (F := Ideal) m ρ c (Proc.devRef .tc main_v101) = X101) :
    W13 (F := Ideal) m ρ c (Proc.devRef .tc main_v103) = matProd (m ((c : Thread nD τ).loc main_arg3)) X101 := by
  refine (W13_arr m ρ c 2).trans ?_
  refine (final5 (V12 m ρ) c).trans ?_
  show matProd (W12 m ρ c (Proc.devRef .tc main_arg3)) (W12 m ρ c (Proc.devRef .tc main_v101)) = _
  rw [tl_w12_arg3 m ρ c, (thru4 m ρ c main_v101 (by decide)).trans h101]

/-! ## The last stretch of host operations -/

/-- The two pooled matrices joined side by side. -/
theorem tl_w14_v104 (X99 X101 : FVec Ideal ⟨2, ![100000, 48]⟩ .f32)
    (h99 : W11 (F := Ideal) m ρ c (Proc.devRef .tc main_v99) = X99) (h101 : W11 (F := Ideal) m ρ c (Proc.devRef .tc main_v101) = X101) :
    W14 (F := Ideal) m ρ c (Proc.devRef .tc main_v104)
      = catCols (n := 96) rfl (matProd (m ((c : Thread nD τ).loc main_arg2)) X99) (matProd (m ((c : Thread nD τ).loc main_arg3)) X101) := by
  hops
  rw [(thru5 m ρ c main_v102 (by decide)).trans (tl_w12_v102 m ρ c X99 h99), tl_w13_v103 m ρ c X101 h101]
  exact concat2 (n := 96) rfl _ _ _

/-- The first dense layer's bias as one row. -/
theorem tl_w14_v105 : W14 (F := Ideal) m ρ c (Proc.devRef .tc main_v105) = row (m ((c : Thread nD τ).loc main_arg13)) := by
  hops
  rw [tl_w13_arg13 m ρ c]
  exact cast_row _ _

/-- The second dense layer's bias as one row. -/
theorem tl_w14_v106 : W14 (F := Ideal) m ρ c (Proc.devRef .tc main_v106) = row (m ((c : Thread nD τ).loc main_arg15)) := by
  hops
  rw [tl_w13_arg15 m ρ c]
  exact cast_row _ _

/-- The third dense layer's bias as one row. -/
theorem tl_w14_v107 : W14 (F := Ideal) m ρ c (Proc.devRef .tc main_v107) = row (m ((c : Thread nD τ).loc main_arg17)) := by
  hops
  rw [tl_w13_arg17 m ρ c]
  exact cast_row _ _

/-! ## The result -/

/-- What the run leaves in the result array: the dense head of the two pooled matrices joined side by side. -/
theorem tail_eq (X99 X101 : FVec Ideal ⟨2, ![100000, 48]⟩ .f32)
    (h99 : W11 (F := Ideal) m ρ c (Proc.devRef .tc main_v99) = X99) (h101 : W11 (F := Ideal) m ρ c (Proc.devRef .tc main_v101) = X101) :
    W15 (F := Ideal) m ρ c (Proc.devRef .tc main_v108)
      = head (catCols (n := 96) rfl (matProd (m ((c : Thread nD τ).loc main_arg2)) X99) (matProd (m ((c : Thread nD τ).loc main_arg3)) X101))
          (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W15_arr m ρ c 7).trans ?_
  refine (final6 (V14 m ρ) c).trans ?_
  show rowBias (matProd (biasRelu (matProd (biasRelu (matProd (W14 m ρ c (Proc.devRef .tc main_v104)) (W14 m ρ c (Proc.devRef .tc main_arg12)))
      (W14 m ρ c (Proc.devRef .tc main_v105))) (W14 m ρ c (Proc.devRef .tc main_arg14)))
      (W14 m ρ c (Proc.devRef .tc main_v106))) (W14 m ρ c (Proc.devRef .tc main_arg16)))
      (W14 m ρ c (Proc.devRef .tc main_v107)) = _
  rw [tl_w14_v104 m ρ c X99 X101 h99 h101, tl_w14_v105 m ρ c, tl_w14_v106 m ρ c, tl_w14_v107 m ρ c,
    tl_w14_arg12 m ρ c, tl_w14_arg14 m ρ c, tl_w14_arg16 m ρ c]
  rfl

end Cert.Gcn.K

end
-- ==== Proof.KChainD.lean ====
/-
  The end of the idealized kernel's run: the contents of the result buffer as the network function of the arguments.
-/
import proofs.«115691_j25890062860848_2_alg».proof.Proof.Gen.KernelIdeal.Frame
import proofs.«115691_j25890062860848_2_alg».proof.Proof.KDefs
import proofs.«115691_j25890062860848_2_alg».proof.Proof.KChainC
import proofs.«115691_j25890062860848_2_alg».proof.Proof.KChainTail
import Idealize.ShloMosaic.Lib.StableHlo.Run

set_option maxRecDepth 16384

noncomputable section

namespace Cert.Gcn.K

open Cert.KernelIdeal Cert.KernelIdeal.Gen Idealize.ShloMosaic Idealize.ShloMosaic.TcCoe Idealize.ShloMosaic.StableHlo Idealize.SL.Sem
open Idealize.ShloMosaic.ValueIdx Cert.LibMatProd Cert.LibRowScale Cert.LibBiasRelu Cert.LibGcnLayout Cert.Gcn

variable (m : (ℓ : Loc nD τ sig) → Buf (Elt Ideal) ℓ) (ρ : Dev nD → PrngReg) (c : Dev nD)

/-- The idealized kernel's result buffer at the end of the run holds the network function of the eighteen arguments: the
    dense head applied to the two graphs' pooled features side by side, each pooling of two layers joined side by side
    being the two poolings joined side by side. -/
theorem result_eq : W15 (F := Ideal) m ρ c (Proc.devRef .tc main_v108)
    = G K.nrm K.ag32 K.ag16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (tail_eq m ρ c _ _ (w11_v99 m ρ c) (w11_v101 m ρ c)).trans ?_
  rw [matProd_catCols, matProd_catCols]
  rfl

end Cert.Gcn.K

end
-- ==== Proof.RefValueA.lean ====
/-
  The reference program's two graph convolutions, read as whole arrays.

  The degree factor of an index array is the reciprocal square root of the larger of one and the number of edges
  that name each node; the sum over the edges reads each edge's tail row of a matrix and adds it into the edge's
  head row. The reference applies these as a scatter-add of ones, a maximum, a reciprocal square root, and as a
  gather followed by a scatter-add into zeros; they are kept here as they stand, as the functions `nrm`, `ag32`
  and `ag16`. Around them the reference multiplies by a vector broadcast first into one column and then along the
  rows (a row scaling), contracts with the weights (a matrix product), and adds a vector broadcast first into one
  row and then down the rows (a row bias, clamped below at zero in the first layer). Each of the reference's
  stages is identified with the network function's stage of the same name, first layer then second, for one graph
  at a time.
-/
import proofs.«115691_j25890062860848_2_alg».proof.Proof.Gen.ReferenceIdeal.Read
import proofs.«115691_j25890062860848_2_alg».proof.Proof.GcnSpec

noncomputable section

namespace Cert.Gcn.Ref

open Cert.ReferenceIdeal Cert.ReferenceIdeal.Gen Cert.ReferenceIdeal.Read Idealize.ShloMosaic Idealize.ShloMosaic.ValueIdx
  Cert.LibMatProd Cert.LibRowScale Cert.LibBiasRelu Cert.LibGcnLayout Cert.Gcn

/-- The degree factor of an index array: at each node, one over the square root of the larger of one and the
    number of entries of the array equal to the node. -/
def nrm : IVec SE 32 → FVec Ideal SN .f32 := fun idx =>
  Host.rsqrt (F := Ideal) (maximumf (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 idx)
      (broadcastInDim S3200000 ![] bcast_S_S3200000 (constant (F := Ideal) S_ .f32 0x3F800000#32)))
    (broadcastInDim S100000 ![] bcast_S_S100000 (constant (F := Ideal) S_ .f32 0x3F800000#32)))

/-- The sum over the edges of a 32-column matrix: row `src e` of the matrix (a negative entry counted from the
    end) added into row `dst e` of a matrix of zeros, for every edge e. -/
def ag32 (h : FVec Ideal ⟨2, ![100000, 32]⟩ .f32) (src dst : IVec SE 32) : FVec Ideal ⟨2, ![100000, 32]⟩ .f32 :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst)
    (Host.gather gather_S100000x32_S3200000x1_S3200000x32_1_0_n_n_0_1_132 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- The same sum over the edges for a 16-column matrix. -/
def ag16 (h : FVec Ideal ⟨2, ![100000, 16]⟩ .f32) (src dst : IVec SE 32) : FVec Ideal ⟨2, ![100000, 16]⟩ .f32 :=
  Host.scatterAdd (F := Ideal) scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 dst)
    (Host.gather gather_S100000x16_S3200000x1_S3200000x16_1_0_n_n_0_1_116 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-! ## Three host spellings, over any sizes -/

/-- A matrix times a vector broadcast into one column and then along the rows: the matrix scaled row by row. -/
theorem scale_host {M N : ℕ} (h : FVec Ideal ⟨2, ![M, N]⟩ .f32) (v : FVec Ideal ⟨1, ![M]⟩ .f32)
    (hb1 : (⟨1, ![M]⟩ : Shape).BroadcastsInDim ⟨2, ![M, 1]⟩ ![0])
    (hb : (⟨2, ![M, 1]⟩ : Shape).BroadcastsInDim ⟨2, ![M, N]⟩ ![0, 1]) :
    mulf h (broadcastInDim ⟨2, ![M, N]⟩ ![0, 1] hb (broadcastInDim ⟨2, ![M, 1]⟩ ![0] hb1 v)) = rowScale h (col v) := by
  rw [bcast_col, mul_broadcastInDim_eq]

/-- A matrix plus a vector broadcast into one row and then down the rows, clamped below at zero. -/
theorem biasRelu_host {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc (broadcastInDim ⟨2, ![1, N]⟩ ![1] hr b)))
        (broadcastInDim ⟨2, ![M, N]⟩ ![] h0 (constant (F := Ideal) ⟨0, ![]⟩ .f32 0x00000000#32)) = biasRelu a (row b) := by
  rw [bcast_row, host_form]

/-- A matrix plus a vector broadcast into one row and then down the rows. -/
theorem bias_host {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = rowBias a (row b) := by
  rw [bcast_row, rowBias_host]

/-! ## The two layers in the reference's spelling, over any input -/

/-- What the first layer sends along the edges. -/
theorem msg32_host (x : FVec Ideal ⟨2, ![100000, 64]⟩ .f32) (w : FVec Ideal ⟨2, ![64, 32]⟩ .f32) (src : IVec SE 32) :
    Host.dotGeneral (F := Ideal) dot_S100000x64_S64x32_S100000x32_1_0_0_1_n_n none
      (mulf x (broadcastInDim S100000x64 ![0, 1] bcast_S100000x1_S100000x64_0_1
        (broadcastInDim S100000x1 ![0] bcast_S100000_S100000x1_0 (nrm src)))) w = msg nrm x w src := by
  unfold msg
  rw [scale_host, host_dot_eq dot_S100000x64_S64x32_S100000x32_1_0_0_1_n_n rfl rfl rfl rfl rfl rfl]

/-- What the second layer sends along the edges. -/
theorem msg16_host (h : FVec Ideal ⟨2, ![100000, 32]⟩ .f32) (w : FVec Ideal ⟨2, ![32, 16]⟩ .f32) (src : IVec SE 32) :
    Host.dotGeneral (F := Ideal) dot_S100000x32_S32x16_S100000x16_1_0_0_1_n_n none
      (mulf h (broadcastInDim S100000x32 ![0, 1] bcast_S100000x1_S100000x32_0_1
        (broadcastInDim S100000x1 ![0] bcast_S100000_S100000x1_0 (nrm src)))) w = msg nrm h w src := by
  unfold msg
  rw [scale_host, host_dot_eq dot_S100000x32_S32x16_S100000x16_1_0_0_1_n_n rfl rfl rfl rfl rfl rfl]

/-- The first layer. -/
theorem conv1_host (x : FVec Ideal ⟨2, ![100000, 64]⟩ .f32) (w : FVec Ideal ⟨2, ![64, 32]⟩ .f32)
    (b : FVec Ideal ⟨1, ![32]⟩ .f32) (src dst : IVec SE 32) :
    maximumf (addf (mulf (ag32 (Host.dotGeneral (F := Ideal) dot_S100000x64_S64x32_S100000x32_1_0_0_1_n_n none
            (mulf x (broadcastInDim S100000x64 ![0, 1] bcast_S100000x1_S100000x64_0_1
              (broadcastInDim S100000x1 ![0] bcast_S100000_S100000x1_0 (nrm src)))) w) src dst)
          (broadcastInDim S100000x32 ![0, 1] bcast_S100000x1_S100000x32_0_1
            (broadcastInDim S100000x1 ![0] bcast_S100000_S100000x1_0 (nrm dst))))
        (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32))
      = conv1 nrm ag32 x w b src dst := by
  unfold conv1
  rw [msg32_host, scale_host, biasRelu_host]

/-- The second layer. -/
theorem conv2_host (h : FVec Ideal ⟨2, ![100000, 32]⟩ .f32) (w : FVec Ideal ⟨2, ![32, 16]⟩ .f32)
    (b : FVec Ideal ⟨1, ![16]⟩ .f32) (src dst : IVec SE 32) :
    addf (mulf (ag16 (Host.dotGeneral (F := Ideal) dot_S100000x32_S32x16_S100000x16_1_0_0_1_n_n none
            (mulf h (broadcastInDim S100000x32 ![0, 1] bcast_S100000x1_S100000x32_0_1
              (broadcastInDim S100000x1 ![0] bcast_S100000_S100000x1_0 (nrm src)))) w) src dst)
          (broadcastInDim S100000x16 ![0, 1] bcast_S100000x1_S100000x16_0_1
            (broadcastInDim S100000x1 ![0] bcast_S100000_S100000x1_0 (nrm dst))))
        (broadcastInDim S100000x16 ![0, 1] bcast_S1x16_S100000x16_0_1 (broadcastInDim S1x16 ![1] bcast_S16_S1x16_1 b))
      = conv2 nrm ag16 h w b src dst := by
  unfold conv2
  rw [msg16_host, scale_host, bias_host]

/-! ## The reference's stages -/

/-- The first graph's first layer. -/
theorem v48_eq (x0 : FVec Ideal ⟨2, ![100000, 64]⟩ .f32) (x4 x5 : IVec SE 32) (x8 : FVec Ideal ⟨2, ![64, 32]⟩ .f32)
    (x9 : FVec Ideal ⟨1, ![32]⟩ .f32) :
    val_main_v48 (F := Ideal) x0 x4 x5 x8 x9 = conv1 nrm ag32 x0 x8 x9 x4 x5 :=
  conv1_host x0 x8 x9 x4 x5

/-- The first graph's second layer. -/
theorem v68_eq (x0 : FVec Ideal ⟨2, ![100000, 64]⟩ .f32) (x4 x5 : IVec SE 32) (x8 : FVec Ideal ⟨2, ![64, 32]⟩ .f32)
    (x9 : FVec Ideal ⟨1, ![32]⟩ .f32) (x10 : FVec Ideal ⟨2, ![32, 16]⟩ .f32) (x11 : FVec Ideal ⟨1, ![16]⟩ .f32) :
    val_main_v68 (F := Ideal) x0 x4 x5 x8 x9 x10 x11
      = conv2 nrm ag16 (conv1 nrm ag32 x0 x8 x9 x4 x5) x10 x11 x4 x5 := by
  have e : val_main_v68 (F := Ideal) x0 x4 x5 x8 x9 x10 x11
      = conv2 nrm ag16 (val_main_v48 (F := Ideal) x0 x4 x5 x8 x9) x10 x11 x4 x5 :=
    conv2_host (val_main_v48 (F := Ideal) x0 x4 x5 x8 x9) x10 x11 x4 x5
  rw [e, v48_eq]

/-- The second graph's first layer. -/
theorem v89_eq (x1 : FVec Ideal ⟨2, ![100000, 64]⟩ .f32) (x6 x7 : IVec SE 32) (x8 : FVec Ideal ⟨2, ![64, 32]⟩ .f32)
    (x9 : FVec Ideal ⟨1, ![32]⟩ .f32) :
    val_main_v89 (F := Ideal) x1 x6 x7 x8 x9 = conv1 nrm ag32 x1 x8 x9 x6 x7 :=
  conv1_host x1 x8 x9 x6 x7

/-- The second graph's second layer. -/
theorem v109_eq (x1 : FVec Ideal ⟨2, ![100000, 64]⟩ .f32) (x6 x7 : IVec SE 32) (x8 : FVec Ideal ⟨2, ![64, 32]⟩ .f32)
    (x9 : FVec Ideal ⟨1, ![32]⟩ .f32) (x10 : FVec Ideal ⟨2, ![32, 16]⟩ .f32) (x11 : FVec Ideal ⟨1, ![16]⟩ .f32) :
    val_main_v109 (F := Ideal) x1 x6 x7 x8 x9 x10 x11
      = conv2 nrm ag16 (conv1 nrm ag32 x1 x8 x9 x6 x7) x10 x11 x6 x7 := by
  have e : val_main_v109 (F := Ideal) x1 x6 x7 x8 x9 x10 x11
      = conv2 nrm ag16 (val_main_v89 (F := Ideal) x1 x6 x7 x8 x9) x10 x11 x6 x7 :=
    conv2_host (val_main_v89 (F := Ideal) x1 x6 x7 x8 x9) x10 x11 x6 x7
  rw [e, v89_eq]

end Cert.Gcn.Ref

end
-- ==== Proof.RefValue.lean ====
/-
  The reference program's result is the network function of its eighteen argument arrays.

  After the two graph convolutions of each graph, the reference pools each layer's node features by a contraction
  with the graph's membership matrix (a matrix product), joins the four pooled matrices side by side in one
  four-piece concatenation along the columns, and applies three dense layers: a matrix product, a vector
  broadcast into one row and down the rows added, the first two clamped below at zero. A four-piece concatenation
  of widths 32, 16, 32, 16 is the first two pieces joined, beside the last two joined: a column below 48 lies in
  the first pair (below 32 in its first piece), a column from 48 on in the second pair (below 80 in its first piece).
-/
import proofs.«115691_j25890062860848_2_alg».proof.Proof.RefValueA

noncomputable section

namespace Cert.Gcn.Ref

open Cert.ReferenceIdeal Cert.ReferenceIdeal.Gen Cert.ReferenceIdeal.Read Idealize.ShloMosaic Idealize.ShloMosaic.ValueIdx
  Cert.LibMatProd Cert.LibRowScale Cert.LibBiasRelu Cert.LibGcnLayout Cert.Gcn

/-- Four matrices of widths 32, 16, 32, 16 concatenated along the columns: the first two joined side by side,
    beside the last two joined side by side. -/
theorem concat4 (a : FVec Ideal ⟨2, ![512, 32]⟩ .f32) (b : FVec Ideal ⟨2, ![512, 16]⟩ .f32)
    (c : FVec Ideal ⟨2, ![512, 32]⟩ .f32) (d : FVec Ideal ⟨2, ![512, 16]⟩ .f32)
    (h : Shape.Concatenates [S512x32, S512x16, S512x32, S512x16] S512x96 1) :
    concatenate S512x96 1 [⟨S512x32, a⟩, ⟨S512x16, b⟩, ⟨S512x32, c⟩, ⟨S512x16, d⟩] h
      = catCols (n := 96) rfl (catCols (n := 48) rfl a b) (catCols (n := 48) rfl c d) := by
  funext j
  obtain ⟨p, q, rfl⟩ : ∃ (p : Fin 512) (q : Fin 96), j = ix2 p q := ⟨j 0, j 1, eq_ix2 j⟩
  by_cases h48 : q.val < 48
  · rw [catCols_left (n := 96) rfl _ _ p q h48]
    by_cases h32 : q.val < 32
    · rw [catCols_left (n := 48) rfl a b p ⟨q.val, h48⟩ h32]
      exact concatenate_apply_piece (t := S512x96) (1 : Fin 2) [⟨S512x32, a⟩, ⟨S512x16, b⟩, ⟨S512x32, c⟩, ⟨S512x16, d⟩] h (ix2 p q) 0 (by show 0 < 4; omega) S512x32 a rfl rfl 0 rfl
        (ix2 p ⟨q.val, h32⟩)
        (fun ax hax => match ax, hax with | ⟨0, _⟩, _ => rfl | ⟨1, _⟩, hax => absurd rfl hax)
        (by show 0 + q.val = q.val; omega)
    · rw [catCols_right (n := 48) rfl a b p ⟨q.val, h48⟩ h32]
      exact concatenate_apply_piece (t := S512x96) (1 : Fin 2) [⟨S512x32, a⟩, ⟨S512x16, b⟩, ⟨S512x32, c⟩, ⟨S512x16, d⟩] h (ix2 p q) 1 (by show 1 < 4; omega) S512x16 b rfl rfl 32 rfl
        (ix2 p ⟨q.val - 32, by omega⟩)
        (fun ax hax => match ax, hax with | ⟨0, _⟩, _ => rfl | ⟨1, _⟩, hax => absurd rfl hax)
        (by show 32 + (q.val - 32) = q.val; omega)
  · rw [catCols_right (n := 96) rfl _ _ p q h48]
    by_cases h80 : q.val - 48 < 32
    · rw [catCols_left (n := 48) rfl c d p ⟨q.val - 48, by have := q.isLt; omega⟩ h80]
      exact concatenate_apply_piece (t := S512x96) (1 : Fin 2) [⟨S512x32, a⟩, ⟨S512x16, b⟩, ⟨S512x32, c⟩, ⟨S512x16, d⟩] h (ix2 p q) 2 (by show 2 < 4; omega) S512x32 c rfl rfl 48 rfl
        (ix2 p ⟨q.val - 48, h80⟩)
        (fun ax hax => match ax, hax with | ⟨0, _⟩, _ => rfl | ⟨1, _⟩, hax => absurd rfl hax)
        (by show 48 + (q.val - 48) = q.val; omega)
    · rw [catCols_right (n := 48) rfl c d p ⟨q.val - 48, by have := q.isLt; omega⟩ h80]
      exact concatenate_apply_piece (t := S512x96) (1 : Fin 2) [⟨S512x32, a⟩, ⟨S512x16, b⟩, ⟨S512x32, c⟩, ⟨S512x16, d⟩] h (ix2 p q) 3 (by show 3 < 4; omega) S512x16 d rfl rfl 80 rfl
        (ix2 p ⟨q.val - 48 - 32, by have := q.isLt; omega⟩)
        (fun ax hax => match ax, hax with | ⟨0, _⟩, _ => rfl | ⟨1, _⟩, hax => absurd rfl hax)
        (by show 80 + (q.val - 48 - 32) = q.val; omega)

/-! ## The four poolings and their concatenation -/

/-- The first graph's first layer, pooled. -/
theorem v110_eq (x0 : FVec Ideal ⟨2, ![100000, 64]⟩ .f32) (x2 : FVec Ideal ⟨2, ![512, 100000]⟩ .f32) (x4 x5 : IVec SE 32)
    (x8 : FVec Ideal ⟨2, ![64, 32]⟩ .f32) (x9 : FVec Ideal ⟨1, ![32]⟩ .f32) :
    val_main_v110 (F := Ideal) x0 x2 x4 x5 x8 x9 = matProd x2 (conv1 nrm ag32 x0 x8 x9 x4 x5) := by
  unfold val_main_v110
  rw [v48_eq, host_dot_eq dot_S512x100000_S100000x32_S512x32_1_0_0_1_n_n rfl rfl rfl rfl rfl rfl]

/-- The first graph's second layer, pooled. -/
theorem v111_eq (x0 : FVec Ideal ⟨2, ![100000, 64]⟩ .f32) (x2 : FVec Ideal ⟨2, ![512, 100000]⟩ .f32) (x4 x5 : IVec SE 32)
    (x8 : FVec Ideal ⟨2, ![64, 32]⟩ .f32) (x9 : FVec Ideal ⟨1, ![32]⟩ .f32)
    (x10 : FVec Ideal ⟨2, ![32, 16]⟩ .f32) (x11 : FVec Ideal ⟨1, ![16]⟩ .f32) :
    val_main_v111 (F := Ideal) x0 x2 x4 x5 x8 x9 x10 x11
      = matProd x2 (conv2 nrm ag16 (conv1 nrm ag32 x0 x8 x9 x4 x5) x10 x11 x4 x5) := by
  unfold val_main_v111
  rw [v68_eq, host_dot_eq dot_S512x100000_S100000x16_S512x16_1_0_0_1_n_n rfl rfl rfl rfl rfl rfl]

/-- The second graph's first layer, pooled. -/
theorem v112_eq (x1 : FVec Ideal ⟨2, ![100000, 64]⟩ .f32) (x3 : FVec Ideal ⟨2, ![512, 100000]⟩ .f32) (x6 x7 : IVec SE 32)
    (x8 : FVec Ideal ⟨2, ![64, 32]⟩ .f32) (x9 : FVec Ideal ⟨1, ![32]⟩ .f32) :
    val_main_v112 (F := Ideal) x1 x3 x6 x7 x8 x9 = matProd x3 (conv1 nrm ag32 x1 x8 x9 x6 x7) := by
  unfold val_main_v112
  rw [v89_eq, host_dot_eq dot_S512x100000_S100000x32_S512x32_1_0_0_1_n_n rfl rfl rfl rfl rfl rfl]

/-- The second graph's second layer, pooled. -/
theorem v113_eq (x1 : FVec Ideal ⟨2, ![100000, 64]⟩ .f32) (x3 : FVec Ideal ⟨2, ![512, 100000]⟩ .f32) (x6 x7 : IVec SE 32)
    (x8 : FVec Ideal ⟨2, ![64, 32]⟩ .f32) (x9 : FVec Ideal ⟨1, ![32]⟩ .f32)
    (x10 : FVec Ideal ⟨2, ![32, 16]⟩ .f32) (x11 : FVec Ideal ⟨1, ![16]⟩ .f32) :
    val_main_v113 (F := Ideal) x1 x3 x6 x7 x8 x9 x10 x11
      = matProd x3 (conv2 nrm ag16 (conv1 nrm ag32 x1 x8 x9 x6 x7) x10 x11 x6 x7) := by
  unfold val_main_v113
  rw [v109_eq, host_dot_eq dot_S512x100000_S100000x16_S512x16_1_0_0_1_n_n rfl rfl rfl rfl rfl rfl]

/-- The four pooled matrices joined: each graph's two beside each other, the first graph's pair beside the second's. -/
theorem v114_eq (x0 x1 : FVec Ideal ⟨2, ![100000, 64]⟩ .f32) (x2 x3 : FVec Ideal ⟨2, ![512, 100000]⟩ .f32)
    (x4 x5 x6 x7 : IVec SE 32) (x8 : FVec Ideal ⟨2, ![64, 32]⟩ .f32) (x9 : FVec Ideal ⟨1, ![32]⟩ .f32)
    (x10 : FVec Ideal ⟨2, ![32, 16]⟩ .f32) (x11 : FVec Ideal ⟨1, ![16]⟩ .f32) :
    val_main_v114 (F := Ideal) x0 x1 x2 x3 x4 x5 x6 x7 x8 x9 x10 x11
      = catCols (n := 96) rfl
          (pooled x2 (conv1 nrm ag32 x0 x8 x9 x4 x5) (conv2 nrm ag16 (conv1 nrm ag32 x0 x8 x9 x4 x5) x10 x11 x4 x5))
          (pooled x3 (conv1 nrm ag32 x1 x8 x9 x6 x7) (conv2 nrm ag16 (conv1 nrm ag32 x1 x8 x9 x6 x7) x10 x11 x6 x7)) := by
  unfold val_main_v114 pooled
  rw [concat4, v110_eq, v111_eq, v112_eq, v113_eq]

/-! ## The three dense layers -/

/-- The dense layers in the reference's spelling, over any input. -/
theorem head_host (d : FVec Ideal ⟨2, ![512, 96]⟩ .f32) (x12 : FVec Ideal ⟨2, ![96, 64]⟩ .f32) (x13 : FVec Ideal ⟨1, ![64]⟩ .f32)
    (x14 : FVec Ideal ⟨2, ![64, 16]⟩ .f32) (x15 : FVec Ideal ⟨1, ![16]⟩ .f32)
    (x16 : FVec Ideal ⟨2, ![16, 1]⟩ .f32) (x17 : FVec Ideal ⟨1, ![1]⟩ .f32) :
    addf (Host.dotGeneral (F := Ideal) dot_S512x16_S16x1_S512x1_1_0_0_1_n_n none
        (maximumf (addf (Host.dotGeneral (F := Ideal) dot_S512x64_S64x16_S512x16_1_0_0_1_n_n none
            (maximumf (addf (Host.dotGeneral (F := Ideal) dot_S512x96_S96x64_S512x64_1_0_0_1_n_n none d x12)
                (broadcastInDim S512x64 ![0, 1] bcast_S1x64_S512x64_0_1 (broadcastInDim S1x64 ![1] bcast_S64_S1x64_1 x13)))
              (broadcastInDim S512x64 ![] bcast_S_S512x64 (constant (F := Ideal) S_ .f32 0x00000000#32))) x14)
            (broadcastInDim S512x16 ![0, 1] bcast_S1x16_S512x16_0_1 (broadcastInDim S1x16 ![1] bcast_S16_S1x16_1 x15)))
          (broadcastInDim S512x16 ![] bcast_S_S512x16 (constant (F := Ideal) S_ .f32 0x00000000#32))) x16)
      (broadcastInDim S512x1 ![0, 1] bcast_S1x1_S512x1_0_1 (broadcastInDim S1x1 ![1] bcast_S1_S1x1_1 x17))
      = head d x12 x13 x14 x15 x16 x17 := by
  unfold head
  rw [host_dot_eq dot_S512x96_S96x64_S512x64_1_0_0_1_n_n rfl rfl rfl rfl rfl rfl,
    biasRelu_host (matProd d x12) x13,
    host_dot_eq dot_S512x64_S64x16_S512x16_1_0_0_1_n_n rfl rfl rfl rfl rfl rfl,
    biasRelu_host (matProd (biasRelu (matProd d x12) (row x13)) x14) x15,
    host_dot_eq dot_S512x16_S16x1_S512x1_1_0_0_1_n_n rfl rfl rfl rfl rfl rfl, bias_host]

/-! ## The whole network -/

/-- The reference's last stage is the network function of the arguments. -/
theorem v128_eq (x0 x1 : FVec Ideal ⟨2, ![100000, 64]⟩ .f32) (x2 x3 : FVec Ideal ⟨2, ![512, 100000]⟩ .f32)
    (x4 x5 x6 x7 : IVec SE 32) (x8 : FVec Ideal ⟨2, ![64, 32]⟩ .f32) (x9 : FVec Ideal ⟨1, ![32]⟩ .f32)
    (x10 : FVec Ideal ⟨2, ![32, 16]⟩ .f32) (x11 : FVec Ideal ⟨1, ![16]⟩ .f32)
    (x12 : FVec Ideal ⟨2, ![96, 64]⟩ .f32) (x13 : FVec Ideal ⟨1, ![64]⟩ .f32)
    (x14 : FVec Ideal ⟨2, ![64, 16]⟩ .f32) (x15 : FVec Ideal ⟨1, ![16]⟩ .f32)
    (x16 : FVec Ideal ⟨2, ![16, 1]⟩ .f32) (x17 : FVec Ideal ⟨1, ![1]⟩ .f32) :
    val_main_v128 (F := Ideal) x0 x1 x2 x3 x4 x5 x6 x7 x8 x9 x10 x11 x12 x13 x14 x15 x16 x17
      = G nrm ag32 ag16 x0 x1 x2 x3 x4 x5 x6 x7 x8 x9 x10 x11 x12 x13 x14 x15 x16 x17 := by
  have e : val_main_v128 (F := Ideal) x0 x1 x2 x3 x4 x5 x6 x7 x8 x9 x10 x11 x12 x13 x14 x15 x16 x17
      = head (val_main_v114 (F := Ideal) x0 x1 x2 x3 x4 x5 x6 x7 x8 x9 x10 x11) x12 x13 x14 x15 x16 x17 :=
    head_host (val_main_v114 (F := Ideal) x0 x1 x2 x3 x4 x5 x6 x7 x8 x9 x10 x11) x12 x13 x14 x15 x16 x17
  rw [e, v114_eq]
  rfl

/-- The reference's result, from any memory, is the network function of the argument arrays as the memory holds them. -/
theorem res_eq (m : (ℓ : Loc nD τ sig) → Buf (Elt Ideal) ℓ) (c : Dev nD) :
    Cert.ReferenceIdeal.Value.res_main_v128 (F := Ideal) m c
      = G nrm ag32 ag16
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17)) := by
  rw [val_main_v128_eq]
  exact v128_eq _ _ _ _ _ _ _ _ _ _ _ _ _ _ _ _ _ _

end Cert.Gcn.Ref

end
-- ==== Proof.lean ====
/-
  The certificate of a two-layer graph-convolution network with index-matrix pooling and a three-layer dense head:
  the tiled kernel program against the plain reference, over the extended reals.

  Both programs compute one function `Cert.Gcn.G` of the eighteen argument arrays. For each of the two graphs a layer
  scales the node features row by row by the out-degree factor, multiplies by the weights, sums the rows over the
  edges into the edges' heads, scales row by row by the in-degree factor and adds the bias (the first layer clamps
  below at zero); the layers' outputs are pooled by a product with the graph's membership matrix; the four pooled
  matrices side by side pass through three dense layers. The kernel program computes the scaled products, the pooling
  and the dense layers block by block on the matrix unit, with operands narrowed to bf16 — the identity on exact
  values — and pools the two layers' outputs joined side by side in one product, which is the two products joined side
  by side; the reference computes each as one contraction. The degree factors and the sums over the edges are the same
  host operations in both programs and are never opened. No step uses more than the definitions of the operations and
  the reindexing of finite sums: finiteness of the inputs is not needed for the values.
-/
import proofs.«115691_j25890062860848_2_alg».proof.Defs
import proofs.«115691_j25890062860848_2_alg».proof.Proof.Gen.Kernel
import proofs.«115691_j25890062860848_2_alg».proof.Proof.Gen.Kernel.Frame
import proofs.«115691_j25890062860848_2_alg».proof.Proof.Gen.KernelIdeal
import proofs.«115691_j25890062860848_2_alg».proof.Proof.Gen.KernelIdeal.Frame
import proofs.«115691_j25890062860848_2_alg».proof.Proof.Gen.ReferenceIdeal
import proofs.«115691_j25890062860848_2_alg».proof.Proof.Gen.ReferenceIdeal.Run
import proofs.«115691_j25890062860848_2_alg».proof.Proof.Gen.Pre_finite_inputs
import proofs.«115691_j25890062860848_2_alg».proof.Proof.KRun
import proofs.«115691_j25890062860848_2_alg».proof.Proof.KChainD
import proofs.«115691_j25890062860848_2_alg».proof.Proof.RefValue
import Idealize.ShloMosaic.Adequacy
import Idealize.ShloMosaic.Init

noncomputable section

namespace Cert.Proof

open Idealize.ShloMosaic Idealize.ShloMosaic.TcCoe Idealize.SL.Sem

/-- The two programs spell the degree factor with the same operations. -/
theorem nrm_eq : Cert.Gcn.Ref.nrm = Cert.Gcn.K.nrm := rfl

/-- The two programs spell the 32-wide sum over the edges with the same operations. -/
theorem ag32_eq : Cert.Gcn.Ref.ag32 = Cert.Gcn.K.ag32 := rfl

/-- The two programs spell the 16-wide sum over the edges with the same operations. -/
theorem ag16_eq : Cert.Gcn.Ref.ag16 = Cert.Gcn.K.ag16 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the network function of the arguments in their result buffers. -/
theorem algebraic : Cert.algebraic_KernelIdeal_ReferenceIdeal := by
  intro m ρ m' ρ' _ hagree
  refine ⟨fun c => Cert.Gcn.G Cert.Gcn.K.nrm Cert.Gcn.K.ag32 Cert.Gcn.K.ag16
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.Gcn.K.result_eq m ρ c), (h c).2⟩)
      (Cert.Gcn.KRun.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    rw [Cert.Gcn.Ref.res_eq m' c, e0, e1, e2, e3, e4, e5, e6, e7, e8, e9, e10, e11, e12, e13, e14, e15, e16, e17, nrm_eq, ag32_eq, ag16_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
